-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x512 : Shape := ⟨3, ![16, 128, 512]⟩
abbrev S8x16x256 : Shape := ⟨3, ![8, 16, 256]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S8x16x256 : S_.BroadcastsInDim S8x16x256 (![] : Fin 0 → Fin S8x16x256.rank)
  reducesTo_S8x16x256_S_d0_1_2 : S8x16x256.ReducesTo [0, 1, 2] S_

variable [Facts]

def fn {F : FTy → Type} [FloatOps F] (main_arg0 : FVec F S16x128x512 .f32) (main_arg1 : FVec F S16x128x512 .f32) (main_arg2 : FVec F S8x16x256 .f32) : IVec S_ 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_c : IVec S_ 1 := constantI S_ 1 1#1
  let main_v3 : IVec S_ 1 := (fun x v => Host.reduce IntOp.andi x v reducesTo_S16x128x512_S_d0_1_2 h_S_) main_v2 main_c
  let main_v4 : FVec F S16x128x512 .f32 := Host.absf main_arg1
  let main_cst_0 : FVec F S_ .f32 := constant S_ .f32 0x7F800000#32
  let main_v5 : FVec F S16x128x512 .f32 := broadcastInDim S16x128x512 ![] bcast_S_S16x128x512 main_cst_0
  let main_v6 : IVec S16x128x512 1 := cmpf .olt main_v4 main_v5
  let main_c_1 : IVec S_ 1 := constantI S_ 1 1#1
  let main_v7 : IVec S_ 1 := (fun x v => Host.reduce IntOp.andi x v reducesTo_S16x128x512_S_d0_1_2 h_S_) main_v6 main_c_1
  let main_v8 : IVec S_ 1 := andi main_v3 main_v7
  let main_v9 : FVec F S8x16x256 .f32 := Host.absf main_arg2
  let main_cst_2 : FVec F S_ .f32 := constant S_ .f32 0x7F800000#32
  let main_v10 : FVec F S8x16x256 .f32 := broadcastInDim S8x16x256 ![] bcast_S_S8x16x256 main_cst_2
  let main_v11 : IVec S8x16x256 1 := cmpf .olt main_v9 main_v10
  let main_c_3 : IVec S_ 1 := constantI S_ 1 1#1
  let main_v12 : IVec S_ 1 := (fun x v => Host.reduce IntOp.andi x v reducesTo_S8x16x256_S_d0_1_2 h_S_) main_v11 main_c_3
  let main_v13 : IVec S_ 1 := andi main_v8 main_v12
  main_v13
-- ==== Kernel.lean ====
abbrev S16x128x512 : Shape := ⟨3, ![16, 128, 512]⟩
abbrev S8x16x256 : Shape := ⟨3, ![8, 16, 256]⟩
abbrev S16x128x128 : Shape := ⟨3, ![16, 128, 128]⟩
abbrev S1x128x512 : Shape := ⟨3, ![1, 128, 512]⟩
abbrev S1x128x128 : Shape := ⟨3, ![1, 128, 128]⟩
abbrev S128x512 : Shape := ⟨2, ![128, 512]⟩
abbrev S128x256 : Shape := ⟨2, ![128, 256]⟩
abbrev S1x16x256 : Shape := ⟨3, ![1, 16, 256]⟩
abbrev S16x256 : Shape := ⟨2, ![16, 256]⟩
abbrev S1x256 : Shape := ⟨2, ![1, 256]⟩
abbrev S256x16 : Shape := ⟨2, ![256, 16]⟩
abbrev S128x16 : Shape := ⟨2, ![128, 16]⟩
abbrev S16x1x256 : Shape := ⟨3, ![16, 1, 256]⟩
abbrev S1x128x256 : Shape := ⟨3, ![1, 128, 256]⟩
abbrev S16x128x256 : Shape := ⟨3, ![16, 128, 256]⟩
abbrev S2048x256 : Shape := ⟨2, ![2048, 256]⟩
abbrev S256x128 : Shape := ⟨2, ![256, 128]⟩
abbrev S2048x128 : Shape := ⟨2, ![2048, 128]⟩
abbrev S16x128 : Shape := ⟨2, ![16, 128]⟩
abbrev S16x128x1 : Shape := ⟨3, ![16, 128, 1]⟩
abbrev S16x1x128 : Shape := ⟨3, ![16, 1, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S128x32 : Shape := ⟨2, ![128, 32]⟩
abbrev S32x256 : Shape := ⟨2, ![32, 256]⟩
abbrev S256x32 : Shape := ⟨2, ![256, 32]⟩
abbrev S128x1x32 : Shape := ⟨3, ![128, 1, 32]⟩
abbrev S1x256x32 : Shape := ⟨3, ![1, 256, 32]⟩
abbrev S128x256x32 : Shape := ⟨3, ![128, 256, 32]⟩

abbrev nBuf : Space → Nat
  | .hbm => 4
  | .vmem => 7
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S8x16x256, .f32⟩
  | .hbm, ⟨3, _⟩ => ⟨S16x128x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S8x16x256, .f32⟩
  | .local _ .vmem, ⟨5, _⟩ => ⟨S1x128x128, .f32⟩
  | .local _ .vmem, ⟨6, _⟩ => ⟨S1x128x128, .f32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S8x16x256_S8x16x256_0_0_0 : ∀ a, (![0, 0, 0] : Fin 3 → Nat) a + S8x16x256.size a ≤ S8x16x256.size a
  h_S8x16x256 : 0 < S8x16x256.numel
  slices_S128x512_o0_0_S128x256 : S128x512.Slices ![0, 0] S128x256
  slices_S128x512_o0_256_S128x256 : S128x512.Slices ![0, 256] S128x256
  slices_S8x16x256_o0_0_0_S1x16x256 : S8x16x256.Slices ![0, 0, 0] S1x16x256
  shapeCasts_S1x16x256_S16x256 : S1x16x256.ShapeCasts S16x256
  slices_S8x16x256_o2_0_0_S1x16x256 : S8x16x256.Slices ![2, 0, 0] S1x16x256
  slices_S8x16x256_o4_0_0_S1x16x256 : S8x16x256.Slices ![4, 0, 0] S1x16x256
  slices_S8x16x256_o6_0_0_S1x16x256 : S8x16x256.Slices ![6, 0, 0] S1x16x256
  slices_S128x256_o127_0_S1x256 : S128x256.Slices ![127, 0] S1x256
  shapeCasts_S1x256_S1x256 : S1x256.ShapeCasts S1x256
  broadcasts_S1x256_S128x256 : S1x256.Broadcasts S128x256
  transposes_S16x256_p1_0_S256x16 : S16x256.Transposes [1, 0] S256x16
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  shapeCasts_S16x128x256_S2048x256 : S16x128x256.ShapeCasts S2048x256
  transposes_S128x256_p1_0_S256x128 : S128x256.Transposes [1, 0] S256x128
  shapeCasts_S2048x128_S16x128x128 : S2048x128.ShapeCasts S16x128x128
  shapeCasts_S16x128_S16x128x1 : S16x128.ShapeCasts S16x128x1
  shapeCasts_S16x128_S16x1x128 : S16x128.ShapeCasts S16x1x128
  broadcasts_S16x128x1_S16x128x128 : S16x128x1.Broadcasts S16x128x128
  broadcasts_S16x1x128_S16x128x128 : S16x1x128.Broadcasts S16x128x128
  reduces_S16x128x128_S16x128 : S16x128x128.Reduces [2] S16x128
  transposes_S16x128_p1_0_S128x16 : S16x128.Transposes [1, 0] S128x16
  reduces_S128x256_S128 : S128x256.Reduces [1] S128
  shapeCasts_S128_S128x1 : S128.ShapeCasts S128x1
  transposes_S128x1_p1_0_S1x128 : S128x1.Transposes [1, 0] S1x128
  broadcasts_S128x1_S128x128 : S128x1.Broadcasts S128x128
  broadcasts_S1x128_S128x128 : S1x128.Broadcasts S128x128
  reduces_S128x128_S128 : S128x128.Reduces [1] S128
  broadcasts_S128x1_S128x256 : S128x1.Broadcasts S128x256
  slices_S128x128_o0_0_S128x32 : S128x128.Slices ![0, 0] S128x32
  slices_S128x256_o0_0_S32x256 : S128x256.Slices ![0, 0] S32x256
  transposes_S32x256_p1_0_S256x32 : S32x256.Transposes [1, 0] S256x32
  shapeCasts_S128x32_S128x1x32 : S128x32.ShapeCasts S128x1x32
  shapeCasts_S256x32_S1x256x32 : S256x32.ShapeCasts S1x256x32
  broadcasts_S128x1x32_S128x256x32 : S128x1x32.Broadcasts S128x256x32
  broadcasts_S1x256x32_S128x256x32 : S1x256x32.Broadcasts S128x256x32
  reduces_S128x256x32_S128x256 : S128x256x32.Reduces [2] S128x256
  slices_S128x128_o0_32_S128x32 : S128x128.Slices ![0, 32] S128x32
  slices_S128x256_o32_0_S32x256 : S128x256.Slices ![32, 0] S32x256
  slices_S128x128_o0_64_S128x32 : S128x128.Slices ![0, 64] S128x32
  slices_S128x256_o64_0_S32x256 : S128x256.Slices ![64, 0] S32x256
  slices_S128x128_o0_96_S128x32 : S128x128.Slices ![0, 96] S128x32
  slices_S128x256_o96_0_S32x256 : S128x256.Slices ![96, 0] S32x256
  slices_S8x16x256_o1_0_0_S1x16x256 : S8x16x256.Slices ![1, 0, 0] S1x16x256
  slices_S8x16x256_o3_0_0_S1x16x256 : S8x16x256.Slices ![3, 0, 0] S1x16x256
  slices_S8x16x256_o5_0_0_S1x16x256 : S8x16x256.Slices ![5, 0, 0] S1x16x256
  slices_S8x16x256_o7_0_0_S1x16x256 : S8x16x256.Slices ![7, 0, 0] S1x16x256
  slices_S128x256_o0_0_S1x256 : S128x256.Slices ![0, 0] S1x256
  concatenates_S128x16_S128x16_S128x16_S128x16_S128x16_S128x16_S128x16_S128x16_S128x128_d1 : Shape.Concatenates [S128x16, S128x16, S128x16, S128x16, S128x16, S128x16, S128x16, S128x16] S128x128 1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S128x256_S256x16_S128x16_1_0_0_1_n_n_wf : DotDims.WF S128x256 S256x16 S128x16 [1] [0] [0] [1] [] []
  dot_S2048x256_S256x128_S2048x128_1_0_0_1_n_n_wf : DotDims.WF S2048x256 S256x128 S2048x128 [1] [0] [0] [1] [] []
  dot_S16x256_S256x128_S16x128_1_0_0_1_n_n_wf : DotDims.WF S16x256 S256x128 S16x128 [1] [0] [0] [1] [] []
  dot_S128x256_S256x128_S128x128_1_0_0_1_n_n_wf : DotDims.WF S128x256 S256x128 S128x128 [1] [0] [0] [1] [] []
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S16x128x512.size a
  hwx0_0 : ∀ i : grid0.Coords, EltTy.bits .f32 = 32 ∨ (Rect.block (s := S16x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S16x128x512.size a
  hwx0_1 : ∀ i : grid0.Coords, EltTy.bits .f32 = 32 ∨ (Rect.block (s := S16x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x16x256.size a ≤ S8x16x256.size a
  hwx0_2 : ∀ i : grid0.Coords, EltTy.bits .f32 = 32 ∨ (Rect.block (s := S8x16x256) S8x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S16x128x128.size a
  hwx0_3 : ∀ i : grid0.Coords, EltTy.bits .f32 = 32 ∨ (Rect.block (s := S16x128x128) S1x128x128.size (cc0_transform_3 i) (hinb0_3 i)).WholeWords (EltTy.packing .f32)

variable [Facts₀]

def dot_S128x256_S256x16_S128x16_1_0_0_1_n_n : DotDims S128x256 S256x16 S128x16 where
  lhsContracting := [1]
  rhsContracting := [0]
  lhsNonContracting := [0]
  rhsNonContracting := [1]
  lhsBatch := []
  rhsBatch := []
  wf := dot_S128x256_S256x16_S128x16_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x512 : Shape := ⟨3, ![16, 128, 512]⟩
abbrev S8x16x256 : Shape := ⟨3, ![8, 16, 256]⟩
abbrev S16x128x256 : Shape := ⟨3, ![16, 128, 256]⟩
abbrev S1x16x256 : Shape := ⟨3, ![1, 16, 256]⟩
abbrev S16x256 : Shape := ⟨2, ![16, 256]⟩
abbrev S16x1x256 : Shape := ⟨3, ![16, 1, 256]⟩
abbrev S16x128x1x256 : Shape := ⟨4, ![16, 128, 1, 256]⟩
abbrev S1x1x16x256 : Shape := ⟨4, ![1, 1, 16, 256]⟩
abbrev S16x128x16x256 : Shape := ⟨4, ![16, 128, 16, 256]⟩
abbrev S_ : Shape := ⟨0, ![]⟩
abbrev S16x128x16 : Shape := ⟨3, ![16, 128, 16]⟩
abbrev S16x1x128x256 : Shape := ⟨4, ![16, 1, 128, 256]⟩
abbrev S1x16x1x256 : Shape := ⟨4, ![1, 16, 1, 256]⟩
abbrev S16x16x128x256 : Shape := ⟨4, ![16, 16, 128, 256]⟩
abbrev S16x16x128 : Shape := ⟨3, ![16, 16, 128]⟩
abbrev S16x16x128x128 : Shape := ⟨4, ![16, 16, 128, 128]⟩
abbrev S16x16x128x1 : Shape := ⟨4, ![16, 16, 128, 1]⟩
abbrev S16x16x1x128 : Shape := ⟨4, ![16, 16, 1, 128]⟩
abbrev S16x128 : Shape := ⟨2, ![16, 128]⟩
abbrev S16x128x1 : Shape := ⟨3, ![16, 128, 1]⟩
abbrev S16x128x128 : Shape := ⟨3, ![16, 128, 128]⟩
abbrev S16x1x128 : Shape := ⟨3, ![16, 1, 128]⟩
abbrev S16x128x128x1 : Shape := ⟨4, ![16, 128, 128, 1]⟩
abbrev S16x128x128x256 : Shape := ⟨4, ![16, 128, 128, 256]⟩

abbrev nBuf : Space → Nat
  | .hbm => 358
  | .vmem => 0
  | .smem => 0
  | _ => 0

abbrev hbmTy0_0 (i : Nat) : BufTy := match i % 128 with
  | 0 => ⟨S16x128x512, .f32⟩
  | 1 => ⟨S16x128x512, .f32⟩
  | 2 => ⟨S8x16x256, .f32⟩
  | 3 => ⟨S16x128x256, .f32⟩
  | 4 => ⟨S16x128x256, .f32⟩
  | 5 => ⟨S16x128x256, .f32⟩
  | 6 => ⟨S16x128x256, .f32⟩
  | 7 => ⟨S1x16x256, .f32⟩
  | 8 => ⟨S16x256, .f32⟩
  | 9 => ⟨S1x16x256, .f32⟩
  | 10 => ⟨S16x256, .f32⟩
  | 11 => ⟨S1x16x256, .f32⟩
  | 12 => ⟨S16x256, .f32⟩
  | 13 => ⟨S1x16x256, .f32⟩
  | 14 => ⟨S16x256, .f32⟩
  | 15 => ⟨S16x1x256, .f32⟩
  | 16 => ⟨S16x128x256, .f32⟩
  | 17 => ⟨S16x128x1x256, .f32⟩
  | 18 => ⟨S1x1x16x256, .f32⟩
  | 19 => ⟨S16x128x16x256, .f32⟩
  | 20 => ⟨S16x128x16x256, .f32⟩
  | 21 => ⟨S16x128x16x256, .f32⟩
  | 22 => ⟨S16x128x1x256, .f32⟩
  | 23 => ⟨S1x1x16x256, .f32⟩
  | 24 => ⟨S16x128x16x256, .f32⟩
  | 25 => ⟨S16x128x16x256, .f32⟩
  | 26 => ⟨S16x128x16x256, .f32⟩
  | 27 => ⟨S16x128x16x256, .f32⟩
  | 28 => ⟨S_, .f32⟩
  | 29 => ⟨S16x128x16, .f32⟩
  | 30 => ⟨S16x128x16, .f32⟩
  | 31 => ⟨S_, .f32⟩
  | 32 => ⟨S16x128x16, .f32⟩
  | 33 => ⟨S16x128x16, .f32⟩
  | 34 => ⟨S16x128x16x256, .f32⟩
  | 35 => ⟨S_, .f32⟩
  | 36 => ⟨S16x128x16, .f32⟩
  | 37 => ⟨S16x128x16, .f32⟩
  | 38 => ⟨S_, .f32⟩
  | 39 => ⟨S16x128x16, .f32⟩
  | 40 => ⟨S16x128x16, .f32⟩
  | 41 => ⟨S16x128x16x256, .f32⟩
  | 42 => ⟨S_, .f32⟩
  | 43 => ⟨S16x128x16, .f32⟩
  | 44 => ⟨S16x128x16, .f32⟩
  | 45 => ⟨S16x128x16, .f32⟩
  | 46 => ⟨S16x1x128x256, .f32⟩
  | 47 => ⟨S1x16x1x256, .f32⟩
  | 48 => ⟨S16x16x128x256, .f32⟩
  | 49 => ⟨S16x16x128x256, .f32⟩
  | 50 => ⟨S16x16x128x256, .f32⟩
  | 51 => ⟨S16x1x128x256, .f32⟩
  | 52 => ⟨S1x16x1x256, .f32⟩
  | 53 => ⟨S16x16x128x256, .f32⟩
  | 54 => ⟨S16x16x128x256, .f32⟩
  | 55 => ⟨S16x16x128x256, .f32⟩
  | 56 => ⟨S16x16x128x256, .f32⟩
  | 57 => ⟨S_, .f32⟩
  | 58 => ⟨S16x16x128, .f32⟩
  | 59 => ⟨S16x16x128, .f32⟩
  | 60 => ⟨S_, .f32⟩
  | 61 => ⟨S16x16x128, .f32⟩
  | 62 => ⟨S16x16x128, .f32⟩
  | 63 => ⟨S16x16x128x256, .f32⟩
  | 64 => ⟨S_, .f32⟩
  | 65 => ⟨S16x16x128, .f32⟩
  | 66 => ⟨S16x16x128, .f32⟩
  | 67 => ⟨S_, .f32⟩
  | 68 => ⟨S16x16x128, .f32⟩
  | 69 => ⟨S16x16x128, .f32⟩
  | 70 => ⟨S16x16x128x128, .f32⟩
  | 71 => ⟨S16x16x128x1, .f32⟩
  | 72 => ⟨S16x16x1x128, .f32⟩
  | 73 => ⟨S16x16x128x128, .f32⟩
  | 74 => ⟨S16x16x128x128, .f32⟩
  | 75 => ⟨S16x16x128x128, .f32⟩
  | 76 => ⟨S16x16x128x128, .f32⟩
  | 77 => ⟨S_, .f32⟩
  | 78 => ⟨S16x16x128, .f32⟩
  | 79 => ⟨S16x128x16, .f32⟩
  | 80 => ⟨S16x128x256, .f32⟩
  | 81 => ⟨S_, .f32⟩
  | 82 => ⟨S16x128, .f32⟩
  | 83 => ⟨S16x128x1, .f32⟩
  | 84 => ⟨S16x128x1, .f32⟩
  | 85 => ⟨S16x128x256, .f32⟩
  | 86 => ⟨S_, .f32⟩
  | 87 => ⟨S16x128, .f32⟩
  | 88 => ⟨S16x128x1, .f32⟩
  | 89 => ⟨S16x128x1, .f32⟩
  | 90 => ⟨S16x128x128, .f32⟩
  | 91 => ⟨S16x1x128, .f32⟩
  | 92 => ⟨S16x128x128, .f32⟩
  | 93 => ⟨S16x128x128, .f32⟩
  | 94 => ⟨S16x128x128, .f32⟩
  | 95 => ⟨S_, .f32⟩
  | 96 => ⟨S16x128x128, .f32⟩
  | 97 => ⟨S16x128x128, .i1⟩
  | 98 => ⟨S_, .f32⟩
  | 99 => ⟨S_, .f32⟩
  | 100 => ⟨S16x128x128, .f32⟩
  | 101 => ⟨S16x128x128, .f32⟩
  | 102 => ⟨S16x128x128, .f32⟩
  | 103 => ⟨S16x128x128x1, .f32⟩
  | 104 => ⟨S16x1x128x256, .f32⟩
  | 105 => ⟨S16x128x128x256, .f32⟩
  | 106 => ⟨S16x128x128x256, .f32⟩
  | 107 => ⟨S16x128x128x256, .f32⟩
  | 108 => ⟨S_, .f32⟩
  | 109 => ⟨S16x128x256, .f32⟩
  | 110 => ⟨S_, .f32⟩
  | 111 => ⟨S16x128, .f32⟩
  | 112 => ⟨S16x128x1, .f32⟩
  | 113 => ⟨S_, .f32⟩
  | 114 => ⟨S16x128x1, .f32⟩
  | 115 => ⟨S16x128x1, .i1⟩
  | 116 => ⟨S_, .f32⟩
  | 117 => ⟨S_, .f32⟩
  | 118 => ⟨S16x128x1, .f32⟩
  | 119 => ⟨S16x128x1, .f32⟩
  | 120 => ⟨S16x128x256, .f32⟩
  | 121 => ⟨S16x128x256, .f32⟩
  | 122 => ⟨S16x128x1x256, .f32⟩
  | 123 => ⟨S1x1x16x256, .f32⟩
  | 124 => ⟨S16x128x16x256, .f32⟩
  | 125 => ⟨S16x128x16x256, .f32⟩
  | 126 => ⟨S16x128x16x256, .f32⟩
  | 127 => ⟨S16x128x1x256, .f32⟩
  | _ => ⟨S16x128x512, .f32⟩

abbrev hbmTy0_1 (i : Nat) : BufTy := match i % 128 with
  | 0 => ⟨S1x1x16x256, .f32⟩
  | 1 => ⟨S16x128x16x256, .f32⟩
  | 2 => ⟨S16x128x16x256, .f32⟩
  | 3 => ⟨S16x128x16x256, .f32⟩
  | 4 => ⟨S16x128x16x256, .f32⟩
  | 5 => ⟨S_, .f32⟩
  | 6 => ⟨S16x128x16, .f32⟩
  | 7 => ⟨S16x128x16, .f32⟩
  | 8 => ⟨S_, .f32⟩
  | 9 => ⟨S16x128x16, .f32⟩
  | 10 => ⟨S16x128x16, .f32⟩
  | 11 => ⟨S16x128x16x256, .f32⟩
  | 12 => ⟨S_, .f32⟩
  | 13 => ⟨S16x128x16, .f32⟩
  | 14 => ⟨S16x128x16, .f32⟩
  | 15 => ⟨S_, .f32⟩
  | 16 => ⟨S16x128x16, .f32⟩
  | 17 => ⟨S16x128x16, .f32⟩
  | 18 => ⟨S16x128x16x256, .f32⟩
  | 19 => ⟨S_, .f32⟩
  | 20 => ⟨S16x128x16, .f32⟩
  | 21 => ⟨S16x128x16, .f32⟩
  | 22 => ⟨S16x128x16, .f32⟩
  | 23 => ⟨S_, .f32⟩
  | 24 => ⟨S16x128x256, .f32⟩
  | 25 => ⟨S16x128x1x256, .f32⟩
  | 26 => ⟨S1x1x16x256, .f32⟩
  | 27 => ⟨S16x128x16x256, .f32⟩
  | 28 => ⟨S16x128x16x256, .f32⟩
  | 29 => ⟨S16x128x16x256, .f32⟩
  | 30 => ⟨S16x128x1x256, .f32⟩
  | 31 => ⟨S1x1x16x256, .f32⟩
  | 32 => ⟨S16x128x16x256, .f32⟩
  | 33 => ⟨S16x128x16x256, .f32⟩
  | 34 => ⟨S16x128x16x256, .f32⟩
  | 35 => ⟨S16x128x16x256, .f32⟩
  | 36 => ⟨S_, .f32⟩
  | 37 => ⟨S16x128x16, .f32⟩
  | 38 => ⟨S16x128x16, .f32⟩
  | 39 => ⟨S_, .f32⟩
  | 40 => ⟨S16x128x16, .f32⟩
  | 41 => ⟨S16x128x16, .f32⟩
  | 42 => ⟨S16x128x16x256, .f32⟩
  | 43 => ⟨S_, .f32⟩
  | 44 => ⟨S16x128x16, .f32⟩
  | 45 => ⟨S16x128x16, .f32⟩
  | 46 => ⟨S_, .f32⟩
  | 47 => ⟨S16x128x16, .f32⟩
  | 48 => ⟨S16x128x16, .f32⟩
  | 49 => ⟨S16x128x16x256, .f32⟩
  | 50 => ⟨S_, .f32⟩
  | 51 => ⟨S16x128x16, .f32⟩
  | 52 => ⟨S16x128x16, .f32⟩
  | 53 => ⟨S16x128x16, .f32⟩
  | 54 => ⟨S1x16x256, .f32⟩
  | 55 => ⟨S16x256, .f32⟩
  | 56 => ⟨S1x16x256, .f32⟩
  | 57 => ⟨S16x256, .f32⟩
  | 58 => ⟨S1x16x256, .f32⟩
  | 59 => ⟨S16x256, .f32⟩
  | 60 => ⟨S1x16x256, .f32⟩
  | 61 => ⟨S16x256, .f32⟩
  | 62 => ⟨S16x1x256, .f32⟩
  | 63 => ⟨S16x128x256, .f32⟩
  | 64 => ⟨S16x128x1x256, .f32⟩
  | 65 => ⟨S1x1x16x256, .f32⟩
  | 66 => ⟨S16x128x16x256, .f32⟩
  | 67 => ⟨S16x128x16x256, .f32⟩
  | 68 => ⟨S16x128x16x256, .f32⟩
  | 69 => ⟨S16x128x1x256, .f32⟩
  | 70 => ⟨S1x1x16x256, .f32⟩
  | 71 => ⟨S16x128x16x256, .f32⟩
  | 72 => ⟨S16x128x16x256, .f32⟩
  | 73 => ⟨S16x128x16x256, .f32⟩
  | 74 => ⟨S16x128x16x256, .f32⟩
  | 75 => ⟨S_, .f32⟩
  | 76 => ⟨S16x128x16, .f32⟩
  | 77 => ⟨S16x128x16, .f32⟩
  | 78 => ⟨S_, .f32⟩
  | 79 => ⟨S16x128x16, .f32⟩
  | 80 => ⟨S16x128x16, .f32⟩
  | 81 => ⟨S16x128x16x256, .f32⟩
  | 82 => ⟨S_, .f32⟩
  | 83 => ⟨S16x128x16, .f32⟩
  | 84 => ⟨S16x128x16, .f32⟩
  | 85 => ⟨S_, .f32⟩
  | 86 => ⟨S16x128x16, .f32⟩
  | 87 => ⟨S16x128x16, .f32⟩
  | 88 => ⟨S16x128x16x256, .f32⟩
  | 89 => ⟨S_, .f32⟩
  | 90 => ⟨S16x128x16, .f32⟩
  | 91 => ⟨S16x128x16, .f32⟩
  | 92 => ⟨S16x128x16, .f32⟩
  | 93 => ⟨S16x1x128x256, .f32⟩
  | 94 => ⟨S1x16x1x256, .f32⟩
  | 95 => ⟨S16x16x128x256, .f32⟩
  | 96 => ⟨S16x16x128x256, .f32⟩
  | 97 => ⟨S16x16x128x256, .f32⟩
  | 98 => ⟨S16x1x128x256, .f32⟩
  | 99 => ⟨S1x16x1x256, .f32⟩
  | 100 => ⟨S16x16x128x256, .f32⟩
  | 101 => ⟨S16x16x128x256, .f32⟩
  | 102 => ⟨S16x16x128x256, .f32⟩
  | 103 => ⟨S16x16x128x256, .f32⟩
  | 104 => ⟨S_, .f32⟩
  | 105 => ⟨S16x16x128, .f32⟩
  | 106 => ⟨S16x16x128, .f32⟩
  | 107 => ⟨S_, .f32⟩
  | 108 => ⟨S16x16x128, .f32⟩
  | 109 => ⟨S16x16x128, .f32⟩
  | 110 => ⟨S16x16x128x256, .f32⟩
  | 111 => ⟨S_, .f32⟩
  | 112 => ⟨S16x16x128, .f32⟩
  | 113 => ⟨S16x16x128, .f32⟩
  | 114 => ⟨S_, .f32⟩
  | 115 => ⟨S16x16x128, .f32⟩
  | 116 => ⟨S16x16x128, .f32⟩
  | 117 => ⟨S16x16x128x128, .f32⟩
  | 118 => ⟨S16x16x128x1, .f32⟩
  | 119 => ⟨S16x16x1x128, .f32⟩
  | 120 => ⟨S16x16x128x128, .f32⟩
  | 121 => ⟨S16x16x128x128, .f32⟩
  | 122 => ⟨S16x16x128x128, .f32⟩
  | 123 => ⟨S16x16x128x128, .f32⟩
  | 124 => ⟨S_, .f32⟩
  | 125 => ⟨S16x16x128, .f32⟩
  | 126 => ⟨S16x128x16, .f32⟩
  | 127 => ⟨S16x128x256, .f32⟩
  | _ => ⟨S16x128x512, .f32⟩

abbrev hbmTy0_2 (i : Nat) : BufTy := match i % 128 with
  | 0 => ⟨S_, .f32⟩
  | 1 => ⟨S16x128, .f32⟩
  | 2 => ⟨S16x128x1, .f32⟩
  | 3 => ⟨S16x128x1, .f32⟩
  | 4 => ⟨S16x128x256, .f32⟩
  | 5 => ⟨S_, .f32⟩
  | 6 => ⟨S16x128, .f32⟩
  | 7 => ⟨S16x128x1, .f32⟩
  | 8 => ⟨S16x128x1, .f32⟩
  | 9 => ⟨S16x128x128, .f32⟩
  | 10 => ⟨S16x1x128, .f32⟩
  | 11 => ⟨S16x128x128, .f32⟩
  | 12 => ⟨S16x128x128, .f32⟩
  | 13 => ⟨S16x128x128, .f32⟩
  | 14 => ⟨S_, .f32⟩
  | 15 => ⟨S16x128x128, .f32⟩
  | 16 => ⟨S16x128x128, .i1⟩
  | 17 => ⟨S_, .f32⟩
  | 18 => ⟨S_, .f32⟩
  | 19 => ⟨S16x128x128, .f32⟩
  | 20 => ⟨S16x128x128, .f32⟩
  | 21 => ⟨S16x128x128, .f32⟩
  | 22 => ⟨S16x128x128x1, .f32⟩
  | 23 => ⟨S16x1x128x256, .f32⟩
  | 24 => ⟨S16x128x128x256, .f32⟩
  | 25 => ⟨S16x128x128x256, .f32⟩
  | 26 => ⟨S16x128x128x256, .f32⟩
  | 27 => ⟨S_, .f32⟩
  | 28 => ⟨S16x128x256, .f32⟩
  | 29 => ⟨S_, .f32⟩
  | 30 => ⟨S16x128, .f32⟩
  | 31 => ⟨S16x128x1, .f32⟩
  | 32 => ⟨S_, .f32⟩
  | 33 => ⟨S16x128x1, .f32⟩
  | 34 => ⟨S16x128x1, .i1⟩
  | 35 => ⟨S_, .f32⟩
  | 36 => ⟨S_, .f32⟩
  | 37 => ⟨S16x128x1, .f32⟩
  | 38 => ⟨S16x128x1, .f32⟩
  | 39 => ⟨S16x128x256, .f32⟩
  | 40 => ⟨S16x128x256, .f32⟩
  | 41 => ⟨S16x128x1x256, .f32⟩
  | 42 => ⟨S1x1x16x256, .f32⟩
  | 43 => ⟨S16x128x16x256, .f32⟩
  | 44 => ⟨S16x128x16x256, .f32⟩
  | 45 => ⟨S16x128x16x256, .f32⟩
  | 46 => ⟨S16x128x1x256, .f32⟩
  | 47 => ⟨S1x1x16x256, .f32⟩
  | 48 => ⟨S16x128x16x256, .f32⟩
  | 49 => ⟨S16x128x16x256, .f32⟩
  | 50 => ⟨S16x128x16x256, .f32⟩
  | 51 => ⟨S16x128x16x256, .f32⟩
  | 52 => ⟨S_, .f32⟩
  | 53 => ⟨S16x128x16, .f32⟩
  | 54 => ⟨S16x128x16, .f32⟩
  | 55 => ⟨S_, .f32⟩
  | 56 => ⟨S16x128x16, .f32⟩
  | 57 => ⟨S16x128x16, .f32⟩
  | 58 => ⟨S16x128x16x256, .f32⟩
  | 59 => ⟨S_, .f32⟩
  | 60 => ⟨S16x128x16, .f32⟩
  | 61 => ⟨S16x128x16, .f32⟩
  | 62 => ⟨S_, .f32⟩
  | 63 => ⟨S16x128x16, .f32⟩
  | 64 => ⟨S16x128x16, .f32⟩
  | 65 => ⟨S16x128x16x256, .f32⟩
  | 66 => ⟨S_, .f32⟩
  | 67 => ⟨S16x128x16, .f32⟩
  | 68 => ⟨S16x128x16, .f32⟩
  | 69 => ⟨S16x128x16, .f32⟩
  | 70 => ⟨S_, .f32⟩
  | 71 => ⟨S16x128x256, .f32⟩
  | 72 => ⟨S16x128x1x256, .f32⟩
  | 73 => ⟨S1x1x16x256, .f32⟩
  | 74 => ⟨S16x128x16x256, .f32⟩
  | 75 => ⟨S16x128x16x256, .f32⟩
  | 76 => ⟨S16x128x16x256, .f32⟩
  | 77 => ⟨S16x128x1x256, .f32⟩
  | 78 => ⟨S1x1x16x256, .f32⟩
  | 79 => ⟨S16x128x16x256, .f32⟩
  | 80 => ⟨S16x128x16x256, .f32⟩
  | 81 => ⟨S16x128x16x256, .f32⟩
  | 82 => ⟨S16x128x16x256, .f32⟩
  | 83 => ⟨S_, .f32⟩
  | 84 => ⟨S16x128x16, .f32⟩
  | 85 => ⟨S16x128x16, .f32⟩
  | 86 => ⟨S_, .f32⟩
  | 87 => ⟨S16x128x16, .f32⟩
  | 88 => ⟨S16x128x16, .f32⟩
  | 89 => ⟨S16x128x16x256, .f32⟩
  | 90 => ⟨S_, .f32⟩
  | 91 => ⟨S16x128x16, .f32⟩
  | 92 => ⟨S16x128x16, .f32⟩
  | 93 => ⟨S_, .f32⟩
  | 94 => ⟨S16x128x16, .f32⟩
  | 95 => ⟨S16x128x16, .f32⟩
  | 96 => ⟨S16x128x16x256, .f32⟩
  | 97 => ⟨S_, .f32⟩
  | 98 => ⟨S16x128x16, .f32⟩
  | 99 => ⟨S16x128x16, .f32⟩
  | 100 => ⟨S16x128x16, .f32⟩
  | 101 => ⟨S16x128x128, .f32⟩
  | _ => ⟨S16x128x512, .f32⟩

abbrev hbmTy (i : Nat) : BufTy := match i / 128 with
  | 0 => hbmTy0_0 i
  | 1 => hbmTy0_1 i
  | 2 => hbmTy0_2 i
  | _ => ⟨S16x128x512, .f32⟩

abbrev bufTy : (tb : Table) → Fin (tcTables nBuf tb) → BufTy
  | .hbm, ⟨i, _⟩ => hbmTy i
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_call3_v0 : Ref sig .tc := ⟨.hbm, 63, rfl⟩
abbrev main_call3_cst : Ref sig .tc := ⟨.hbm, 64, rfl⟩
abbrev main_call3_v1 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v59 : Ref sig .tc := ⟨.hbm, 84, rfl⟩
abbrev main_call5_v0 : Ref sig .tc := ⟨.hbm, 85, rfl⟩
abbrev main_call5_cst : Ref sig .tc := ⟨.hbm, 86, rfl⟩
abbrev main_call5_v1 : Ref sig .tc := ⟨.hbm, 87, rfl⟩
abbrev main_call5_v2 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_5 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_call6_v0 : Ref sig .tc := ⟨.hbm, 99, rfl⟩
abbrev main_call6_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_cst_8 : Ref sig .tc := ⟨.hbm, 110, rfl⟩
abbrev main_v76 : Ref sig .tc := ⟨.hbm, 111, rfl⟩
abbrev main_v77 : Ref sig .tc := ⟨.hbm, 112, rfl⟩
abbrev main_cst_9 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_call7_v0 : Ref sig .tc := ⟨.hbm, 117, rfl⟩
abbrev main_call7_v1 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call8_v0 : Ref sig .tc := ⟨.hbm, 132, rfl⟩
abbrev main_call8_cst : Ref sig .tc := ⟨.hbm, 133, rfl⟩
abbrev main_call8_v1 : Ref sig .tc := ⟨.hbm, 134, rfl⟩
abbrev main_v93 : Ref sig .tc := ⟨.hbm, 135, rfl⟩
abbrev main_cst_11 : Ref sig .tc := ⟨.hbm, 136, rfl⟩
abbrev main_v94 : Ref sig .tc := ⟨.hbm, 137, rfl⟩
abbrev main_v95 : Ref sig .tc := ⟨.hbm, 138, rfl⟩
abbrev main_call9_v0 : Ref sig .tc := ⟨.hbm, 139, rfl⟩
abbrev main_call9_cst : Ref sig .tc := ⟨.hbm, 140, rfl⟩
abbrev main_call9_v1 : Ref sig .tc := ⟨.hbm, 141, rfl⟩
abbrev main_v96 : Ref sig .tc := ⟨.hbm, 142, rfl⟩
abbrev main_cst_12 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_13 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_14 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_call10_v0 : Ref sig .tc := ⟨.hbm, 163, rfl⟩
abbrev main_call10_cst : Ref sig .tc := ⟨.hbm, 164, rfl⟩
abbrev main_call10_v1 : Ref sig .tc := ⟨.hbm, 165, rfl⟩
abbrev main_v114 : Ref sig .tc := ⟨.hbm, 166, rfl⟩
abbrev main_cst_15 : Ref sig .tc := ⟨.hbm, 167, rfl⟩
abbrev main_v115 : Ref sig .tc := ⟨.hbm, 168, rfl⟩
abbrev main_v116 : Ref sig .tc := ⟨.hbm, 169, rfl⟩
abbrev main_call11_v0 : Ref sig .tc := ⟨.hbm, 170, rfl⟩
abbrev main_call11_cst : Ref sig .tc := ⟨.hbm, 171, rfl⟩
abbrev main_call11_v1 : Ref sig .tc := ⟨.hbm, 172, rfl⟩
abbrev main_v117 : Ref sig .tc := ⟨.hbm, 173, rfl⟩
abbrev main_cst_16 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_17 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_call12_v0 : Ref sig .tc := ⟨.hbm, 202, rfl⟩
abbrev main_call12_cst : Ref sig .tc := ⟨.hbm, 203, rfl⟩
abbrev main_call12_v1 : Ref sig .tc := ⟨.hbm, 204, rfl⟩
abbrev main_v144 : Ref sig .tc := ⟨.hbm, 205, rfl⟩
abbrev main_cst_18 : Ref sig .tc := ⟨.hbm, 206, rfl⟩
abbrev main_v145 : Ref sig .tc := ⟨.hbm, 207, rfl⟩
abbrev main_v146 : Ref sig .tc := ⟨.hbm, 208, rfl⟩
abbrev main_call13_v0 : Ref sig .tc := ⟨.hbm, 209, rfl⟩
abbrev main_call13_cst : Ref sig .tc := ⟨.hbm, 210, rfl⟩
abbrev main_call13_v1 : Ref sig .tc := ⟨.hbm, 211, rfl⟩
abbrev main_v147 : Ref sig .tc := ⟨.hbm, 212, rfl⟩
abbrev main_cst_19 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_20 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_call14_v0 : Ref sig .tc := ⟨.hbm, 231, rfl⟩
abbrev main_call14_cst : Ref sig .tc := ⟨.hbm, 232, rfl⟩
abbrev main_call14_v1 : Ref sig .tc := ⟨.hbm, 233, rfl⟩
abbrev main_v164 : Ref sig .tc := ⟨.hbm, 234, rfl⟩
abbrev main_cst_21 : Ref sig .tc := ⟨.hbm, 235, rfl⟩
abbrev main_v165 : Ref sig .tc := ⟨.hbm, 236, rfl⟩
abbrev main_v166 : Ref sig .tc := ⟨.hbm, 237, rfl⟩
abbrev main_call15_v0 : Ref sig .tc := ⟨.hbm, 238, rfl⟩
abbrev main_call15_cst : Ref sig .tc := ⟨.hbm, 239, rfl⟩
abbrev main_call15_v1 : Ref sig .tc := ⟨.hbm, 240, rfl⟩
abbrev main_v167 : Ref sig .tc := ⟨.hbm, 241, rfl⟩
abbrev main_cst_22 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_cst_23 : Ref sig .tc := ⟨.hbm, 252, rfl⟩
abbrev main_v177 : Ref sig .tc := ⟨.hbm, 253, rfl⟩
abbrev main_v178 : Ref sig .tc := ⟨.hbm, 254, rfl⟩
abbrev main_call16_v0 : Ref sig .tc := ⟨.hbm, 255, rfl⟩
abbrev main_call16_cst : Ref sig .tc := ⟨.hbm, 256, rfl⟩
abbrev main_call16_v1 : Ref sig .tc := ⟨.hbm, 257, rfl⟩
abbrev main_call16_v2 : Ref sig .tc := ⟨.hbm, 258, rfl⟩
abbrev main_v179 : Ref sig .tc := ⟨.hbm, 259, rfl⟩
abbrev main_call17_v0 : Ref sig .tc := ⟨.hbm, 260, rfl⟩
abbrev main_call17_cst : Ref sig .tc := ⟨.hbm, 261, rfl⟩
abbrev main_call17_v1 : Ref sig .tc := ⟨.hbm, 262, rfl⟩
abbrev main_call17_v2 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_cst_24 : Ref sig .tc := ⟨.hbm, 270, rfl⟩
abbrev main_v186 : Ref sig .tc := ⟨.hbm, 271, rfl⟩
abbrev main_v187 : Ref sig .tc := ⟨.hbm, 272, rfl⟩
abbrev main_cst_25 : Ref sig .tc := ⟨.hbm, 273, rfl⟩
abbrev main_call18_v0 : Ref sig .tc := ⟨.hbm, 274, rfl⟩
abbrev main_call18_v1 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_cst_26 : Ref sig .tc := ⟨.hbm, 283, rfl⟩
abbrev main_v195 : Ref sig .tc := ⟨.hbm, 284, rfl⟩
abbrev main_cst_27 : Ref sig .tc := ⟨.hbm, 285, rfl⟩
abbrev main_v196 : Ref sig .tc := ⟨.hbm, 286, rfl⟩
abbrev main_v197 : Ref sig .tc := ⟨.hbm, 287, rfl⟩
abbrev main_cst_28 : Ref sig .tc := ⟨.hbm, 288, rfl⟩
abbrev main_v198 : Ref sig .tc := ⟨.hbm, 289, rfl⟩
abbrev main_v199 : Ref sig .tc := ⟨.hbm, 290, rfl⟩
abbrev main_cst_29 : Ref sig .tc := ⟨.hbm, 291, rfl⟩
abbrev main_call19_v0 : Ref sig .tc := ⟨.hbm, 292, rfl⟩
abbrev main_call19_v1 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_call20_v0 : Ref sig .tc := ⟨.hbm, 307, rfl⟩
abbrev main_call20_cst : Ref sig .tc := ⟨.hbm, 308, rfl⟩
abbrev main_call20_v1 : Ref sig .tc := ⟨.hbm, 309, rfl⟩
abbrev main_v213 : Ref sig .tc := ⟨.hbm, 310, rfl⟩
abbrev main_cst_30 : Ref sig .tc := ⟨.hbm, 311, rfl⟩
abbrev main_v214 : Ref sig .tc := ⟨.hbm, 312, rfl⟩
abbrev main_v215 : Ref sig .tc := ⟨.hbm, 313, rfl⟩
abbrev main_call21_v0 : Ref sig .tc := ⟨.hbm, 314, rfl⟩
abbrev main_call21_cst : Ref sig .tc := ⟨.hbm, 315, rfl⟩
abbrev main_call21_v1 : Ref sig .tc := ⟨.hbm, 316, rfl⟩
abbrev main_v216 : Ref sig .tc := ⟨.hbm, 317, rfl⟩
abbrev main_cst_31 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_cst_32 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_cst_33 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_call22_v0 : Ref sig .tc := ⟨.hbm, 338, rfl⟩
abbrev main_call22_cst : Ref sig .tc := ⟨.hbm, 339, rfl⟩
abbrev main_call22_v1 : Ref sig .tc := ⟨.hbm, 340, rfl⟩
abbrev main_v234 : Ref sig .tc := ⟨.hbm, 341, rfl⟩
abbrev main_cst_34 : Ref sig .tc := ⟨.hbm, 342, rfl⟩
abbrev main_v235 : Ref sig .tc := ⟨.hbm, 343, rfl⟩
abbrev main_v236 : Ref sig .tc := ⟨.hbm, 344, rfl⟩
abbrev main_call23_v0 : Ref sig .tc := ⟨.hbm, 345, rfl⟩
abbrev main_call23_cst : Ref sig .tc := ⟨.hbm, 346, rfl⟩
abbrev main_call23_v1 : Ref sig .tc := ⟨.hbm, 347, rfl⟩
abbrev main_v237 : Ref sig .tc := ⟨.hbm, 348, rfl⟩
abbrev main_cst_35 : Ref sig .tc := ⟨.hbm, 349, rfl⟩
abbrev main_v238 : Ref sig .tc := ⟨.hbm, 350, rfl⟩
abbrev main_v239 : Ref sig .tc := ⟨.hbm, 351, rfl⟩
abbrev main_v240 : Ref sig .tc := ⟨.hbm, 352, rfl⟩
abbrev main_cst_36 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩

abbrev nD : Nat := 1
abbrev τ : Topo := Topo.v7x

variable {F : FTy → Type} [FloatOps F]

class Facts₀ : Prop where
  slices_S16x128x512_S16x128x256_0_0_0 : S16x128x512.Slices ![0, 0, 0] S16x128x256
  slices_S16x128x512_S16x128x256_0_0_256 : S16x128x512.Slices ![0, 0, 256] S16x128x256
  slices_S8x16x256_S1x16x256_0_0_0 : S8x16x256.Slices ![0, 0, 0] S1x16x256
  shapeCasts_S1x16x256_S16x256 : S1x16x256.ShapeCasts S16x256
  slices_S8x16x256_S1x16x256_2_0_0 : S8x16x256.Slices ![2, 0, 0] S1x16x256
  slices_S8x16x256_S1x16x256_4_0_0 : S8x16x256.Slices ![4, 0, 0] S1x16x256
  slices_S8x16x256_S1x16x256_6_0_0 : S8x16x256.Slices ![6, 0, 0] S1x16x256
  slices_S16x128x256_S16x1x256_0_127_0 : S16x128x256.Slices ![0, 127, 0] S16x1x256
  bcast_S16x1x256_S16x128x256_0_1_2 : S16x1x256.BroadcastsInDim S16x128x256 (![0, 1, 2] : Fin 3 → Fin S16x128x256.rank)
  bcast_S16x128x256_S16x128x1x256_0_1_3 : S16x128x256.BroadcastsInDim S16x128x1x256 (![0, 1, 3] : Fin 3 → Fin S16x128x1x256.rank)
  bcast_S16x256_S1x1x16x256_2_3 : S16x256.BroadcastsInDim S1x1x16x256 (![2, 3] : Fin 2 → Fin S1x1x16x256.rank)
  bcast_S16x128x1x256_S16x128x16x256_0_1_2_3 : S16x128x1x256.BroadcastsInDim S16x128x16x256 (![0, 1, 2, 3] : Fin 4 → Fin S16x128x16x256.rank)
  bcast_S1x1x16x256_S16x128x16x256_0_1_2_3 : S1x1x16x256.BroadcastsInDim S16x128x16x256 (![0, 1, 2, 3] : Fin 4 → Fin S16x128x16x256.rank)
  reducesTo_S16x128x16x256_S16x128x16_d3 : S16x128x16x256.ReducesTo [3] S16x128x16
  h_S_ : 0 < S_.numel
  bcast_S_S16x128x16 : S_.BroadcastsInDim S16x128x16 (![] : Fin 0 → Fin S16x128x16.rank)
  bcast_S16x128x256_S16x1x128x256_0_2_3 : S16x128x256.BroadcastsInDim S16x1x128x256 (![0, 2, 3] : Fin 3 → Fin S16x1x128x256.rank)
  bcast_S16x256_S1x16x1x256_1_3 : S16x256.BroadcastsInDim S1x16x1x256 (![1, 3] : Fin 2 → Fin S1x16x1x256.rank)
  bcast_S16x1x128x256_S16x16x128x256_0_1_2_3 : S16x1x128x256.BroadcastsInDim S16x16x128x256 (![0, 1, 2, 3] : Fin 4 → Fin S16x16x128x256.rank)
  bcast_S1x16x1x256_S16x16x128x256_0_1_2_3 : S1x16x1x256.BroadcastsInDim S16x16x128x256 (![0, 1, 2, 3] : Fin 4 → Fin S16x16x128x256.rank)
  reducesTo_S16x16x128x256_S16x16x128_d3 : S16x16x128x256.ReducesTo [3] S16x16x128
  bcast_S_S16x16x128 : S_.BroadcastsInDim S16x16x128 (![] : Fin 0 → Fin S16x16x128.rank)
  bcast_S16x16x128_S16x16x128x1_0_1_2 : S16x16x128.BroadcastsInDim S16x16x128x1 (![0, 1, 2] : Fin 3 → Fin S16x16x128x1.rank)
  bcast_S16x16x128_S16x16x1x128_0_1_3 : S16x16x128.BroadcastsInDim S16x16x1x128 (![0, 1, 3] : Fin 3 → Fin S16x16x1x128.rank)
  bcast_S16x16x128x1_S16x16x128x128_0_1_2_3 : S16x16x128x1.BroadcastsInDim S16x16x128x128 (![0, 1, 2, 3] : Fin 4 → Fin S16x16x128x128.rank)
  bcast_S16x16x1x128_S16x16x128x128_0_1_2_3 : S16x16x1x128.BroadcastsInDim S16x16x128x128 (![0, 1, 2, 3] : Fin 4 → Fin S16x16x128x128.rank)
  reducesTo_S16x16x128x128_S16x16x128_d3 : S16x16x128x128.ReducesTo [3] S16x16x128
  transposes_S16x16x128_S16x128x16_0_2_1 : S16x16x128.Transposes [0, 2, 1] S16x128x16
  reducesTo_S16x128x256_S16x128_d2 : S16x128x256.ReducesTo [2] S16x128
  bcast_S16x128_S16x128x1_0_1 : S16x128.BroadcastsInDim S16x128x1 (![0, 1] : Fin 2 → Fin S16x128x1.rank)
  transposes_S16x128x1_S16x1x128_0_2_1 : S16x128x1.Transposes [0, 2, 1] S16x1x128
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  bcast_S_S16x128x128 : S_.BroadcastsInDim S16x128x128 (![] : Fin 0 → Fin S16x128x128.rank)
  bcast_S16x128x128_S16x128x128x1_0_1_2 : S16x128x128.BroadcastsInDim S16x128x128x1 (![0, 1, 2] : Fin 3 → Fin S16x128x128x1.rank)
  bcast_S16x128x128x1_S16x128x128x256_0_1_2_3 : S16x128x128x1.BroadcastsInDim S16x128x128x256 (![0, 1, 2, 3] : Fin 4 → Fin S16x128x128x256.rank)
  bcast_S16x1x128x256_S16x128x128x256_0_1_2_3 : S16x1x128x256.BroadcastsInDim S16x128x128x256 (![0, 1, 2, 3] : Fin 4 → Fin S16x128x128x256.rank)
  reducesTo_S16x128x128x256_S16x128x256_d2 : S16x128x128x256.ReducesTo [2] S16x128x256
  reducesTo_S16x128x128_S16x128_d2 : S16x128x128.ReducesTo [2] S16x128
  bcast_S_S16x128x1 : S_.BroadcastsInDim S16x128x1 (![] : Fin 0 → Fin S16x128x1.rank)
  bcast_S16x128x1_S16x128x256_0_1_2 : S16x128x1.BroadcastsInDim S16x128x256 (![0, 1, 2] : Fin 3 → Fin S16x128x256.rank)
  slices_S8x16x256_S1x16x256_1_0_0 : S8x16x256.Slices ![1, 0, 0] S1x16x256
  slices_S8x16x256_S1x16x256_3_0_0 : S8x16x256.Slices ![3, 0, 0] S1x16x256
  slices_S8x16x256_S1x16x256_5_0_0 : S8x16x256.Slices ![5, 0, 0] S1x16x256
  slices_S8x16x256_S1x16x256_7_0_0 : S8x16x256.Slices ![7, 0, 0] S1x16x256
  slices_S16x128x256_S16x1x256_0_0_0 : S16x128x256.Slices ![0, 0, 0] S16x1x256
  concatenates_S16x128x16_S16x128x16_S16x128x16_S16x128x16_S16x128x16_S16x128x16_S16x128x16_S16x128x16_S16x128x128_d2 : Shape.Concatenates [S16x128x16, S16x128x16, S16x128x16, S16x128x16, S16x128x16, S16x128x16, S16x128x16, S16x128x16] S16x128x128 2
  dot_S16x16x128x256_S16x16x128x256_S16x16x128x128_3_3_2_2_01_01_wf : DotDims.WF S16x16x128x256 S16x16x128x256 S16x16x128x128 [3] [3] [2] [2] [0, 1] [0, 1]
  dot_S16x128x256_S16x128x256_S16x128x128_2_2_1_1_0_0_wf : DotDims.WF S16x128x256 S16x128x256 S16x128x128 [2] [2] [1] [1] [0] [0]

variable [Facts₀]

def dot_S16x16x128x256_S16x16x128x256_S16x16x128x128_3_3_2_2_01_01 : DotDims S16x16x128x256 S16x16x128x256 S16x16x128x128 where
  lhsContracting := [3]
  rhsContracting := [3]
  lhsNonContracting := [2]
  rhsNonContracting := [2]
  lhsBatch := [0, 1]
  rhsBatch := [0, 1]
  wf := dot_S16x16x128x256_S16x16x128x256_S16x16x128x128_3_3_2_2_01_01_wf
def dot_S16x128x256_S16x128x256_S16x128x128_2_2_1_1_0_0 : DotDims S16x128x256 S16x128x256 S16x128x128 where
  lhsContracting := [2]
  rhsContracting := [2]
  lhsNonContracting := [1]
  rhsNonContracting := [1]
  lhsBatch := [0]
  rhsBatch := [0]
  wf := dot_S16x128x256_S16x128x256_S16x128x128_2_2_1_1_0_0_wf

class Facts : Prop extends Facts₀ where

variable [Facts]
-- ==== Proof.RefRunMain.lean ====
/-
  The reference program's run, read back: every weakly fair execution of its @main terminates with the result buffer at
  its last stage — the function of the three arguments' launch contents that its 355 host operations compose to — and the
  arguments unchanged. The program's last operation joins EIGHT column groups along the last axis; the join is named
  here as a plain function of its eight operands, so that one pass reads the last operation's result and goes on, through
  that function's arguments, to the operands' own results.
-/
import proofs.«101604_j57621281243632_1_alg».proof.Proof.RefRun
import proofs.«101604_j57621281243632_1_alg».proof.Proof.RefRead

noncomputable section

namespace Cert.ReferenceIdeal.RefValue

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Eight [16, 128, 16] column groups side by side: the [16, 128, 128] result. -/
def join8 (a0 a1 a2 a3 a4 a5 a6 a7 : S16x128x16.Idx → Elt F .f32) : S16x128x128.Idx → Elt F .f32 :=
  concatenate S16x128x128 2 [⟨S16x128x16, a0⟩, ⟨S16x128x16, a1⟩, ⟨S16x128x16, a2⟩, ⟨S16x128x16, a3⟩, ⟨S16x128x16, a4⟩, ⟨S16x128x16, a5⟩, ⟨S16x128x16, a6⟩, ⟨S16x128x16, a7⟩] concatenates_S16x128x16_S16x128x16_S16x128x16_S16x128x16_S16x128x16_S16x128x16_S16x128x16_S16x128x16_S16x128x128_d2

/-- The last operation's result: the join of the eight operand buffers' contents. -/
theorem join_result' (hxs hy) (V : Valuation τ sig (Elt F)) :
    (nary (τ := τ) ![main_v33, main_v153, main_v58, main_v178, main_v102, main_v222, main_v123, main_v243] main_v244
        (fun u => concatenate S16x128x128 2 [⟨S16x128x16, u 0⟩, ⟨S16x128x16, u 1⟩, ⟨S16x128x16, u 2⟩, ⟨S16x128x16, u 3⟩, ⟨S16x128x16, u 4⟩, ⟨S16x128x16, u 5⟩, ⟨S16x128x16, u 6⟩, ⟨S16x128x16, u 7⟩] concatenates_S16x128x16_S16x128x16_S16x128x16_S16x128x16_S16x128x16_S16x128x16_S16x128x16_S16x128x16_S16x128x128_d2)
        hxs hy).result V (no_index (Proc.devRef .tc main_v244))
      = join8 (V (Proc.devRef .tc main_v33)) (V (Proc.devRef .tc main_v153)) (V (Proc.devRef .tc main_v58)) (V (Proc.devRef .tc main_v178)) (V (Proc.devRef .tc main_v102)) (V (Proc.devRef .tc main_v222)) (V (Proc.devRef .tc main_v123)) (V (Proc.devRef .tc main_v243)) :=
  nary_result _ main_v244 _ hxs hy V

/-- Every operation's result read in one simplifier pass, the last one by `join_result'`. -/
macro "after_results_join" : tactic =>
  `(tactic| (simp (disch := decide) only [after_cons, after_nil,
      nullary_result', unary_result', binary_result', ternary_result', quaternary_result', reshape_result', join_result',
      unaryIndexed_result', binaryIndexed_result',
      nullary_result_ne', unary_result_ne', binary_result_ne', ternary_result_ne', quaternary_result_ne', reshape_result_ne',
      nary_result_ne', unaryIndexed_result_ne', binaryIndexed_result_ne']))

set_option maxRecDepth 65536 in
set_option maxHeartbeats 142000000 in
/-- On every device, for any float values, from any memory with zero counters: every weakly fair execution of
    @main terminates with the result at its last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v244)
        = val_main_v244 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v244).trans (by after_results_join <;> rfl),
      (h c main_arg0).trans (by after_results_join <;> rfl),
      (h c main_arg1).trans (by after_results_join <;> rfl),
      (h c main_arg2).trans (by after_results_join <;> rfl)⟩)
    (run_seq scopedRefs_eq scopedSems_eq defs main (fun _ => ops) main_eq (fun _ => ops_sub) m ρ)

end Cert.ReferenceIdeal.RefValue

end
-- ==== Proof.Spec.lean ====
/-
  The value both programs compute, as one function of the three argument arrays.

  For one batch element, split each 512-wide row of the two sentence arrays into a forward half (columns 0..255)
  and a backward half (columns 256..511). With a weight row `w` (256 entries) define the weighted inner product
  `⟨a, b⟩_w = Σ_h (a_h b_h)(w_h w_h)` and the clamped weighted cosine
  `cos_w(a, b) = ⟨a, b⟩_w / (max(√⟨a, a⟩_w, ε) · max(√⟨b, b⟩_w, ε))`, ε the f32 nearest 1e-8.
  The 128 output columns of row `s` are eight groups of sixteen (one per weight row `l` of the group's weight matrix):
  full matching against the anchor row (last row forward, first row backward), max-pooled matching (the maximum over
  the other sentence's rows `t` of `cos_w(a_s, b_t)`), attentive matching (against the attention-weighted mean of the
  other sentence's rows) and max-attentive matching (against the elementwise maximum over `t` of `att_{s,t} · b_t`),
  each forward then backward. The attention weight is the plain clamped cosine
  `att_{s,t} = (Σ_h a_{s,h} b_{t,h}) / max(√(Σ a_s²) · √(Σ b_t²), ε)`.
-/
import Idealize.ShloMosaic.PureOps.Ideal
import Idealize.ShloMosaic.PureOps.Ideal.Laws
import Idealize.ShloMosaic.Lib.ValueIdx

noncomputable section

namespace Cert.Bimpm

open Idealize.ShloMosaic Idealize.ShloMosaic.ValueIdx

/-- The clamp floor ε: the f32 nearest 1e-8, the one literal both programs carry. -/
abbrev eps : EReal := Ideal.ofBits .f32 0x322BCC77#32

/-- `max(x, ε)`. -/
def clamp (x : EReal) : EReal := max x eps

/-- The weighted inner product `Σ_h (a_h b_h)(w_h w_h)`. -/
def wdot (w a b : Fin 256 → EReal) : EReal := ∑ h : Fin 256, (a h * b h) * (w h * w h)

/-- The clamped weighted cosine of two rows. -/
def wcos (w a b : Fin 256 → EReal) : EReal :=
  Ideal.div (wdot w a b) (clamp (Ideal.sqrt (wdot w a a)) * clamp (Ideal.sqrt (wdot w b b)))

/-- The attention weight of row `s` of `a` for row `t` of `b`: their clamped plain cosine. -/
def att (a b : Fin 128 → Fin 256 → EReal) (s t : Fin 128) : EReal :=
  Ideal.div (∑ h : Fin 256, a s h * b t h)
    (clamp (Ideal.sqrt (∑ h : Fin 256, a s h * a s h) * Ideal.sqrt (∑ h : Fin 256, b t h * b t h)))

/-- The attention-weighted mean of `b`'s rows for row `s`: `(Σ_t att_{s,t} b_{t,h}) / max(Σ_t att_{s,t}, ε)`. -/
def attMean (a b : Fin 128 → Fin 256 → EReal) (s : Fin 128) (h : Fin 256) : EReal :=
  Ideal.div (∑ t : Fin 128, att a b s t * b t h) (clamp (∑ t : Fin 128, att a b s t))

/-- The elementwise maximum over `t` of `att_{s,t} b_{t,h}` (from `-∞`). -/
def attMax (a b : Fin 128 → Fin 256 → EReal) (s : Fin 128) (h : Fin 256) : EReal :=
  (Finset.univ : Finset (Fin 128)).fold max ⊥ (fun t => att a b s t * b t h)

/-- Max-pooled matching: the maximum over `t` of `cos_w(a_s, b_t)` (from `-∞`). -/
def poolMax (w : Fin 256 → EReal) (a b : Fin 128 → Fin 256 → EReal) (s : Fin 128) : EReal :=
  (Finset.univ : Finset (Fin 128)).fold max ⊥ (fun t => wcos w (a s) (b t))

/-- The eight column groups of one batch element: `a1, b1` the forward halves of the two sentences, `a2, b2` the
    backward halves, `W n` the n-th weight matrix. -/
def piece (a1 a2 b1 b2 : Fin 128 → Fin 256 → EReal) (W : Fin 8 → Fin 16 → Fin 256 → EReal) (p : Fin 8) (s : Fin 128)
    (l : Fin 16) : EReal :=
  match p with
  | ⟨0, _⟩ => wcos (W 0 l) (a1 s) (b1 127)
  | ⟨1, _⟩ => wcos (W 1 l) (a2 s) (b2 0)
  | ⟨2, _⟩ => poolMax (W 2 l) a1 b1 s
  | ⟨3, _⟩ => poolMax (W 3 l) a2 b2 s
  | ⟨4, _⟩ => wcos (W 4 l) (a1 s) (attMean a1 b1 s)
  | ⟨5, _⟩ => wcos (W 5 l) (a2 s) (attMean a2 b2 s)
  | ⟨6, _⟩ => wcos (W 6 l) (a1 s) (attMax a1 b1 s)
  | ⟨_ + 7, _⟩ => wcos (W 7 l) (a2 s) (attMax a2 b2 s)

/-- Columns 0..255 of batch element `b` of a [16, 128, 512] array. -/
def lo (x : (⟨3, ![16, 128, 512]⟩ : Shape).Idx → EReal) (b : Fin 16) (s : Fin 128) (h : Fin 256) : EReal :=
  x (ix3 b s (⟨h.val, by have := h.isLt; omega⟩ : Fin 512))

/-- Columns 256..511 of batch element `b`. -/
def hi (x : (⟨3, ![16, 128, 512]⟩ : Shape).Idx → EReal) (b : Fin 16) (s : Fin 128) (h : Fin 256) : EReal :=
  x (ix3 b s (⟨256 + h.val, by have := h.isLt; omega⟩ : Fin 512))

/-- The weight matrices out of the [8, 16, 256] array. -/
def wts (x2 : (⟨3, ![8, 16, 256]⟩ : Shape).Idx → EReal) (n : Fin 8) (l : Fin 16) (h : Fin 256) : EReal := x2 (ix3 n l h)

/-- The result at batch `b`, row `s`, column `16 p + l`. -/
def result (x0 x1 : (⟨3, ![16, 128, 512]⟩ : Shape).Idx → EReal) (x2 : (⟨3, ![8, 16, 256]⟩ : Shape).Idx → EReal)
    (b : Fin 16) (s : Fin 128) (p : Fin 8) (l : Fin 16) : EReal :=
  piece (lo x0 b) (hi x0 b) (lo x1 b) (hi x1 b) (wts x2) p s l

/-- Columns 0..255 of one batch element's [1, 128, 512] block. -/
def blo (X : (⟨3, ![1, 128, 512]⟩ : Shape).Idx → EReal) (s : Fin 128) (h : Fin 256) : EReal :=
  X (ix3 (0 : Fin 1) s (⟨h.val, by have := h.isLt; omega⟩ : Fin 512))

/-- Columns 256..511 of one batch element's block. -/
def bhi (X : (⟨3, ![1, 128, 512]⟩ : Shape).Idx → EReal) (s : Fin 128) (h : Fin 256) : EReal :=
  X (ix3 (0 : Fin 1) s (⟨256 + h.val, by have := h.isLt; omega⟩ : Fin 512))

/-- The result of one batch element from its two blocks and the weights: row `s`, group `p`, weight row `l`. -/
def blockResult (X0 X1 : (⟨3, ![1, 128, 512]⟩ : Shape).Idx → EReal) (X2 : (⟨3, ![8, 16, 256]⟩ : Shape).Idx → EReal)
    (s : Fin 128) (p : Fin 8) (l : Fin 16) : EReal :=
  piece (blo X0) (bhi X0) (blo X1) (bhi X1) (wts X2) p s l

/-- Column `c` of a 128-wide row is group `c / 16`. -/
def grp (c : Fin 128) : Fin 8 := ⟨c.val / 16, by have := c.isLt; omega⟩

/-- … and weight row `c % 16` of that group. -/
def wrow (c : Fin 128) : Fin 16 := ⟨c.val % 16, Nat.mod_lt _ (by decide)⟩

/-- The whole result array, index by index: column `c` is group `c / 16`, weight row `c % 16`. -/
def G (x0 x1 : (⟨3, ![16, 128, 512]⟩ : Shape).Idx → EReal) (x2 : (⟨3, ![8, 16, 256]⟩ : Shape).Idx → EReal) :
    (⟨3, ![16, 128, 128]⟩ : Shape).Idx → EReal := fun i =>
  result x0 x1 x2 (i 0) (i 1) (grp (i 2)) (wrow (i 2))

/-- The `-∞` word both programs start their maxima from. -/
theorem ofBits_neg_inf : Ideal.ofBits .f32 0xFF800000#32 = ⊥ := by simp [Ideal.ofBits, Ideal.ieee]

end Cert.Bimpm

end
-- ==== Proof.KMatmul.lean ====
/-
  The kernel's five matrix products read at an index: each multiplies an [M, K] by a [K, N] matrix into a zero
  accumulator, so its entry at (r, c) is `Σ_h A(r, h) · B(h, c)`.
-/
import proofs.«101604_j57621281243632_1_alg».proof.Proof.Gen.KernelIdeal
import proofs.«101604_j57621281243632_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bimpm

open Idealize.ShloMosaic Idealize.ShloMosaic.ValueIdx Cert.KernelIdeal Cert.KernelIdeal.Gen

/-! ### The [128, 256] × [256, 16] product -/

theorem mmA_l0 (i : S128x16.Idx) (q : dot_S128x256_S256x16_S128x16_1_0_0_1_n_n.contr.Idx) : (dot_S128x256_S256x16_S128x16_1_0_0_1_n_n.lhsIdx i q 0).val = (i 0).val := by
  unfold DotDims.lhsIdx
  rw [dif_neg (show ¬(0 : Fin S128x256.rank) ∈ dot_S128x256_S256x16_S128x16_1_0_0_1_n_n.lhsBatch by decide), dif_pos (show (0 : Fin S128x256.rank) ∈ dot_S128x256_S256x16_S128x16_1_0_0_1_n_n.lhsNonContracting by decide)]
  rfl
theorem mmA_l1 (i : S128x16.Idx) (q : dot_S128x256_S256x16_S128x16_1_0_0_1_n_n.contr.Idx) : (dot_S128x256_S256x16_S128x16_1_0_0_1_n_n.lhsIdx i q 1).val = (q ⟨0, by decide⟩).val :=
  dot_S128x256_S256x16_S128x16_1_0_0_1_n_n.lhsIdx_val_of_single rfl i q
theorem mmA_r0 (i : S128x16.Idx) (q : dot_S128x256_S256x16_S128x16_1_0_0_1_n_n.contr.Idx) : (dot_S128x256_S256x16_S128x16_1_0_0_1_n_n.rhsIdx i q 0).val = (q ⟨0, by decide⟩).val :=
  dot_S128x256_S256x16_S128x16_1_0_0_1_n_n.rhsIdx_val_of_single rfl i q
theorem mmA_r1 (i : S128x16.Idx) (q : dot_S128x256_S256x16_S128x16_1_0_0_1_n_n.contr.Idx) : (dot_S128x256_S256x16_S128x16_1_0_0_1_n_n.rhsIdx i q 1).val = (i 1).val := by
  unfold DotDims.rhsIdx
  rw [dif_neg (show ¬(1 : Fin S256x16.rank) ∈ dot_S128x256_S256x16_S128x16_1_0_0_1_n_n.rhsBatch by decide), dif_pos (show (1 : Fin S256x16.rank) ∈ dot_S128x256_S256x16_S128x16_1_0_0_1_n_n.rhsNonContracting by decide)]
  rfl

/-- Into the zero accumulator the product at row `r`, column `c` is the sum over the contracted coordinate. -/
theorem mmA_apply (A : FVec Ideal S128x256 .f32) (B : FVec Ideal S256x16 .f32) (r : Fin 128) (c : Fin 16) :
    matmul dot_S128x256_S256x16_S128x16_1_0_0_1_n_n none A B (constant S128x16 .f32 0x00000000#32) (ix2 r c)
      = ∑ h : Fin 256, A (ix2 r h) * B (ix2 h c) := by
  simp only [matmul]
  rw [Ideal.matmul_constant_zero_apply, ← Equiv.sum_comp (contrEquiv1 dot_S128x256_S256x16_S128x16_1_0_0_1_n_n 256 rfl rfl).symm]
  refine Finset.sum_congr rfl fun k _ => ?_
  have hk := contrEquiv1_symm_val dot_S128x256_S256x16_S128x16_1_0_0_1_n_n 256 rfl rfl k
  have el : dot_S128x256_S256x16_S128x16_1_0_0_1_n_n.lhsIdx (ix2 r c) ((contrEquiv1 dot_S128x256_S256x16_S128x16_1_0_0_1_n_n 256 rfl rfl).symm k) = ix2 r k := funext fun a => Fin.ext (by
    match a with
    | ⟨0, _⟩ => exact mmA_l0 _ _
    | ⟨1, _⟩ => exact (mmA_l1 _ _).trans hk)
  have er : dot_S128x256_S256x16_S128x16_1_0_0_1_n_n.rhsIdx (ix2 r c) ((contrEquiv1 dot_S128x256_S256x16_S128x16_1_0_0_1_n_n 256 rfl rfl).symm k) = ix2 k c := funext fun a => Fin.ext (by
    match a with
    | ⟨0, _⟩ => exact (mmA_r0 _ _).trans hk
    | ⟨1, _⟩ => exact mmA_r1 _ _)
  rw [el, er]

/-! ### The [2048, 256] × [256, 128] product -/

theorem mmB_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem mmB_l1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem mmB_r0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem mmB_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Into the zero accumulator the product at row `r`, column `c` is the sum over the contracted coordinate. -/
theorem mmB_apply (A : FVec Ideal S2048x256 .f32) (B : FVec Ideal S256x128 .f32) (r : Fin 2048) (c : Fin 128) :
    matmul dot_S2048x256_S256x128_S2048x128_1_0_0_1_n_n none A B (constant S2048x128 .f32 0x00000000#32) (ix2 r c)
      = ∑ h : Fin 256, A (ix2 r h) * B (ix2 h c) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r c) ((contrEquiv1 dot_S2048x256_S256x128_S2048x128_1_0_0_1_n_n 256 rfl rfl).symm k) = ix2 r k := funext fun a => Fin.ext (by
    match a with
    | ⟨0, _⟩ => exact mmB_l0 _ _
    | ⟨1, _⟩ => exact (mmB_l1 _ _).trans hk)
  have er : dot_S2048x256_S256x128_S2048x128_1_0_0_1_n_n.rhsIdx (ix2 r c) ((contrEquiv1 dot_S2048x256_S256x128_S2048x128_1_0_0_1_n_n 256 rfl rfl).symm k) = ix2 k c := funext fun a => Fin.ext (by
    match a with
    | ⟨0, _⟩ => exact (mmB_r0 _ _).trans hk
    | ⟨1, _⟩ => exact mmB_r1 _ _)
  rw [el, er]

/-! ### The [16, 256] × [256, 128] product -/

theorem mmC_l0 (i : S16x128.Idx) (q : dot_S16x256_S256x128_S16x128_1_0_0_1_n_n.contr.Idx) : (dot_S16x256_S256x128_S16x128_1_0_0_1_n_n.lhsIdx i q 0).val = (i 0).val := by
  unfold DotDims.lhsIdx
  rw [dif_neg (show ¬(0 : Fin S16x256.rank) ∈ dot_S16x256_S256x128_S16x128_1_0_0_1_n_n.lhsBatch by decide), dif_pos (show (0 : Fin S16x256.rank) ∈ dot_S16x256_S256x128_S16x128_1_0_0_1_n_n.lhsNonContracting by decide)]
  rfl
theorem mmC_l1 (i : S16x128.Idx) (q : dot_S16x256_S256x128_S16x128_1_0_0_1_n_n.contr.Idx) : (dot_S16x256_S256x128_S16x128_1_0_0_1_n_n.lhsIdx i q 1).val = (q ⟨0, by decide⟩).val :=
  dot_S16x256_S256x128_S16x128_1_0_0_1_n_n.lhsIdx_val_of_single rfl i q
theorem mmC_r0 (i : S16x128.Idx) (q : dot_S16x256_S256x128_S16x128_1_0_0_1_n_n.contr.Idx) : (dot_S16x256_S256x128_S16x128_1_0_0_1_n_n.rhsIdx i q 0).val = (q ⟨0, by decide⟩).val :=
  dot_S16x256_S256x128_S16x128_1_0_0_1_n_n.rhsIdx_val_of_single rfl i q
theorem mmC_r1 (i : S16x128.Idx) (q : dot_S16x256_S256x128_S16x128_1_0_0_1_n_n.contr.Idx) : (dot_S16x256_S256x128_S16x128_1_0_0_1_n_n.rhsIdx i q 1).val = (i 1).val := by
  unfold DotDims.rhsIdx
  rw [dif_neg (show ¬(1 : Fin S256x128.rank) ∈ dot_S16x256_S256x128_S16x128_1_0_0_1_n_n.rhsBatch by decide), dif_pos (show (1 : Fin S256x128.rank) ∈ dot_S16x256_S256x128_S16x128_1_0_0_1_n_n.rhsNonContracting by decide)]
  rfl

/-- Into the zero accumulator the product at row `r`, column `c` is the sum over the contracted coordinate. -/
theorem mmC_apply (A : FVec Ideal S16x256 .f32) (B : FVec Ideal S256x128 .f32) (r : Fin 16) (c : Fin 128) :
    matmul dot_S16x256_S256x128_S16x128_1_0_0_1_n_n none A B (constant S16x128 .f32 0x00000000#32) (ix2 r c)
      = ∑ h : Fin 256, A (ix2 r h) * B (ix2 h c) := by
  simp only [matmul]
  rw [Ideal.matmul_constant_zero_apply, ← Equiv.sum_comp (contrEquiv1 dot_S16x256_S256x128_S16x128_1_0_0_1_n_n 256 rfl rfl).symm]
  refine Finset.sum_congr rfl fun k _ => ?_
  have hk := contrEquiv1_symm_val dot_S16x256_S256x128_S16x128_1_0_0_1_n_n 256 rfl rfl k
  have el : dot_S16x256_S256x128_S16x128_1_0_0_1_n_n.lhsIdx (ix2 r c) ((contrEquiv1 dot_S16x256_S256x128_S16x128_1_0_0_1_n_n 256 rfl rfl).symm k) = ix2 r k := funext fun a => Fin.ext (by
    match a with
    | ⟨0, _⟩ => exact mmC_l0 _ _
    | ⟨1, _⟩ => exact (mmC_l1 _ _).trans hk)
  have er : dot_S16x256_S256x128_S16x128_1_0_0_1_n_n.rhsIdx (ix2 r c) ((contrEquiv1 dot_S16x256_S256x128_S16x128_1_0_0_1_n_n 256 rfl rfl).symm k) = ix2 k c := funext fun a => Fin.ext (by
    match a with
    | ⟨0, _⟩ => exact (mmC_r0 _ _).trans hk
    | ⟨1, _⟩ => exact mmC_r1 _ _)
  rw [el, er]

/-! ### The [128, 256] × [256, 128] product -/

theorem mmD_l0 (i : S128x128.Idx) (q : dot_S128x256_S256x128_S128x128_1_0_0_1_n_n.contr.Idx) : (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem mmD_l1 (i : S128x128.Idx) (q : dot_S128x256_S256x128_S128x128_1_0_0_1_n_n.contr.Idx) : (dot_S128x256_S256x128_S128x128_1_0_0_1_n_n.lhsIdx i q 1).val = (q ⟨0, by decide⟩).val :=
  dot_S128x256_S256x128_S128x128_1_0_0_1_n_n.lhsIdx_val_of_single rfl i q
theorem mmD_r0 (i : S128x128.Idx) (q : dot_S128x256_S256x128_S128x128_1_0_0_1_n_n.contr.Idx) : (dot_S128x256_S256x128_S128x128_1_0_0_1_n_n.rhsIdx i q 0).val = (q ⟨0, by decide⟩).val :=
  dot_S128x256_S256x128_S128x128_1_0_0_1_n_n.rhsIdx_val_of_single rfl i q
theorem mmD_r1 (i : S128x128.Idx) (q : dot_S128x256_S256x128_S128x128_1_0_0_1_n_n.contr.Idx) : (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- Into the zero accumulator the product at row `r`, column `c` is the sum over the contracted coordinate. -/
theorem mmD_apply (A : FVec Ideal S128x256 .f32) (B : FVec Ideal S256x128 .f32) (r : Fin 128) (c : Fin 128) :
    matmul dot_S128x256_S256x128_S128x128_1_0_0_1_n_n none A B (constant S128x128 .f32 0x00000000#32) (ix2 r c)
      = ∑ h : Fin 256, A (ix2 r h) * B (ix2 h c) := by
  simp only [matmul]
  rw [Ideal.matmul_constant_zero_apply, ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 r c) ((contrEquiv1 dot_S128x256_S256x128_S128x128_1_0_0_1_n_n 256 rfl rfl).symm k) = ix2 r k := funext fun a => Fin.ext (by
    match a with
    | ⟨0, _⟩ => exact mmD_l0 _ _
    | ⟨1, _⟩ => exact (mmD_l1 _ _).trans hk)
  have er : dot_S128x256_S256x128_S128x128_1_0_0_1_n_n.rhsIdx (ix2 r c) ((contrEquiv1 dot_S128x256_S256x128_S128x128_1_0_0_1_n_n 256 rfl rfl).symm k) = ix2 k c := funext fun a => Fin.ext (by
    match a with
    | ⟨0, _⟩ => exact (mmD_r0 _ _).trans hk
    | ⟨1, _⟩ => exact mmD_r1 _ _)
  rw [el, er]

/-! ### The [128, 128] × [128, 256] product -/

theorem mmE_l0 (i : S128x256.Idx) (q : dot_S128x128_S128x256_S128x256_1_0_0_1_n_n.contr.Idx) : (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem mmE_l1 (i : S128x256.Idx) (q : dot_S128x128_S128x256_S128x256_1_0_0_1_n_n.contr.Idx) : (dot_S128x128_S128x256_S128x256_1_0_0_1_n_n.lhsIdx i q 1).val = (q ⟨0, by decide⟩).val :=
  dot_S128x128_S128x256_S128x256_1_0_0_1_n_n.lhsIdx_val_of_single rfl i q
theorem mmE_r0 (i : S128x256.Idx) (q : dot_S128x128_S128x256_S128x256_1_0_0_1_n_n.contr.Idx) : (dot_S128x128_S128x256_S128x256_1_0_0_1_n_n.rhsIdx i q 0).val = (q ⟨0, by decide⟩).val :=
  dot_S128x128_S128x256_S128x256_1_0_0_1_n_n.rhsIdx_val_of_single rfl i q
theorem mmE_r1 (i : S128x256.Idx) (q : dot_S128x128_S128x256_S128x256_1_0_0_1_n_n.contr.Idx) : (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- Into the zero accumulator the product at row `r`, column `c` is the sum over the contracted coordinate. -/
theorem mmE_apply (A : FVec Ideal S128x128 .f32) (B : FVec Ideal S128x256 .f32) (r : Fin 128) (c : Fin 256) :
    matmul dot_S128x128_S128x256_S128x256_1_0_0_1_n_n none A B (constant S128x256 .f32 0x00000000#32) (ix2 r c)
      = ∑ h : Fin 128, A (ix2 r h) * B (ix2 h c) := by
  simp only [matmul]
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 r c) ((contrEquiv1 dot_S128x128_S128x256_S128x256_1_0_0_1_n_n 128 rfl rfl).symm k) = ix2 r k := funext fun a => Fin.ext (by
    match a with
    | ⟨0, _⟩ => exact mmE_l0 _ _
    | ⟨1, _⟩ => exact (mmE_l1 _ _).trans hk)
  have er : dot_S128x128_S128x256_S128x256_1_0_0_1_n_n.rhsIdx (ix2 r c) ((contrEquiv1 dot_S128x128_S128x256_S128x256_1_0_0_1_n_n 128 rfl rfl).symm k) = ix2 k c := funext fun a => Fin.ext (by
    match a with
    | ⟨0, _⟩ => exact (mmE_r0 _ _).trans hk
    | ⟨1, _⟩ => exact mmE_r1 _ _)
  rw [el, er]

end Cert.Bimpm

end
-- ==== Proof.KFull.lean ====
/-
  Full matching of two [128, 256] operands under a [16, 256] weight matrix, as the kernel computes it — three products
  with the transposed squared weights, two square roots clamped at ε, a product and a quotient — read at an index:
  entry (s, l) is the clamped weighted cosine `cos_{w_l}(a_s, x_s)` of row `s` of the two operands.
-/
import proofs.«101604_j57621281243632_1_alg».proof.Proof.KMatmul

noncomputable section

namespace Cert.Bimpm

open Idealize.ShloMosaic Idealize.ShloMosaic.ValueIdx Cert.KernelIdeal Cert.KernelIdeal.Facts₀

/-- A vector square root reads entry by entry. -/
theorem sqrt_apply {s : Shape} (v : FVec Ideal s .f32) (i : s.Idx) : sqrt v i = Ideal.sqrt (v i) := rfl

/-- Row `r` of a rank-2 vector as a function of the column. -/
def rowOf {m n : Nat} (v : (⟨2, ![m, n]⟩ : Shape).Idx → EReal) (r : Fin m) : Fin n → EReal := fun h => v (ix2 r h)

/-- The kernel's full-matching computation on whole operands. -/
def kFull (a x : FVec Ideal S128x256 .f32) (w : FVec Ideal S16x256 .f32) : FVec Ideal S128x16 .f32 :=
  divf (matmul dot_S128x256_S256x16_S128x16_1_0_0_1_n_n none (mulf a x) (transpose S256x16 [1, 0] (mulf w w) transposes_S16x256_p1_0_S256x16) (constant S128x16 .f32 0x00000000#32))
    (mulf
      (maximumf (sqrt (matmul dot_S128x256_S256x16_S128x16_1_0_0_1_n_n none (mulf a a) (transpose S256x16 [1, 0] (mulf w w) transposes_S16x256_p1_0_S256x16) (constant S128x16 .f32 0x00000000#32)))
        (broadcast S128x16 (Scalar.ofBits .f32 0x322BCC77#32)))
      (maximumf (sqrt (matmul dot_S128x256_S256x16_S128x16_1_0_0_1_n_n none (mulf x x) (transpose S256x16 [1, 0] (mulf w w) transposes_S16x256_p1_0_S256x16) (constant S128x16 .f32 0x00000000#32)))
        (broadcast S128x16 (Scalar.ofBits .f32 0x322BCC77#32))))

/-- A product with the transposed squared weights at (s, l) is the weighted inner product of the two factors' rows. -/
theorem wprod_apply (p q : FVec Ideal S128x256 .f32) (w : FVec Ideal S16x256 .f32) (s : Fin 128) (l : Fin 16) :
    matmul dot_S128x256_S256x16_S128x16_1_0_0_1_n_n none (mulf p q) (transpose S256x16 [1, 0] (mulf w w) transposes_S16x256_p1_0_S256x16) (constant S128x16 .f32 0x00000000#32) (ix2 s l)
      = wdot (rowOf w l) (rowOf p s) (rowOf q s) := by
  rw [mmA_apply]
  unfold wdot rowOf
  refine Finset.sum_congr rfl fun h _ => ?_
  rw [transpose_ix2_apply]
  rfl

/-- The kernel's full matching at (s, l) is the clamped weighted cosine of the operands' rows `s` under weight row `l`. -/
theorem kFull_apply (a x : FVec Ideal S128x256 .f32) (w : FVec Ideal S16x256 .f32) (s : Fin 128) (l : Fin 16) :
    kFull a x w (ix2 s l) = wcos (rowOf w l) (rowOf a s) (rowOf x s) := by
  unfold kFull wcos clamp
  rw [divf_apply, mulf_apply, maximumf_apply, maximumf_apply, sqrt_apply, sqrt_apply, wprod_apply, wprod_apply, wprod_apply]
  rfl

end Cert.Bimpm

end
-- ==== Proof.KLayout.lean ====
/-
  Layout operations of the kernel body read at an index given by coordinates: a unit axis added in the middle or at the
  end of a shape, a column or a slab broadcast along the axis it lacks, the two reshapes that merge or split the
  (weight row, sentence row) pair of axes, and the row sums and row maxima over the last axis.
-/
import proofs.«101604_j57621281243632_1_alg».proof.Proof.Gen.KernelIdeal
import proofs.«101604_j57621281243632_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bimpm

open Idealize.ShloMosaic Idealize.ShloMosaic.ValueIdx Cert.KernelIdeal Cert.KernelIdeal.Facts₀

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` slab broadcast to `[a, b, c]` reads, at `(i, j, k)`, the slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The position of (weight row `l`, sentence row `s`) on the merged axis of 16 · 128 rows. -/
def merged (l : Fin 16) (s : Fin 128) : Fin 2048 := ⟨l.val * 128 + s.val, by have := l.isLt; have := s.isLt; omega⟩

/-- The [16, 128, 256] array with its first two axes merged reads, at (merged l s, h), the operand at (l, s, h). -/
theorem shapeCast_merge_apply (x : S16x128x256.Idx → α) (l : Fin 16) (s : Fin 128) (h : Fin 256) :
    shapeCast S2048x256 x shapeCasts_S16x128x256_S2048x256 (ix2 (merged l s) h) = x (ix3 l s h) :=
  shapeCast_apply x shapeCasts_S16x128x256_S2048x256 _ _ (by
    rw [Shape.rowMajor_val_three, Shape.rowMajor_val_two]
    rfl)

/-- The [2048, 128] array with its first axis split into (16, 128) reads, at (l, s, t), the operand at (merged l s, t). -/
theorem shapeCast_split_apply (x : S2048x128.Idx → α) (l : Fin 16) (s : Fin 128) (t : Fin 128) :
    shapeCast S16x128x128 x shapeCasts_S2048x128_S16x128x128 (ix3 l s t) = x (ix2 (merged l s) t) :=
  shapeCast_apply x shapeCasts_S2048x128_S16x128x128 _ _ (by
    rw [Shape.rowMajor_val_three, Shape.rowMajor_val_two]
    rfl)

end Cert.Bimpm

end
-- ==== Proof.KAtt.lean ====
/-
  The attention part of the kernel body on whole operands, read at an index: the attention matrix (the clamped plain
  cosine of row `s` of one sentence and row `t` of the other), the attention-weighted mean of the other sentence's rows,
  and the maximum over `t` of `att(s, t) · b(t, h)`, which the kernel takes in four chunks of 32 rows.
-/
import proofs.«101604_j57621281243632_1_alg».proof.Proof.KFull
import proofs.«101604_j57621281243632_1_alg».proof.Proof.KLayout

noncomputable section

namespace Cert.Bimpm

open Idealize.ShloMosaic Idealize.ShloMosaic.ValueIdx Cert.KernelIdeal Cert.KernelIdeal.Facts₀

/-- The sum over the 256 columns of row `s`. -/
theorem rowSum256_apply (v : FVec Ideal S128x256 .f32) (s : Fin 128) :
    multiReduction .add [1] S128 v 0x00000000#32 reduces_S128x256_S128 (.inl rfl) rfl (ix1 s) = ∑ h : Fin 256, v (ix2 s h) := by
  refine (Ideal.multiReduction_add_single v _ reduces_S128x256_S128 _ _ (ix1 s)).trans ?_
  exact Finset.sum_congr rfl fun k _ => congrArg v (funext fun a => Fin.ext (by match a with | ⟨0, _⟩ => rfl | ⟨1, _⟩ => rfl))

/-- The sum over the 128 columns of row `s`. -/
theorem rowSum128_apply (v : FVec Ideal S128x128 .f32) (s : Fin 128) :
    multiReduction .add [1] S128 v 0x00000000#32 reduces_S128x128_S128 (.inl rfl) rfl (ix1 s) = ∑ t : Fin 128, v (ix2 s t) := by
  refine (Ideal.multiReduction_add_single v _ reduces_S128x128_S128 _ _ (ix1 s)).trans ?_
  exact Finset.sum_congr rfl fun k _ => congrArg v (funext fun a => Fin.ext (by match a with | ⟨0, _⟩ => rfl | ⟨1, _⟩ => rfl))

/-- The Euclidean norm of every row, as a column. -/
def kNorm (a : FVec Ideal S128x256 .f32) : FVec Ideal S128x1 .f32 :=
  sqrt (shapeCast S128x1 (multiReduction .add [1] S128 (mulf a a) 0x00000000#32 reduces_S128x256_S128 (.inl rfl) rfl) shapeCasts_S128_S128x1)

theorem kNorm_apply (a : FVec Ideal S128x256 .f32) (s : Fin 128) (u : Fin 1) :
    kNorm a (ix2 s u) = Ideal.sqrt (∑ h : Fin 256, a (ix2 s h) * a (ix2 s h)) := by
  unfold kNorm
  rw [sqrt_apply, shapeCast_a_a1_apply, rowSum256_apply]
  rfl

/-- The kernel's attention matrix of two [128, 256] operands. -/
def kAtt (a b : FVec Ideal S128x256 .f32) : FVec Ideal S128x128 .f32 :=
  divf (matmul dot_S128x256_S256x128_S128x128_1_0_0_1_n_n none a (transpose S256x128 [1, 0] b transposes_S128x256_p1_0_S256x128) (constant S128x128 .f32 0x00000000#32))
    (maximumf
      (mulf (broadcastTo S128x128 (kNorm a) broadcasts_S128x1_S128x128)
        (broadcastTo S128x128 (transpose S1x128 [1, 0] (kNorm b) transposes_S128x1_p1_0_S1x128) broadcasts_S1x128_S128x128))
      (broadcast S128x128 (Scalar.ofBits .f32 0x322BCC77#32)))

/-- Entry (s, t) of the attention matrix is the clamped cosine of row `s` of `a` and row `t` of `b`. -/
theorem kAtt_apply (a b : FVec Ideal S128x256 .f32) (s t : Fin 128) :
    kAtt a b (ix2 s t) = att (rowOf a) (rowOf b) s t := by
  unfold kAtt att clamp rowOf
  rw [divf_apply, maximumf_apply, mulf_apply, mmD_apply, broadcastTo_a1_ab_apply, broadcastTo_1b_ab_apply,
    transpose_ix2_apply, kNorm_apply, kNorm_apply]
  refine congrArg₂ Ideal.div (Finset.sum_congr rfl fun h _ => ?_) rfl
  rw [transpose_ix2_apply]

/-- The attention-weighted mean of `b`'s rows, from the attention matrix `A`. -/
def kMean (A : FVec Ideal S128x128 .f32) (b : FVec Ideal S128x256 .f32) : FVec Ideal S128x256 .f32 :=
  divf (matmul dot_S128x128_S128x256_S128x256_1_0_0_1_n_n none A b (constant S128x256 .f32 0x00000000#32))
    (broadcastTo S128x256
      (maximumf (shapeCast S128x1 (multiReduction .add [1] S128 A 0x00000000#32 reduces_S128x128_S128 (.inl rfl) rfl) shapeCasts_S128_S128x1)
        (broadcast S128x1 (Scalar.ofBits .f32 0x322BCC77#32)))
      broadcasts_S128x1_S128x256)

/-- Entry (s, h) of the mean: `(Σ_t A(s, t) b(t, h)) / max(Σ_t A(s, t), ε)`. -/
theorem kMean_apply (A : FVec Ideal S128x128 .f32) (b : FVec Ideal S128x256 .f32) (s : Fin 128) (h : Fin 256) :
    kMean A b (ix2 s h) = Ideal.div (∑ t : Fin 128, A (ix2 s t) * b (ix2 t h)) (clamp (∑ t : Fin 128, A (ix2 s t))) := by
  unfold kMean clamp
  rw [divf_apply, mmE_apply, broadcastTo_a1_ab_apply, maximumf_apply, shapeCast_a_a1_apply, rowSum128_apply]
  rfl

/-- One chunk of 32 rows `o, …, o + 31` of the other sentence: the maximum over the chunk of `A(s, t) · b(t, h)`. -/
def kChunk (o : Nat) (A : FVec Ideal S128x128 .f32) (b : FVec Ideal S128x256 .f32)
    (hA : S128x128.Slices ![0, o] S128x32) (hB : S128x256.Slices ![o, 0] S32x256) : FVec Ideal S128x256 .f32 :=
  multiReduction .maximumf [2] S128x256
    (mulf
      (broadcastTo S128x256x32 (shapeCast S128x1x32 (extractStridedSlice S128x32 ![0, o] A hA) shapeCasts_S128x32_S128x1x32) broadcasts_S128x1x32_S128x256x32)
      (broadcastTo S128x256x32 (shapeCast S1x256x32 (transpose S256x32 [1, 0] (extractStridedSlice S32x256 ![o, 0] b hB) transposes_S32x256_p1_0_S256x32) shapeCasts_S256x32_S1x256x32) broadcasts_S1x256x32_S128x256x32))
    0xFF800000#32 reduces_S128x256x32_S128x256 (.inl rfl) rfl

/-- The row `o + j` of a chunk, as a row of the whole. -/
def chunkRow (o : Nat) (ho : o + 32 ≤ 128) (j : Fin 32) : Fin 128 := ⟨o + j.val, by have := j.isLt; omega⟩

theorem kChunk_apply (o : Nat) (ho : o + 32 ≤ 128) (A : FVec Ideal S128x128 .f32) (b : FVec Ideal S128x256 .f32)
    (hA : S128x128.Slices ![0, o] S128x32) (hB : S128x256.Slices ![o, 0] S32x256) (s : Fin 128) (h : Fin 256) :
    kChunk o A b hA hB (ix2 s h)
      = (Finset.univ : Finset (Fin 32)).fold max ⊥ (fun j => A (ix2 s (chunkRow o ho j)) * b (ix2 (chunkRow o ho j) h)) := by
  unfold kChunk
  refine (Ideal.multiReduction_maximumf_single _ _ reduces_S128x256x32_S128x256 _ _ (ix2 s h)).trans ?_
  rw [Ideal.ofBits_def, ofBits_neg_inf]
  refine congrArg (fun f => Finset.fold max ⊥ f Finset.univ) (funext fun (j : Fin 32) => ?_)
  have e : reduces_S128x256x32_S128x256.lift (ix2 s h) j = ix3 s h j :=
    funext fun a => Fin.ext (by match a with | ⟨0, _⟩ => rfl | ⟨1, _⟩ => rfl | ⟨2, _⟩ => rfl)
  show mulf (F := Ideal) _ _ (reduces_S128x256x32_S128x256.lift (ix2 s h) j) = _
  rw [e, mulf_apply, broadcastTo_a1c_abc_apply, broadcastTo_1bc_abc_apply, shapeCast_ab_a1b_apply, shapeCast_ab_1ab_apply,
    transpose_ix2_apply, slice2_axis1_apply o A hA s j (chunkRow o ho j) rfl, slice2_axis0_apply o b hB j h (chunkRow o ho j) rfl]

/-- The maximum of a function on 128 rows is the maximum of its maxima on the four chunks of 32 rows. -/
theorem fold_max_chunks (f : Fin 128 → EReal) :
    max (max (max ((Finset.univ : Finset (Fin 32)).fold max ⊥ (fun j => f (chunkRow 0 (by decide) j)))
                  ((Finset.univ : Finset (Fin 32)).fold max ⊥ (fun j => f (chunkRow 32 (by decide) j))))
             ((Finset.univ : Finset (Fin 32)).fold max ⊥ (fun j => f (chunkRow 64 (by decide) j))))
        ((Finset.univ : Finset (Fin 32)).fold max ⊥ (fun j => f (chunkRow 96 (by decide) j)))
      = (Finset.univ : Finset (Fin 128)).fold max ⊥ f := by
  have up : ∀ (o : Nat) (ho : o + 32 ≤ 128),
      (Finset.univ : Finset (Fin 32)).fold max ⊥ (fun j => f (chunkRow o ho j)) ≤ (Finset.univ : Finset (Fin 128)).fold max ⊥ f :=
    fun o ho => (Finset.fold_max_le _).2 ⟨bot_le, fun j _ => (Finset.le_fold_max _).2 (Or.inr ⟨chunkRow o ho j, Finset.mem_univ _, le_rfl⟩)⟩
  have dn : ∀ (o : Nat) (ho : o + 32 ≤ 128) (t : Fin 128), o ≤ t.val → t.val < o + 32 →
      f t ≤ (Finset.univ : Finset (Fin 32)).fold max ⊥ (fun j => f (chunkRow o ho j)) := fun o ho t h1 h2 =>
    (Finset.le_fold_max _).2 (Or.inr ⟨⟨t.val - o, by omega⟩, Finset.mem_univ _, le_of_eq (congrArg f (Fin.ext (by show t.val = o + (t.val - o); omega)))⟩)
  apply le_antisymm
  · exact max_le (max_le (max_le (up 0 _) (up 32 _)) (up 64 _)) (up 96 _)
  · refine (Finset.fold_max_le _).2 ⟨bot_le, fun t _ => ?_⟩
    have ht := t.isLt
    by_cases c0 : t.val < 32
    · exact le_max_of_le_left (le_max_of_le_left (le_max_of_le_left (dn 0 _ t (Nat.zero_le _) (by omega))))
    · by_cases c1 : t.val < 64
      · exact le_max_of_le_left (le_max_of_le_left (le_max_of_le_right (dn 32 _ t (by omega) (by omega))))
      · by_cases c2 : t.val < 96
        · exact le_max_of_le_left (le_max_of_le_right (dn 64 _ t (by omega) (by omega)))
        · exact le_max_of_le_right (dn 96 _ t (by omega) (by omega))

/-- The kernel's running maximum over the four chunks. -/
def kMax (A : FVec Ideal S128x128 .f32) (b : FVec Ideal S128x256 .f32) : FVec Ideal S128x256 .f32 :=
  maximumf (maximumf (maximumf (kChunk 0 A b slices_S128x128_o0_0_S128x32 slices_S128x256_o0_0_S32x256)
        (kChunk 32 A b slices_S128x128_o0_32_S128x32 slices_S128x256_o32_0_S32x256))
      (kChunk 64 A b slices_S128x128_o0_64_S128x32 slices_S128x256_o64_0_S32x256))
    (kChunk 96 A b slices_S128x128_o0_96_S128x32 slices_S128x256_o96_0_S32x256)

/-- Entry (s, h) of the running maximum is the maximum over all 128 rows `t` of `A(s, t) · b(t, h)`. -/
theorem kMax_apply (A : FVec Ideal S128x128 .f32) (b : FVec Ideal S128x256 .f32) (s : Fin 128) (h : Fin 256) :
    kMax A b (ix2 s h) = (Finset.univ : Finset (Fin 128)).fold max ⊥ (fun t => A (ix2 s t) * b (ix2 t h)) := by
  unfold kMax
  rw [maximumf_apply, maximumf_apply, maximumf_apply, kChunk_apply 0 (by decide), kChunk_apply 32 (by decide),
    kChunk_apply 64 (by decide), kChunk_apply 96 (by decide)]
  exact fold_max_chunks (fun t => A (ix2 s t) * b (ix2 t h))

end Cert.Bimpm

end
-- ==== Proof.KPool.lean ====
/-
  Max-pooled matching on whole operands, as the kernel computes it: the squared weights broadcast over the sentence
  rows times the first sentence, the (weight row, sentence row) axes merged into 2048 rows for one product with the
  second sentence transposed, split again; the two weighted norms by products with the squared weights; the quotient
  by the clamped norms; the maximum over the second sentence's rows; and a transpose to (sentence row, weight row).
  Read at (s, l) it is the maximum over `t` of the clamped weighted cosine `cos_{w_l}(a_s, b_t)`.
-/
import proofs.«101604_j57621281243632_1_alg».proof.Proof.KFull
import proofs.«101604_j57621281243632_1_alg».proof.Proof.KLayout

noncomputable section

namespace Cert.Bimpm

open Idealize.ShloMosaic Idealize.ShloMosaic.ValueIdx Cert.KernelIdeal Cert.KernelIdeal.Facts₀

/-- The numerators: entry (l, s, t) is `Σ_h ((w_l,h)² a_s,h) b_t,h`. -/
def kPoolDots (a b : FVec Ideal S128x256 .f32) (w : FVec Ideal S16x256 .f32) : FVec Ideal S16x128x128 .f32 :=
  shapeCast S16x128x128
    (matmul dot_S2048x256_S256x128_S2048x128_1_0_0_1_n_n none
      (shapeCast S2048x256
        (mulf (broadcastTo S16x128x256 (shapeCast S16x1x256 (mulf w w) shapeCasts_S16x256_S16x1x256) broadcasts_S16x1x256_S16x128x256)
          (broadcastTo S16x128x256 (shapeCast S1x128x256 a shapeCasts_S128x256_S1x128x256) broadcasts_S1x128x256_S16x128x256))
        shapeCasts_S16x128x256_S2048x256)
      (transpose S256x128 [1, 0] b transposes_S128x256_p1_0_S256x128) (constant S2048x128 .f32 0x00000000#32))
    shapeCasts_S2048x128_S16x128x128

theorem kPoolDots_apply (a b : FVec Ideal S128x256 .f32) (w : FVec Ideal S16x256 .f32) (l : Fin 16) (s t : Fin 128) :
    kPoolDots a b w (ix3 l s t) = wdot (rowOf w l) (rowOf a s) (rowOf b t) := by
  unfold kPoolDots wdot rowOf
  rw [shapeCast_split_apply, mmB_apply]
  refine Finset.sum_congr rfl fun h _ => ?_
  rw [shapeCast_merge_apply, mulf_apply, broadcastTo_a1c_abc_apply, broadcastTo_1bc_abc_apply, shapeCast_ab_a1b_apply,
    shapeCast_ab_1ab_apply, transpose_ix2_apply, mulf_apply]
  exact (mul_rotate _ _ _ : (_ : EReal) * _ * _ = _)

/-- The clamped weighted norms: entry (l, s) is `max(√(Σ_h (w_l,h)² (a_s,h)²), ε)`. -/
def kPoolNorm (a : FVec Ideal S128x256 .f32) (w : FVec Ideal S16x256 .f32) : FVec Ideal S16x128 .f32 :=
  maximumf
    (sqrt (matmul dot_S16x256_S256x128_S16x128_1_0_0_1_n_n none (mulf w w) (transpose S256x128 [1, 0] (mulf a a) transposes_S128x256_p1_0_S256x128) (constant S16x128 .f32 0x00000000#32)))
    (broadcast S16x128 (Scalar.ofBits .f32 0x322BCC77#32))

theorem kPoolNorm_apply (a : FVec Ideal S128x256 .f32) (w : FVec Ideal S16x256 .f32) (l : Fin 16) (s : Fin 128) :
    kPoolNorm a w (ix2 l s) = clamp (Ideal.sqrt (wdot (rowOf w l) (rowOf a s) (rowOf a s))) := by
  unfold kPoolNorm clamp wdot rowOf
  rw [maximumf_apply, sqrt_apply, mmC_apply]
  refine congrArg₂ max (congrArg Ideal.sqrt (Finset.sum_congr rfl fun h _ => ?_)) rfl
  rw [transpose_ix2_apply, mulf_apply, mulf_apply]
  exact (mul_comm _ _ : (_ : EReal) * _ = _)

/-- The kernel's max-pooled matching. -/
def kPool (a b : FVec Ideal S128x256 .f32) (w : FVec Ideal S16x256 .f32) : FVec Ideal S128x16 .f32 :=
  transpose S128x16 [1, 0]
    (multiReduction .maximumf [2] S16x128
      (divf (kPoolDots a b w)
        (mulf (broadcastTo S16x128x128 (shapeCast S16x128x1 (kPoolNorm a w) shapeCasts_S16x128_S16x128x1) broadcasts_S16x128x1_S16x128x128)
          (broadcastTo S16x128x128 (shapeCast S16x1x128 (kPoolNorm b w) shapeCasts_S16x128_S16x1x128) broadcasts_S16x1x128_S16x128x128)))
      0xFF800000#32 reduces_S16x128x128_S16x128 (.inl rfl) rfl)
    transposes_S16x128_p1_0_S128x16

/-- Entry (s, l) of the kernel's max-pooled matching. -/
theorem kPool_apply (a b : FVec Ideal S128x256 .f32) (w : FVec Ideal S16x256 .f32) (s : Fin 128) (l : Fin 16) :
    kPool a b w (ix2 s l) = poolMax (rowOf w l) (rowOf a) (rowOf b) s := by
  unfold kPool poolMax
  rw [transpose_ix2_apply]
  refine (Ideal.multiReduction_maximumf_single _ _ reduces_S16x128x128_S16x128 _ _ (ix2 l s)).trans ?_
  rw [Ideal.ofBits_def, ofBits_neg_inf]
  refine congrArg (fun f => Finset.fold max ⊥ f Finset.univ) (funext fun (t : Fin 128) => ?_)
  have e : reduces_S16x128x128_S16x128.lift (ix2 l s) t = ix3 l s t :=
    funext fun a => Fin.ext (by match a with | ⟨0, _⟩ => rfl | ⟨1, _⟩ => rfl | ⟨2, _⟩ => rfl)
  show divf (F := Ideal) _ _ (reduces_S16x128x128_S16x128.lift (ix2 l s) t) = _
  rw [e, divf_apply, mulf_apply, kPoolDots_apply, broadcastTo_ab1_abc_apply, broadcastTo_a1c_abc_apply, shapeCast_ab_ab1_apply,
    shapeCast_ab_a1b_apply, kPoolNorm_apply, kPoolNorm_apply]
  rfl

end Cert.Bimpm

end
-- ==== Proof.KTerm.lean ====
/-
  The body of one grid point as one term of its three loaded blocks. The body cuts the two [1, 128, 512] sentence blocks
  into their forward (columns 0..255) and backward (columns 256..511) halves and the [8, 16, 256] weight block into its
  eight matrices, and stores the concatenation of eight [128, 16] pieces: full matching against the anchor row,
  max-pooled matching, and full matching against the attentive mean and the attentive maximum, each forward then backward.
-/
import proofs.«101604_j57621281243632_1_alg».proof.Proof.Gen.KernelIdeal.Frame
import proofs.«101604_j57621281243632_1_alg».proof.Proof.Spec
import proofs.«101604_j57621281243632_1_alg».proof.Proof.KFull
import proofs.«101604_j57621281243632_1_alg».proof.Proof.KAtt
import proofs.«101604_j57621281243632_1_alg».proof.Proof.KPool

noncomputable section

namespace Cert.Bimpm

open Idealize.ShloMosaic Idealize.ShloMosaic.ValueIdx Cert.KernelIdeal Cert.KernelIdeal.Facts₀

/-! ## The operands the body cuts out of its blocks -/

/-- Columns 0..255 of a block, as a [128, 256] vector. -/
def fwdOf (X : Vec Ideal S1x128x512 .f32) : FVec Ideal S128x256 .f32 :=
  extractStridedSlice S128x256 ![0, 0] (shapeCast S128x512 X shapeCasts_S1x128x512_S128x512) slices_S128x512_o0_0_S128x256

/-- Columns 256..511 of a block. -/
def bwdOf (X : Vec Ideal S1x128x512 .f32) : FVec Ideal S128x256 .f32 :=
  extractStridedSlice S128x256 ![0, 256] (shapeCast S128x512 X shapeCasts_S1x128x512_S128x512) slices_S128x512_o0_256_S128x256

/-- The `n`-th weight matrix, as a [16, 256] vector. -/
def wOf (n : Nat) (X2 : Vec Ideal S8x16x256 .f32) (hn : S8x16x256.Slices ![n, 0, 0] S1x16x256) : FVec Ideal S16x256 .f32 :=
  shapeCast S16x256 (extractStridedSlice S1x16x256 ![n, 0, 0] X2 hn) shapeCasts_S1x16x256_S16x256

/-- One row `r` of an operand repeated over all 128 rows: the anchor of full matching. -/
def anchorOf (r : Nat) (b : FVec Ideal S128x256 .f32) (hr : S128x256.Slices ![r, 0] S1x256) : FVec Ideal S128x256 .f32 :=
  broadcastTo S128x256 (shapeCast S1x256 (extractStridedSlice S1x256 ![r, 0] b hr) shapeCasts_S1x256_S1x256) broadcasts_S1x256_S128x256

theorem fwdOf_row (X : Vec Ideal S1x128x512 .f32) : rowOf (fwdOf X) = blo X := by
  funext s h
  unfold rowOf fwdOf blo
  rw [slice2_axis1_apply 0 _ slices_S128x512_o0_0_S128x256 s h ⟨h.val, by have := h.isLt; omega⟩ (by show h.val = 0 + h.val; omega),
    shapeCast_1ab_ab_apply]

theorem bwdOf_row (X : Vec Ideal S1x128x512 .f32) : rowOf (bwdOf X) = bhi X := by
  funext s h
  unfold rowOf bwdOf bhi
  rw [slice2_axis1_apply 256 _ slices_S128x512_o0_256_S128x256 s h ⟨256 + h.val, by have := h.isLt; omega⟩ rfl,
    shapeCast_1ab_ab_apply]

theorem wOf_row (n : Nat) (hlt : n < 8) (X2 : Vec Ideal S8x16x256 .f32) (hn : S8x16x256.Slices ![n, 0, 0] S1x16x256) :
    rowOf (wOf n X2 hn) = wts X2 ⟨n, hlt⟩ := by
  funext l h
  unfold rowOf wOf wts
  rw [shapeCast_1ab_ab_apply]
  exact extractStridedSlice_apply ![n, 0, 0] X2 hn (ix3 (0 : Fin 1) l h) (ix3 (⟨n, hlt⟩ : Fin 8) l h) (fun a => match a with
    | ⟨0, _⟩ => by show n = n + 0; omega
    | ⟨1, _⟩ => by show l.val = 0 + l.val; omega
    | ⟨2, _⟩ => by show h.val = 0 + h.val; omega)

theorem anchorOf_row (r : Nat) (hlt : r < 128) (b : FVec Ideal S128x256 .f32) (hr : S128x256.Slices ![r, 0] S1x256) (s : Fin 128) :
    rowOf (anchorOf r b hr) s = rowOf b ⟨r, hlt⟩ := by
  funext h
  unfold rowOf anchorOf
  rw [broadcastTo_1b_ab_apply, shapeCast_self, slice2_axis0_apply r b hr (0 : Fin 1) h (⟨r, hlt⟩ : Fin 128) (by show r = r + 0; omega)]

/-- The attentive mean of the other sentence, row by row. -/
theorem kMean_row (a b : FVec Ideal S128x256 .f32) (s : Fin 128) :
    rowOf (kMean (kAtt a b) b) s = attMean (rowOf a) (rowOf b) s := by
  funext h
  unfold rowOf attMean
  rw [kMean_apply]
  simp only [kAtt_apply]
  rfl

/-- The attentive maximum of the other sentence, row by row. -/
theorem kMax_row (a b : FVec Ideal S128x256 .f32) (s : Fin 128) :
    rowOf (kMax (kAtt a b) b) s = attMax (rowOf a) (rowOf b) s := by
  funext h
  unfold rowOf attMax
  rw [kMax_apply]
  simp only [kAtt_apply]
  rfl

/-! ## The stored block -/

theorem origin3 : (![0, 0, 0] : Fin 3 → Nat) = fun _ => 0 := funext fun a => by fin_cases a <;> rfl

/-- The eight [128, 16] pieces the body computes, by group: full matching forward and backward, max-pooled matching
    forward and backward, attentive matching forward and backward, max-attentive matching forward and backward. -/
def kPieces (X0 X1 : Vec Ideal S1x128x512 .f32) (X2 : Vec Ideal S8x16x256 .f32) (p : Fin 8) : FVec Ideal S128x16 .f32 :=
  match p with
  | ⟨0, _⟩ => kFull (fwdOf X0) (anchorOf 127 (fwdOf X1) slices_S128x256_o127_0_S1x256) (wOf 0 X2 slices_S8x16x256_o0_0_0_S1x16x256)
  | ⟨1, _⟩ => kFull (bwdOf X0) (anchorOf 0 (bwdOf X1) slices_S128x256_o0_0_S1x256) (wOf 1 X2 slices_S8x16x256_o1_0_0_S1x16x256)
  | ⟨2, _⟩ => kPool (fwdOf X0) (fwdOf X1) (wOf 2 X2 slices_S8x16x256_o2_0_0_S1x16x256)
  | ⟨3, _⟩ => kPool (bwdOf X0) (bwdOf X1) (wOf 3 X2 slices_S8x16x256_o3_0_0_S1x16x256)
  | ⟨4, _⟩ => kFull (fwdOf X0) (kMean (kAtt (fwdOf X0) (fwdOf X1)) (fwdOf X1)) (wOf 4 X2 slices_S8x16x256_o4_0_0_S1x16x256)
  | ⟨5, _⟩ => kFull (bwdOf X0) (kMean (kAtt (bwdOf X0) (bwdOf X1)) (bwdOf X1)) (wOf 5 X2 slices_S8x16x256_o5_0_0_S1x16x256)
  | ⟨6, _⟩ => kFull (fwdOf X0) (kMax (kAtt (fwdOf X0) (fwdOf X1)) (fwdOf X1)) (wOf 6 X2 slices_S8x16x256_o6_0_0_S1x16x256)
  | ⟨_ + 7, _⟩ => kFull (bwdOf X0) (kMax (kAtt (bwdOf X0) (bwdOf X1)) (bwdOf X1)) (wOf 7 X2 slices_S8x16x256_o7_0_0_S1x16x256)

/-- The body's stored block as one term of its three loaded blocks: the eight pieces side by side. -/
def kBody (X0 X1 : Vec Ideal S1x128x512 .f32) (X2 : Vec Ideal S8x16x256 .f32) : FVec Ideal S1x128x128 .f32 :=
  shapeCast S1x128x128
    (concatenate S128x128 1
      [⟨S128x16, kPieces X0 X1 X2 0⟩, ⟨S128x16, kPieces X0 X1 X2 1⟩, ⟨S128x16, kPieces X0 X1 X2 2⟩, ⟨S128x16, kPieces X0 X1 X2 3⟩,
       ⟨S128x16, kPieces X0 X1 X2 4⟩, ⟨S128x16, kPieces X0 X1 X2 5⟩, ⟨S128x16, kPieces X0 X1 X2 6⟩, ⟨S128x16, kPieces X0 X1 X2 7⟩]
      concatenates_S128x16_S128x16_S128x16_S128x16_S128x16_S128x16_S128x16_S128x16_S128x128_d1)
    shapeCasts_S128x128_S1x128x128

/-- The one store of the body covers the whole output block, and its value is that term. -/
theorem out_eq_kBody (X0 X1 : Vec Ideal S1x128x512 .f32) (X2 : Vec Ideal S8x16x256 .f32) :
    Cert.KernelIdeal.Gen.out0_3 (F := Ideal) X0 X1 X2 = kBody X0 X1 X2 := by
  unfold Cert.KernelIdeal.Gen.out0_3
  rw [View.canon_unit_zero origin3]
  simp only [View.ld_unit_zero (S := S1x128x512) origin3, View.ld_unit_zero (S := S8x16x256) origin3]
  rfl

end Cert.Bimpm

end
-- ==== Proof.KBody.lean ====
/-
  What one grid point's body leaves in the output block: for the two sentence blocks and the weights it loads, the
  stored [1, 128, 128] block at row `s`, column `c` is group `c / 16`, weight row `c % 16` of that batch element's
  result (Spec.lean's `blockResult`). The body's text is read as the concatenation of eight [128, 16] pieces, each a
  full matching, a max-pooled matching, or a full matching against the attentive mean or maximum, of the forward or the
  backward halves of the two blocks under one of the eight weight matrices.
-/
import proofs.«101604_j57621281243632_1_alg».proof.Proof.KTerm

noncomputable section

namespace Cert.Bimpm

open Idealize.ShloMosaic Idealize.ShloMosaic.ValueIdx Cert.KernelIdeal Cert.KernelIdeal.Facts₀

/-- Column `16 p + l` of the concatenation of eight [128, 16] pieces is column `l` of piece `p`. -/
theorem concat8_apply (f : Fin 8 → FVec Ideal S128x16 .f32) (s : Fin 128) (c : Fin 128) (p : Fin 8) (l : Fin 16)
    (hc : c.val = 16 * p.val + l.val) :
    concatenate S128x128 1 [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩]
      concatenates_S128x16_S128x16_S128x16_S128x16_S128x16_S128x16_S128x16_S128x16_S128x128_d1 (ix2 s c) = f p (ix2 s l) := by
  have hi : ∀ b : Fin S128x16.rank, b.cast (rfl : S128x16.rank = S128x128.rank) ≠ (1 : Fin S128x128.rank) → (ix2 s l b).val = (ix2 s c (b.cast rfl)).val :=
    fun b hb => match b with
      | ⟨0, _⟩ => rfl
      | ⟨1, _⟩ => absurd rfl hb
  obtain ⟨pv, hpv⟩ := p
  have hc' : c.val = 16 * pv + l.val := hc
  interval_cases pv
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 0 (by show (0 : Nat) < 8; decide) S128x16 (f 0) rfl rfl 0 rfl (ix2 s l) hi (by show 0 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 1 (by show (1 : Nat) < 8; decide) S128x16 (f 1) rfl rfl 16 rfl (ix2 s l) hi (by show 16 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 2 (by show (2 : Nat) < 8; decide) S128x16 (f 2) rfl rfl 32 rfl (ix2 s l) hi (by show 32 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 3 (by show (3 : Nat) < 8; decide) S128x16 (f 3) rfl rfl 48 rfl (ix2 s l) hi (by show 48 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 4 (by show (4 : Nat) < 8; decide) S128x16 (f 4) rfl rfl 64 rfl (ix2 s l) hi (by show 64 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 5 (by show (5 : Nat) < 8; decide) S128x16 (f 5) rfl rfl 80 rfl (ix2 s l) hi (by show 80 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 6 (by show (6 : Nat) < 8; decide) S128x16 (f 6) rfl rfl 96 rfl (ix2 s l) hi (by show 96 + l.val = c.val; omega)
  · exact concatenate_apply_piece (1 : Fin S128x128.rank) [⟨S128x16, f 0⟩, ⟨S128x16, f 1⟩, ⟨S128x16, f 2⟩, ⟨S128x16, f 3⟩, ⟨S128x16, f 4⟩, ⟨S128x16, f 5⟩, ⟨S128x16, f 6⟩, ⟨S128x16, f 7⟩] concatenates_S128x16_S128x16_S128x16_S128x16_S128x16_S128x16_S128x16_S128x16_S128x128_d1 (ix2 s c) 7 (by show (7 : Nat) < 8; decide) S128x16 (f 7) rfl rfl 112 rfl (ix2 s l) hi (by show 112 + l.val = c.val; omega)

/-- Each piece at (s, l) is the specification's group. -/
theorem kPieces_apply (X0 X1 : Vec Ideal S1x128x512 .f32) (X2 : Vec Ideal S8x16x256 .f32) (p : Fin 8) (s : Fin 128) (l : Fin 16) :
    kPieces X0 X1 X2 p (ix2 s l) = blockResult X0 X1 X2 s p l := by
  obtain ⟨pv, hpv⟩ := p
  interval_cases pv
  · show kFull (fwdOf X0) (anchorOf 127 (fwdOf X1) slices_S128x256_o127_0_S1x256) (wOf 0 X2 slices_S8x16x256_o0_0_0_S1x16x256) (ix2 s l) = wcos (wts X2 ⟨0, by decide⟩ l) (blo X0 s) (blo X1 ⟨127, by decide⟩)
    rw [kFull_apply, wOf_row 0 (by decide), fwdOf_row, anchorOf_row 127 (by decide), fwdOf_row]
  · show kFull (bwdOf X0) (anchorOf 0 (bwdOf X1) slices_S128x256_o0_0_S1x256) (wOf 1 X2 slices_S8x16x256_o1_0_0_S1x16x256) (ix2 s l) = wcos (wts X2 ⟨1, by decide⟩ l) (bhi X0 s) (bhi X1 ⟨0, by decide⟩)
    rw [kFull_apply, wOf_row 1 (by decide), bwdOf_row, anchorOf_row 0 (by decide), bwdOf_row]
  · show kPool (fwdOf X0) (fwdOf X1) (wOf 2 X2 slices_S8x16x256_o2_0_0_S1x16x256) (ix2 s l) = poolMax (wts X2 ⟨2, by decide⟩ l) (blo X0) (blo X1) s
    rw [kPool_apply, wOf_row 2 (by decide), fwdOf_row, fwdOf_row]
  · show kPool (bwdOf X0) (bwdOf X1) (wOf 3 X2 slices_S8x16x256_o3_0_0_S1x16x256) (ix2 s l) = poolMax (wts X2 ⟨3, by decide⟩ l) (bhi X0) (bhi X1) s
    rw [kPool_apply, wOf_row 3 (by decide), bwdOf_row, bwdOf_row]
  · show kFull (fwdOf X0) (kMean (kAtt (fwdOf X0) (fwdOf X1)) (fwdOf X1)) (wOf 4 X2 slices_S8x16x256_o4_0_0_S1x16x256) (ix2 s l) = wcos (wts X2 ⟨4, by decide⟩ l) (blo X0 s) (attMean (blo X0) (blo X1) s)
    rw [kFull_apply, wOf_row 4 (by decide), kMean_row, fwdOf_row, fwdOf_row]
  · show kFull (bwdOf X0) (kMean (kAtt (bwdOf X0) (bwdOf X1)) (bwdOf X1)) (wOf 5 X2 slices_S8x16x256_o5_0_0_S1x16x256) (ix2 s l) = wcos (wts X2 ⟨5, by decide⟩ l) (bhi X0 s) (attMean (bhi X0) (bhi X1) s)
    rw [kFull_apply, wOf_row 5 (by decide), kMean_row, bwdOf_row, bwdOf_row]
  · show kFull (fwdOf X0) (kMax (kAtt (fwdOf X0) (fwdOf X1)) (fwdOf X1)) (wOf 6 X2 slices_S8x16x256_o6_0_0_S1x16x256) (ix2 s l) = wcos (wts X2 ⟨6, by decide⟩ l) (blo X0 s) (attMax (blo X0) (blo X1) s)
    rw [kFull_apply, wOf_row 6 (by decide), kMax_row, fwdOf_row, fwdOf_row]
  · show kFull (bwdOf X0) (kMax (kAtt (bwdOf X0) (bwdOf X1)) (bwdOf X1)) (wOf 7 X2 slices_S8x16x256_o7_0_0_S1x16x256) (ix2 s l) = wcos (wts X2 ⟨7, by decide⟩ l) (bhi X0 s) (attMax (bhi X0) (bhi X1) s)
    rw [kFull_apply, wOf_row 7 (by decide), kMax_row, bwdOf_row, bwdOf_row]

/-- The body's stored block, index by index. -/
theorem body_eq (X0 X1 : Vec Ideal S1x128x512 .f32) (X2 : Vec Ideal S8x16x256 .f32) (s c : Fin 128) :
    Cert.KernelIdeal.Gen.out0_3 (F := Ideal) X0 X1 X2 (ix3 (0 : Fin 1) s c) = blockResult X0 X1 X2 s (grp c) (wrow c) := by
  rw [out_eq_kBody]
  unfold kBody
  rw [shapeCast_ab_1ab_apply]
  exact (concat8_apply (kPieces X0 X1 X2) s c (grp c) (wrow c) (Nat.div_add_mod c.val 16).symm).trans
    (kPieces_apply X0 X1 X2 (grp c) s (wrow c))

end Cert.Bimpm

end
-- ==== Proof.RefValueIn.lean ====
/-
  The reference's first stages at an index: the four half-row slices of the sentence arrays and the eight weight matrices.
-/
import proofs.«101604_j57621281243632_1_alg».proof.Proof.RefRead
import proofs.«101604_j57621281243632_1_alg».proof.Proof.Spec

noncomputable section

namespace Cert.Bimpm

open Idealize.ShloMosaic Idealize.ShloMosaic.ValueIdx Cert.ReferenceIdeal Cert.ReferenceIdeal.Read

variable (x0 x1 : (⟨S16x128x512, .f32⟩ : BufTy).Contents (Elt Ideal)) (x2 : (⟨S8x16x256, .f32⟩ : BufTy).Contents (Elt Ideal))

/-- The forward half of the first sentence array at an index. -/
theorem v0_at (b : Fin 16) (s : Fin 128) (h : Fin 256) : val_main_v0 (F := Ideal) x0 (ix3 b s h) = lo x0 b s h := by
  rw [val_main_v0_apply]
  exact congrArg x0 (funext fun a => Fin.ext (by match a with | ⟨0, _⟩ => rfl | ⟨1, _⟩ => rfl | ⟨2, _⟩ => rfl))

/-- The backward half of the first sentence array at an index. -/
theorem v1_at (b : Fin 16) (s : Fin 128) (h : Fin 256) : val_main_v1 (F := Ideal) x0 (ix3 b s h) = hi x0 b s h := by
  rw [val_main_v1_apply]
  exact congrArg x0 (funext fun a => Fin.ext (by match a with | ⟨0, _⟩ => rfl | ⟨1, _⟩ => rfl | ⟨2, _⟩ => rfl))

/-- The forward half of the second sentence array at an index. -/
theorem v2_at (b : Fin 16) (s : Fin 128) (h : Fin 256) : val_main_v2 (F := Ideal) x1 (ix3 b s h) = lo x1 b s h := by
  rw [val_main_v2_apply]
  exact congrArg x1 (funext fun a => Fin.ext (by match a with | ⟨0, _⟩ => rfl | ⟨1, _⟩ => rfl | ⟨2, _⟩ => rfl))

/-- The backward half of the second sentence array at an index. -/
theorem v3_at (b : Fin 16) (s : Fin 128) (h : Fin 256) : val_main_v3 (F := Ideal) x1 (ix3 b s h) = hi x1 b s h := by
  rw [val_main_v3_apply]
  exact congrArg x1 (funext fun a => Fin.ext (by match a with | ⟨0, _⟩ => rfl | ⟨1, _⟩ => rfl | ⟨2, _⟩ => rfl))

/-- Weight matrix 0 at an index. -/
theorem v5_at (l : Fin 16) (h : Fin 256) : val_main_v5 (F := Ideal) x2 (ix2 l h) = wts x2 0 l h := by
  rw [val_main_v5_apply, val_main_v4_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 2 at an index. -/
theorem v7_at (l : Fin 16) (h : Fin 256) : val_main_v7 (F := Ideal) x2 (ix2 l h) = wts x2 2 l h := by
  rw [val_main_v7_apply, val_main_v6_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 4 at an index. -/
theorem v9_at (l : Fin 16) (h : Fin 256) : val_main_v9 (F := Ideal) x2 (ix2 l h) = wts x2 4 l h := by
  rw [val_main_v9_apply, val_main_v8_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 6 at an index. -/
theorem v11_at (l : Fin 16) (h : Fin 256) : val_main_v11 (F := Ideal) x2 (ix2 l h) = wts x2 6 l h := by
  rw [val_main_v11_apply, val_main_v10_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 1 at an index. -/
theorem v125_at (l : Fin 16) (h : Fin 256) : val_main_v125 (F := Ideal) x2 (ix2 l h) = wts x2 1 l h := by
  rw [val_main_v125_apply, val_main_v124_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 3 at an index. -/
theorem v127_at (l : Fin 16) (h : Fin 256) : val_main_v127 (F := Ideal) x2 (ix2 l h) = wts x2 3 l h := by
  rw [val_main_v127_apply, val_main_v126_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 5 at an index. -/
theorem v129_at (l : Fin 16) (h : Fin 256) : val_main_v129 (F := Ideal) x2 (ix2 l h) = wts x2 5 l h := by
  rw [val_main_v129_apply, val_main_v128_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

/-- Weight matrix 7 at an index. -/
theorem v131_at (l : Fin 16) (h : Fin 256) : val_main_v131 (F := Ideal) x2 (ix2 l h) = wts x2 7 l h := by
  rw [val_main_v131_apply, val_main_v130_apply]
  refine congrArg x2 (funext fun a => Fin.ext ?_)
  match a with
  | ⟨0, _⟩ => rfl
  | ⟨1, _⟩ => show (l.val * 256 + h.val) / 256 % 16 = l.val; omega
  | ⟨2, _⟩ => show (l.val * 256 + h.val) % 256 = h.val; omega

end Cert.Bimpm

end
-- ==== Proof.RefValueAlg.lean ====
/-
  The algebra that joins the reference's grouping of each matching score to the specification's: the weighted
  products regrouped termwise, the zero initial value of a sum dropped, a select on "x > ε" read as a maximum.
-/
import proofs.«101604_j57621281243632_1_alg».proof.Proof.Spec

noncomputable section

namespace Cert.Bimpm

open Idealize.ShloMosaic Idealize.ShloMosaic.ValueIdx

local notation "zero32" => (Ideal.ofBits FTy.f32 0x00000000#32 : EReal)

/-- From the zero word, the sum of (a_h w_h)(b_h w_h) is the weighted inner product. -/
theorem wdot_ref (w a b : Fin 256 → EReal) :
    zero32 + ∑ k : Fin 256, (a k * w k) * (b k * w k) = wdot w a b := by
  rw [Ideal.ofBits_zero_f32, zero_add]
  unfold wdot
  exact Finset.sum_congr rfl fun k _ => mul_mul_mul_comm _ _ _ _

/-- The reference's full-matching score of two rows is the clamped weighted cosine. -/
theorem wcos_ref (w a b : Fin 256 → EReal) :
    Ideal.div (zero32 + ∑ k : Fin 256, (a k * w k) * (b k * w k))
        (max (Ideal.sqrt (zero32 + ∑ k : Fin 256, (a k * w k) * (a k * w k))) eps
          * max (Ideal.sqrt (zero32 + ∑ k : Fin 256, (b k * w k) * (b k * w k))) eps)
      = wcos w a b := by
  rw [wdot_ref, wdot_ref, wdot_ref]
  rfl

/-- The same sum without an initial value (a dot product has none). -/
theorem wdot_ref0 (w a b : Fin 256 → EReal) :
    ∑ k : Fin 256, (a k * w k) * (b k * w k) = wdot w a b := by
  unfold wdot
  exact Finset.sum_congr rfl fun k _ => mul_mul_mul_comm _ _ _ _

/-- The reference's score of two rows when the numerator is a dot product. -/
theorem wcos_ref0 (w a b : Fin 256 → EReal) :
    Ideal.div (∑ k : Fin 256, (a k * w k) * (b k * w k))
        (max (Ideal.sqrt (zero32 + ∑ k : Fin 256, (a k * w k) * (a k * w k))) eps
          * max (Ideal.sqrt (zero32 + ∑ k : Fin 256, (b k * w k) * (b k * w k))) eps)
      = wcos w a b := by
  rw [wdot_ref0, wdot_ref, wdot_ref]
  rfl

/-- A select on "x > e" between x and e is their maximum. -/
theorem select_gt_eq_max (x e : EReal) : Scalar.select (Ideal.cmp .ogt x e) x e = max x e := by
  unfold Scalar.select Ideal.cmp
  by_cases h : e < x
  · simp [h, max_eq_left h.le]
  · simp [h, max_eq_right (not_lt.mp h)]

end Cert.Bimpm

end
-- ==== Proof.RefValueFull.lean ====
/-
  Full matching, forward and backward: the reference's score of each row against the anchor row is the clamped weighted cosine.
-/
import proofs.«101604_j57621281243632_1_alg».proof.Proof.RefValueIn
import proofs.«101604_j57621281243632_1_alg».proof.Proof.RefValueAlg

noncomputable section

namespace Cert.Bimpm

open Idealize.ShloMosaic Idealize.ShloMosaic.ValueIdx Cert.ReferenceIdeal Cert.ReferenceIdeal.Read

variable (x0 x1 : (⟨S16x128x512, .f32⟩ : BufTy).Contents (Elt Ideal)) (x2 : (⟨S8x16x256, .f32⟩ : BufTy).Contents (Elt Ideal))

/-- The anchor row of the second sentence, broadcast down the rows. -/
theorem v13_at (b : Fin 16) (s : Fin 128) (h : Fin 256) : val_main_v13 (F := Ideal) x1 (ix3 b s h) = lo x1 b 127 h := by
  have e : idx_main_v12 (idx_main_v13 (ix3 b s h)) = ix3 b (127 : Fin 128) h := funext fun a => Fin.ext (by match a with | ⟨0, _⟩ => rfl | ⟨1, _⟩ => rfl | ⟨2, _⟩ => rfl)
  rw [val_main_v13_apply, val_main_v12_apply, e, v2_at]

/-- The first sentence's rows times weight matrix 0, at an index. -/
theorem v18_at (b : Fin 16) (s : Fin 128) (l : Fin 16) (h : Fin 256) :
    val_main_v18 (F := Ideal) x0 x2 (ix4 b s l h) = lo x0 b s h * wts x2 0 l h := by
  have e1 : idx_main_v14 (idx_main_v16 (ix4 b s l h)) = ix3 b s h := funext fun a => Fin.ext (by match a with | ⟨0, _⟩ => rfl | ⟨1, _⟩ => rfl | ⟨2, _⟩ => rfl)
  have e2 : idx_main_v15 (idx_main_v17 (ix4 b s l h)) = ix2 l h := funext fun a => Fin.ext (by match a with | ⟨0, _⟩ => rfl | ⟨1, _⟩ => rfl)
  rw [val_main_v18_apply, Ideal.mulf_def, val_main_v16_apply, val_main_v14_apply, e1, v0_at, val_main_v17_apply,
    val_main_v15_apply, e2, v5_at]

/-- The forward anchor row times weight matrix 0, at an index. -/
theorem v23_at (b : Fin 16) (s : Fin 128) (l : Fin 16) (h : Fin 256) :
    val_main_v23 (F := Ideal) x1 x2 (ix4 b s l h) = lo x1 b 127 h * wts x2 0 l h := by
  have e1 : idx_main_v19 (idx_main_v21 (ix4 b s l h)) = ix3 b s h := funext fun a => Fin.ext (by match a with | ⟨0, _⟩ => rfl | ⟨1, _⟩ => rfl | ⟨2, _⟩ => rfl)
  have e2 : idx_main_v20 (idx_main_v22 (ix4 b s l h)) = ix2 l h := funext fun a => Fin.ext (by match a with | ⟨0, _⟩ => rfl | ⟨1, _⟩ => rfl)
  rw [val_main_v23_apply, Ideal.mulf_def, val_main_v21_apply, val_main_v19_apply, e1, v13_at, val_main_v22_apply,
    val_main_v20_apply, e2, v5_at]

/-- The weighted norm of the first sentence's row. -/
theorem v24_at (b : Fin 16) (s : Fin 128) (l : Fin 16) :
    val_main_v24 (F := Ideal) x0 x2 (ix3 b s l)
      = Ideal.sqrt ((Ideal.ofBits .f32 0x00000000#32 : EReal) + ∑ k : Fin 256, (lo x0 b s k * wts x2 0 l k) * (lo x0 b s k * wts x2 0 l k)) := by
  have e : ∀ k : Fin 256, idx_main_call0_v1 (ix3 b s l) k = ix4 b s l k := fun k => funext fun a => Fin.ext (by match a with | ⟨0, _⟩ => rfl | ⟨1, _⟩ => rfl | ⟨2, _⟩ => rfl | ⟨3, _⟩ => rfl)
  rw [val_main_v24_apply, Ideal.hostUnary_sqrt_def, val_main_call0_v1_apply, val_main_call0_cst_apply, Ideal.ofBits_def]
  simp only [val_main_call0_v0_apply, Ideal.mulf_def, e, v18_at]

/-- The weighted norm of the other row. -/
theorem v27_at (b : Fin 16) (s : Fin 128) (l : Fin 16) :
    val_main_v27 (F := Ideal) x1 x2 (ix3 b s l)
      = Ideal.sqrt ((Ideal.ofBits .f32 0x00000000#32 : EReal) + ∑ k : Fin 256, (lo x1 b 127 k * wts x2 0 l k) * (lo x1 b 127 k * wts x2 0 l k)) := by
  have e : ∀ k : Fin 256, idx_main_call1_v1 (ix3 b s l) k = ix4 b s l k := fun k => funext fun a => Fin.ext (by match a with | ⟨0, _⟩ => rfl | ⟨1, _⟩ => rfl | ⟨2, _⟩ => rfl | ⟨3, _⟩ => rfl)
  rw [val_main_v27_apply, Ideal.hostUnary_sqrt_def, val_main_call1_v1_apply, val_main_call1_cst_apply, Ideal.ofBits_def]
  simp only [val_main_call1_v0_apply, Ideal.mulf_def, e, v23_at]

/-- Full matching forward: column group 0. -/
theorem v33_at (b : Fin 16) (s : Fin 128) (l : Fin 16) :
    val_main_v33 (F := Ideal) x0 x1 x2 (ix3 b s l) = result x0 x1 x2 b s 0 l := by
  have e : ∀ k : Fin 256, idx_main_v31 (ix3 b s l) k = ix4 b s l k := fun k => funext fun a => Fin.ext (by match a with | ⟨0, _⟩ => rfl | ⟨1, _⟩ => rfl | ⟨2, _⟩ => rfl | ⟨3, _⟩ => rfl)
  rw [val_main_v33_apply, Ideal.hostDivf_def, val_main_v31_apply, val_main_cst_1_apply, val_main_v32_apply, Ideal.mulf_def,
    val_main_v26_apply, Ideal.maximumf_def, v24_at, val_main_v25_apply, val_main_cst_apply, val_main_v29_apply,
    Ideal.maximumf_def, v27_at, val_main_v28_apply, val_main_cst_0_apply]
  simp only [Ideal.ofBits_def, val_main_v30_apply, Ideal.mulf_def, e, v18_at, v23_at]
  exact wcos_ref (wts x2 0 l) (lo x0 b s) (lo x1 b 127)

/-- The anchor row of the second sentence, broadcast down the rows. -/
theorem v133_at (b : Fin 16) (s : Fin 128) (h : Fin 256) : val_main_v133 (F := Ideal) x1 (ix3 b s h) = hi x1 b 0 h := by
  have e : idx_main_v132 (idx_main_v133 (ix3 b s h)) = ix3 b (0 : Fin 128) h := funext fun a => Fin.ext (by match a with | ⟨0, _⟩ => rfl | ⟨1, _⟩ => rfl | ⟨2, _⟩ => rfl)
  rw [val_main_v133_apply, val_main_v132_apply, e, v3_at]

/-- The first sentence's rows times weight matrix 1, at an index. -/
theorem v138_at (b : Fin 16) (s : Fin 128) (l : Fin 16) (h : Fin 256) :
    val_main_v138 (F := Ideal) x0 x2 (ix4 b s l h) = hi x0 b s h * wts x2 1 l h := by
  have e1 : idx_main_v134 (idx_main_v136 (ix4 b s l h)) = ix3 b s h := funext fun a => Fin.ext (by match a with | ⟨0, _⟩ => rfl | ⟨1, _⟩ => rfl | ⟨2, _⟩ => rfl)
  have e2 : idx_main_v135 (idx_main_v137 (ix4 b s l h)) = ix2 l h := funext fun a => Fin.ext (by match a with | ⟨0, _⟩ => rfl | ⟨1, _⟩ => rfl)
  rw [val_main_v138_apply, Ideal.mulf_def, val_main_v136_apply, val_main_v134_apply, e1, v1_at, val_main_v137_apply,
    val_main_v135_apply, e2, v125_at]

/-- The backward anchor row times weight matrix 1, at an index. -/
theorem v143_at (b : Fin 16) (s : Fin 128) (l : Fin 16) (h : Fin 256) :
    val_main_v143 (F := Ideal) x1 x2 (ix4 b s l h) = hi x1 b 0 h * wts x2 1 l h := by
  have e1 : idx_main_v139 (idx_main_v141 (ix4 b s l h)) = ix3 b s h := funext fun a => Fin.ext (by match a with | ⟨0, _⟩ => rfl | ⟨1, _⟩ => rfl | ⟨2, _⟩ => rfl)
  have e2 : idx_main_v140 (idx_main_v142 (ix4 b s l h)) = ix2 l h := funext fun a => Fin.ext (by match a with | ⟨0, _⟩ => rfl | ⟨1, _⟩ => rfl)
  rw [val_main_v143_apply, Ideal.mulf_def, val_main_v141_apply, val_main_v139_apply, e1, v133_at, val_main_v142_apply,
    val_main_v140_apply, e2, v125_at]

/-- The weighted norm of the first sentence's row. -/
theorem v144_at (b : Fin 16) (s : Fin 128) (l : Fin 16) :
    val_main_v144 (F := Ideal) x0 x2 (ix3 b s l)
      = Ideal.sqrt ((Ideal.ofBits .f32 0x00000000#32 : EReal) + ∑ k : Fin 256, (hi x0 b s k * wts x2 1 l k) * (hi x0 b s k * wts x2 1 l k)) := by
  have e : ∀ k : Fin 256, idx_main_call12_v1 (ix3 b s l) k = ix4 b s l k := fun k => funext fun a => Fin.ext (by match a with | ⟨0, _⟩ => rfl | ⟨1, _⟩ => rfl | ⟨2, _⟩ => rfl | ⟨3, _⟩ => rfl)
  rw [val_main_v144_apply, Ideal.hostUnary_sqrt_def, val_main_call12_v1_apply, val_main_call12_cst_apply, Ideal.ofBits_def]
  simp only [val_main_call12_v0_apply, Ideal.mulf_def, e, v138_at]

/-- The weighted norm of the other row. -/
theorem v147_at (b : Fin 16) (s : Fin 128) (l : Fin 16) :
    val_main_v147 (F := Ideal) x1 x2 (ix3 b s l)
      = Ideal.sqrt ((Ideal.ofBits .f32 0x00000000#32 : EReal) + ∑ k : Fin 256, (hi x1 b 0 k * wts x2 1 l k) * (hi x1 b 0 k * wts x2 1 l k)) := by
  have e : ∀ k : Fin 256, idx_main_call13_v1 (ix3 b s l) k = ix4 b s l k := fun k => funext fun a => Fin.ext (by match a with | ⟨0, _⟩ => rfl | ⟨1, _⟩ => rfl | ⟨2, _⟩ => rfl | ⟨3, _⟩ => rfl)
  rw [val_main_v147_apply, Ideal.hostUnary_sqrt_def, val_main_call13_v1_apply, val_main_call13_cst_apply, Ideal.ofBits_def]
  simp only [val_main_call13_v0_apply, Ideal.mulf_def, e, v143_at]

/-- Full matching backward: column group 1. -/
theorem v153_at (b : Fin 16) (s : Fin 128) (l : Fin 16) :
    val_main_v153 (F := Ideal) x0 x1 x2 (ix3 b s l) = result x0 x1 x2 b s 1 l := by
  have e : ∀ k : Fin 256, idx_main_v151 (ix3 b s l) k = ix4 b s l k := fun k => funext fun a => Fin.ext (by match a with | ⟨0, _⟩ => rfl | ⟨1, _⟩ => rfl | ⟨2, _⟩ => rfl | ⟨3, _⟩ => rfl)
  rw [val_main_v153_apply, Ideal.hostDivf_def, val_main_v151_apply, val_main_cst_20_apply, val_main_v152_apply, Ideal.mulf_def,
    val_main_v146_apply, Ideal.maximumf_def, v144_at, val_main_v145_apply, val_main_cst_18_apply, val_main_v149_apply,
    Ideal.maximumf_def, v147_at, val_main_v148_apply, val_main_cst_19_apply]
  simp only [Ideal.ofBits_def, val_main_v150_apply, Ideal.mulf_def, e, v138_at, v143_at]
  exact wcos_ref (wts x2 1 l) (hi x0 b s) (hi x1 b 0)

end Cert.Bimpm

end
-- ==== Proof.RefValueMax.lean ====
/-
  A maximum over one axis, started from minus infinity, read at an index: the two reductions of this shape the
  reference makes (over the last axis of a [16,16,128,128] array, over axis 2 of a [16,128,128,256] array).
-/
import proofs.«101604_j57621281243632_1_alg».proof.Proof.Gen.ReferenceIdeal
import proofs.«101604_j57621281243632_1_alg».proof.Proof.Spec

noncomputable section

namespace Cert.Bimpm

open Idealize.ShloMosaic Idealize.ShloMosaic.ValueIdx Cert.ReferenceIdeal Cert.ReferenceIdeal.Gen

/-- The maximum over the last axis of a [16,16,128,128] array, from minus infinity, at (b, l, s). -/
theorem reduce_max_d3 (x : S16x16x128x128.Idx → EReal) (init : S_.Idx → EReal)
    (hinit : init (Shape.Idx.first h_S_) = Ideal.ofBits .f32 0xFF800000#32) (b : Fin 16) (l : Fin 16) (s : Fin 128) :
    Host.reduce (FloatOps.maximumf (F := Ideal) (φ := .f32)) x init reducesTo_S16x16x128x128_S16x16x128_d3 h_S_ (ix3 b l s)
      = (Finset.univ : Finset (Fin 128)).fold max ⊥ (fun t => x (ix4 b l s t)) := by
  have h : S16x16x128x128.Reduces [3] S16x16x128 := by decide
  rw [Host.reduce_eq_fold_single _ x init reducesTo_S16x16x128x128_S16x16x128_d3 h h_S_, hinit, ofBits_neg_inf]
  have hf : (x ∘ h.lift (ix3 b l s)) = fun t : Fin 128 => x (ix4 b l s t) :=
    funext fun k => congrArg x (funext fun c => Fin.ext (by fin_cases c <;> rfl))
  exact congrArg (fun f => Finset.fold max ⊥ f (Finset.univ : Finset (Fin 128))) hf

/-- The maximum over axis 2 of a [16,128,128,256] array, from minus infinity, at (b, s, h). -/
theorem reduce_max_d2 (x : S16x128x128x256.Idx → EReal) (init : S_.Idx → EReal)
    (hinit : init (Shape.Idx.first h_S_) = Ideal.ofBits .f32 0xFF800000#32) (b : Fin 16) (s : Fin 128) (h : Fin 256) :
    Host.reduce (FloatOps.maximumf (F := Ideal) (φ := .f32)) x init reducesTo_S16x128x128x256_S16x128x256_d2 h_S_ (ix3 b s h)
      = (Finset.univ : Finset (Fin 128)).fold max ⊥ (fun t => x (ix4 b s t h)) := by
  have hr : S16x128x128x256.Reduces [2] S16x128x256 := by decide
  rw [Host.reduce_eq_fold_single _ x init reducesTo_S16x128x128x256_S16x128x256_d2 hr h_S_, hinit, ofBits_neg_inf]
  have hf : (x ∘ hr.lift (ix3 b s h)) = fun t : Fin 128 => x (ix4 b s t h) :=
    funext fun k => congrArg x (funext fun c => Fin.ext (by fin_cases c <;> rfl))
  exact congrArg (fun f => Finset.fold max ⊥ f (Finset.univ : Finset (Fin 128))) hf

end Cert.Bimpm

end
-- ==== Proof.RefValuePool.lean ====
/-
  Max-pooled matching, forward and backward: the maximum over the other sentence's rows of the clamped weighted cosine.
-/
import proofs.«101604_j57621281243632_1_alg».proof.Proof.RefValueIn
import proofs.«101604_j57621281243632_1_alg».proof.Proof.RefValueAlg
import proofs.«101604_j57621281243632_1_alg».proof.Proof.RefValueMax

noncomputable section

namespace Cert.Bimpm

open Idealize.ShloMosaic Idealize.ShloMosaic.ValueIdx Cert.ReferenceIdeal Cert.ReferenceIdeal.Read Cert.ReferenceIdeal.Gen

variable (x0 x1 : (⟨S16x128x512, .f32⟩ : BufTy).Contents (Elt Ideal)) (x2 : (⟨S8x16x256, .f32⟩ : BufTy).Contents (Elt Ideal))

/-- The first sentence's rows times weight matrix 2, laid out (batch, weight row, row, column). -/
theorem v38_at (b : Fin 16) (l : Fin 16) (s : Fin 128) (h : Fin 256) :
    val_main_v38 (F := Ideal) x0 x2 (ix4 b l s h) = lo x0 b s h * wts x2 2 l h := by
  have e1 : idx_main_v34 (idx_main_v36 (ix4 b l s h)) = ix3 b s h := funext fun a => Fin.ext (by match a with | ⟨0, _⟩ => rfl | ⟨1, _⟩ => rfl | ⟨2, _⟩ => rfl)
  have e2 : idx_main_v35 (idx_main_v37 (ix4 b l s h)) = ix2 l h := funext fun a => Fin.ext (by match a with | ⟨0, _⟩ => rfl | ⟨1, _⟩ => rfl)
  rw [val_main_v38_apply, Ideal.mulf_def, val_main_v36_apply, val_main_v34_apply, e1, v0_at, val_main_v37_apply, val_main_v35_apply, e2, v7_at]

/-- The second sentence's rows times weight matrix 2, in the same layout. -/
theorem v43_at (b : Fin 16) (l : Fin 16) (t : Fin 128) (h : Fin 256) :
    val_main_v43 (F := Ideal) x1 x2 (ix4 b l t h) = lo x1 b t h * wts x2 2 l h := by
  have e1 : idx_main_v39 (idx_main_v41 (ix4 b l t h)) = ix3 b t h := funext fun a => Fin.ext (by match a with | ⟨0, _⟩ => rfl | ⟨1, _⟩ => rfl | ⟨2, _⟩ => rfl)
  have e2 : idx_main_v40 (idx_main_v42 (ix4 b l t h)) = ix2 l h := funext fun a => Fin.ext (by match a with | ⟨0, _⟩ => rfl | ⟨1, _⟩ => rfl)
  rw [val_main_v43_apply, Ideal.mulf_def, val_main_v41_apply, val_main_v39_apply, e1, v2_at, val_main_v42_apply, val_main_v40_apply, e2, v7_at]

/-- The weighted norm of a row of the first sentence. -/
theorem v44_at (b : Fin 16) (l : Fin 16) (s : Fin 128) :
    val_main_v44 (F := Ideal) x0 x2 (ix3 b l s)
      = Ideal.sqrt ((Ideal.ofBits .f32 0x00000000#32 : EReal) + ∑ k : Fin 256, (lo x0 b s k * wts x2 2 l k) * (lo x0 b s k * wts x2 2 l k)) := by
  have e : ∀ k : Fin 256, idx_main_call2_v1 (ix3 b l s) k = ix4 b l s k := fun k => funext fun a => Fin.ext (by match a with | ⟨0, _⟩ => rfl | ⟨1, _⟩ => rfl | ⟨2, _⟩ => rfl | ⟨3, _⟩ => rfl)
  rw [val_main_v44_apply, Ideal.hostUnary_sqrt_def, val_main_call2_v1_apply, val_main_call2_cst_apply, Ideal.ofBits_def]
  simp only [val_main_call2_v0_apply, Ideal.mulf_def, e, v38_at]

/-- The weighted norm of a row of the second sentence. -/
theorem v47_at (b : Fin 16) (l : Fin 16) (t : Fin 128) :
    val_main_v47 (F := Ideal) x1 x2 (ix3 b l t)
      = Ideal.sqrt ((Ideal.ofBits .f32 0x00000000#32 : EReal) + ∑ k : Fin 256, (lo x1 b t k * wts x2 2 l k) * (lo x1 b t k * wts x2 2 l k)) := by
  have e : ∀ k : Fin 256, idx_main_call3_v1 (ix3 b l t) k = ix4 b l t k := fun k => funext fun a => Fin.ext (by match a with | ⟨0, _⟩ => rfl | ⟨1, _⟩ => rfl | ⟨2, _⟩ => rfl | ⟨3, _⟩ => rfl)
  rw [val_main_v47_apply, Ideal.hostUnary_sqrt_def, val_main_call3_v1_apply, val_main_call3_cst_apply, Ideal.ofBits_def]
  simp only [val_main_call3_v0_apply, Ideal.mulf_def, e, v43_at]

/-- The clamped weighted cosine of row s of the first sentence and row t of the second. -/
theorem v56_at (b : Fin 16) (l : Fin 16) (s t : Fin 128) :
    val_main_v56 (F := Ideal) x0 x1 x2 (ix4 b l s t) = wcos (wts x2 2 l) (lo x0 b s) (lo x1 b t) := by
  have el : ∀ k : Fin 256, lidx_main_v50 (ix4 b l s t) k = ix4 b l s k := fun k => funext fun a => Fin.ext (by match a with | ⟨0, _⟩ => rfl | ⟨1, _⟩ => rfl | ⟨2, _⟩ => rfl | ⟨3, _⟩ => rfl)
  have er : ∀ k : Fin 256, ridx_main_v50 (ix4 b l s t) k = ix4 b l t k := fun k => funext fun a => Fin.ext (by match a with | ⟨0, _⟩ => rfl | ⟨1, _⟩ => rfl | ⟨2, _⟩ => rfl | ⟨3, _⟩ => rfl)
  have e53 : idx_main_v51 (idx_main_v53 (ix4 b l s t)) = ix3 b l s := funext fun a => Fin.ext (by match a with | ⟨0, _⟩ => rfl | ⟨1, _⟩ => rfl | ⟨2, _⟩ => rfl)
  have e54 : idx_main_v52 (idx_main_v54 (ix4 b l s t)) = ix3 b l t := funext fun a => Fin.ext (by match a with | ⟨0, _⟩ => rfl | ⟨1, _⟩ => rfl | ⟨2, _⟩ => rfl)
  rw [val_main_v56_apply, Ideal.hostDivf_def, val_main_v50_apply, val_main_v55_apply, Ideal.mulf_def, val_main_v53_apply, val_main_v51_apply, e53,
    val_main_v46_apply, Ideal.maximumf_def, v44_at, val_main_v45_apply, val_main_cst_2_apply, val_main_v54_apply, val_main_v52_apply, e54, val_main_v49_apply,
    Ideal.maximumf_def, v47_at, val_main_v48_apply, val_main_cst_3_apply]
  simp only [Ideal.ofBits_def, el, er, v38_at, v43_at]
  exact wcos_ref0 (wts x2 2 l) (lo x0 b s) (lo x1 b t)

/-- Max-pooled matching forward: column group 2. -/
theorem v58_at (b : Fin 16) (s : Fin 128) (l : Fin 16) :
    val_main_v58 (F := Ideal) x0 x1 x2 (ix3 b s l) = result x0 x1 x2 b s 2 l := by
  have e : idx_main_v58 (ix3 b s l) = ix3 b l s := funext fun a => Fin.ext (by match a with | ⟨0, _⟩ => rfl | ⟨1, _⟩ => rfl | ⟨2, _⟩ => rfl)
  rw [val_main_v58_apply, e]
  unfold val_main_v57
  refine (reduce_max_d3 (val_main_v56 (F := Ideal) x0 x1 x2) (val_main_cst_4 (F := Ideal)) rfl b l s).trans ?_
  simp only [v56_at]
  rfl

/-- The first sentence's rows times weight matrix 3, laid out (batch, weight row, row, column). -/
theorem v158_at (b : Fin 16) (l : Fin 16) (s : Fin 128) (h : Fin 256) :
    val_main_v158 (F := Ideal) x0 x2 (ix4 b l s h) = hi x0 b s h * wts x2 3 l h := by
  have e1 : idx_main_v154 (idx_main_v156 (ix4 b l s h)) = ix3 b s h := funext fun a => Fin.ext (by match a with | ⟨0, _⟩ => rfl | ⟨1, _⟩ => rfl | ⟨2, _⟩ => rfl)
  have e2 : idx_main_v155 (idx_main_v157 (ix4 b l s h)) = ix2 l h := funext fun a => Fin.ext (by match a with | ⟨0, _⟩ => rfl | ⟨1, _⟩ => rfl)
  rw [val_main_v158_apply, Ideal.mulf_def, val_main_v156_apply, val_main_v154_apply, e1, v1_at, val_main_v157_apply, val_main_v155_apply, e2, v127_at]

/-- The second sentence's rows times weight matrix 3, in the same layout. -/
theorem v163_at (b : Fin 16) (l : Fin 16) (t : Fin 128) (h : Fin 256) :
    val_main_v163 (F := Ideal) x1 x2 (ix4 b l t h) = hi x1 b t h * wts x2 3 l h := by
  have e1 : idx_main_v159 (idx_main_v161 (ix4 b l t h)) = ix3 b t h := funext fun a => Fin.ext (by match a with | ⟨0, _⟩ => rfl | ⟨1, _⟩ => rfl | ⟨2, _⟩ => rfl)
  have e2 : idx_main_v160 (idx_main_v162 (ix4 b l t h)) = ix2 l h := funext fun a => Fin.ext (by match a with | ⟨0, _⟩ => rfl | ⟨1, _⟩ => rfl)
  rw [val_main_v163_apply, Ideal.mulf_def, val_main_v161_apply, val_main_v159_apply, e1, v3_at, val_main_v162_apply, val_main_v160_apply, e2, v127_at]

/-- The weighted norm of a row of the first sentence. -/
theorem v164_at (b : Fin 16) (l : Fin 16) (s : Fin 128) :
    val_main_v164 (F := Ideal) x0 x2 (ix3 b l s)
      = Ideal.sqrt ((Ideal.ofBits .f32 0x00000000#32 : EReal) + ∑ k : Fin 256, (hi x0 b s k * wts x2 3 l k) * (hi x0 b s k * wts x2 3 l k)) := by
  have e : ∀ k : Fin 256, idx_main_call14_v1 (ix3 b l s) k = ix4 b l s k := fun k => funext fun a => Fin.ext (by match a with | ⟨0, _⟩ => rfl | ⟨1, _⟩ => rfl | ⟨2, _⟩ => rfl | ⟨3, _⟩ => rfl)
  rw [val_main_v164_apply, Ideal.hostUnary_sqrt_def, val_main_call14_v1_apply, val_main_call14_cst_apply, Ideal.ofBits_def]
  simp only [val_main_call14_v0_apply, Ideal.mulf_def, e, v158_at]

/-- The weighted norm of a row of the second sentence. -/
theorem v167_at (b : Fin 16) (l : Fin 16) (t : Fin 128) :
    val_main_v167 (F := Ideal) x1 x2 (ix3 b l t)
      = Ideal.sqrt ((Ideal.ofBits .f32 0x00000000#32 : EReal) + ∑ k : Fin 256, (hi x1 b t k * wts x2 3 l k) * (hi x1 b t k * wts x2 3 l k)) := by
  have e : ∀ k : Fin 256, idx_main_call15_v1 (ix3 b l t) k = ix4 b l t k := fun k => funext fun a => Fin.ext (by match a with | ⟨0, _⟩ => rfl | ⟨1, _⟩ => rfl | ⟨2, _⟩ => rfl | ⟨3, _⟩ => rfl)
  rw [val_main_v167_apply, Ideal.hostUnary_sqrt_def, val_main_call15_v1_apply, val_main_call15_cst_apply, Ideal.ofBits_def]
  simp only [val_main_call15_v0_apply, Ideal.mulf_def, e, v163_at]

/-- The clamped weighted cosine of row s of the first sentence and row t of the second. -/
theorem v176_at (b : Fin 16) (l : Fin 16) (s t : Fin 128) :
    val_main_v176 (F := Ideal) x0 x1 x2 (ix4 b l s t) = wcos (wts x2 3 l) (hi x0 b s) (hi x1 b t) := by
  have el : ∀ k : Fin 256, lidx_main_v170 (ix4 b l s t) k = ix4 b l s k := fun k => funext fun a => Fin.ext (by match a with | ⟨0, _⟩ => rfl | ⟨1, _⟩ => rfl | ⟨2, _⟩ => rfl | ⟨3, _⟩ => rfl)
  have er : ∀ k : Fin 256, ridx_main_v170 (ix4 b l s t) k = ix4 b l t k := fun k => funext fun a => Fin.ext (by match a with | ⟨0, _⟩ => rfl | ⟨1, _⟩ => rfl | ⟨2, _⟩ => rfl | ⟨3, _⟩ => rfl)
  have e53 : idx_main_v171 (idx_main_v173 (ix4 b l s t)) = ix3 b l s := funext fun a => Fin.ext (by match a with | ⟨0, _⟩ => rfl | ⟨1, _⟩ => rfl | ⟨2, _⟩ => rfl)
  have e54 : idx_main_v172 (idx_main_v174 (ix4 b l s t)) = ix3 b l t := funext fun a => Fin.ext (by match a with | ⟨0, _⟩ => rfl | ⟨1, _⟩ => rfl | ⟨2, _⟩ => rfl)
  rw [val_main_v176_apply, Ideal.hostDivf_def, val_main_v170_apply, val_main_v175_apply, Ideal.mulf_def, val_main_v173_apply, val_main_v171_apply, e53,
    val_main_v166_apply, Ideal.maximumf_def, v164_at, val_main_v165_apply, val_main_cst_21_apply, val_main_v174_apply, val_main_v172_apply, e54, val_main_v169_apply,
    Ideal.maximumf_def, v167_at, val_main_v168_apply, val_main_cst_22_apply]
  simp only [Ideal.ofBits_def, el, er, v158_at, v163_at]
  exact wcos_ref0 (wts x2 3 l) (hi x0 b s) (hi x1 b t)

/-- Max-pooled matching backward: column group 3. -/
theorem v178_at (b : Fin 16) (s : Fin 128) (l : Fin 16) :
    val_main_v178 (F := Ideal) x0 x1 x2 (ix3 b s l) = result x0 x1 x2 b s 3 l := by
  have e : idx_main_v178 (ix3 b s l) = ix3 b l s := funext fun a => Fin.ext (by match a with | ⟨0, _⟩ => rfl | ⟨1, _⟩ => rfl | ⟨2, _⟩ => rfl)
  rw [val_main_v178_apply, e]
  unfold val_main_v177
  refine (reduce_max_d3 (val_main_v176 (F := Ideal) x0 x1 x2) (val_main_cst_23 (F := Ideal)) rfl b l s).trans ?_
  simp only [v176_at]
  rfl

end Cert.Bimpm

end
-- ==== Proof.RefValueAtt.lean ====
/-
  The attention stages, forward and backward: the attention matrix, the attention-weighted mean of the other sentence's rows and the elementwise maximum of the attention-weighted rows.
-/
import proofs.«101604_j57621281243632_1_alg».proof.Proof.RefValueIn
import proofs.«101604_j57621281243632_1_alg».proof.Proof.RefValueAlg
import proofs.«101604_j57621281243632_1_alg».proof.Proof.RefValueMax

noncomputable section

namespace Cert.Bimpm

open Idealize.ShloMosaic Idealize.ShloMosaic.ValueIdx Cert.ReferenceIdeal Cert.ReferenceIdeal.Read Cert.ReferenceIdeal.Gen

variable (x0 x1 : (⟨S16x128x512, .f32⟩ : BufTy).Contents (Elt Ideal)) (x2 : (⟨S8x16x256, .f32⟩ : BufTy).Contents (Elt Ideal))

/-- The norm of a row of the first sentence. -/
theorem v59_at (b : Fin 16) (s : Fin 128) :
    val_main_v59 (F := Ideal) x0 (ix3 b s (0 : Fin 1)) = Ideal.sqrt (∑ h : Fin 256, lo x0 b s h * lo x0 b s h) := by
  have e2 : idx_main_call4_v2 (ix3 b s (0 : Fin 1)) = ix2 b s := funext fun a => Fin.ext (by match a with | ⟨0, _⟩ => rfl | ⟨1, _⟩ => rfl)
  have e : ∀ k : Fin 256, idx_main_call4_v1 (ix2 b s) k = ix3 b s k := fun k => funext fun a => Fin.ext (by match a with | ⟨0, _⟩ => rfl | ⟨1, _⟩ => rfl | ⟨2, _⟩ => rfl)
  rw [val_main_v59_apply, Ideal.hostUnary_sqrt_def, val_main_call4_v2_apply, e2, val_main_call4_v1_apply, val_main_call4_cst_apply,
    Ideal.ofBits_def, Ideal.ofBits_zero_f32, zero_add]
  simp only [val_main_call4_v0_apply, Ideal.mulf_def, e, v0_at]

/-- The norm of a row of the second sentence. -/
theorem v60_at (b : Fin 16) (t : Fin 128) :
    val_main_v60 (F := Ideal) x1 (ix3 b t (0 : Fin 1)) = Ideal.sqrt (∑ h : Fin 256, lo x1 b t h * lo x1 b t h) := by
  have e2 : idx_main_call5_v2 (ix3 b t (0 : Fin 1)) = ix2 b t := funext fun a => Fin.ext (by match a with | ⟨0, _⟩ => rfl | ⟨1, _⟩ => rfl)
  have e : ∀ k : Fin 256, idx_main_call5_v1 (ix2 b t) k = ix3 b t k := fun k => funext fun a => Fin.ext (by match a with | ⟨0, _⟩ => rfl | ⟨1, _⟩ => rfl | ⟨2, _⟩ => rfl)
  rw [val_main_v60_apply, Ideal.hostUnary_sqrt_def, val_main_call5_v2_apply, e2, val_main_call5_v1_apply, val_main_call5_cst_apply,
    Ideal.ofBits_def, Ideal.ofBits_zero_f32, zero_add]
  simp only [val_main_call5_v0_apply, Ideal.mulf_def, e, v2_at]

/-- The inner product of row s of the first sentence and row t of the second. -/
theorem v61_at (b : Fin 16) (s t : Fin 128) :
    val_main_v61 (F := Ideal) x0 x1 (ix3 b s t) = ∑ h : Fin 256, lo x0 b s h * lo x1 b t h := by
  have el : ∀ k : Fin 256, lidx_main_v61 (ix3 b s t) k = ix3 b s k := fun k => funext fun a => Fin.ext (by match a with | ⟨0, _⟩ => rfl | ⟨1, _⟩ => rfl | ⟨2, _⟩ => rfl)
  have er : ∀ k : Fin 256, ridx_main_v61 (ix3 b s t) k = ix3 b t k := fun k => funext fun a => Fin.ext (by match a with | ⟨0, _⟩ => rfl | ⟨1, _⟩ => rfl | ⟨2, _⟩ => rfl)
  rw [val_main_v61_apply]
  simp only [el, er, v0_at, v2_at]

/-- The product of the two rows' norms. -/
theorem v65_at (b : Fin 16) (s t : Fin 128) :
    val_main_v65 (F := Ideal) x0 x1 (ix3 b s t)
      = Ideal.sqrt (∑ h : Fin 256, lo x0 b s h * lo x0 b s h) * Ideal.sqrt (∑ h : Fin 256, lo x1 b t h * lo x1 b t h) := by
  have e63 : idx_main_v63 (ix3 b s t) = ix3 b s (0 : Fin 1) := funext fun a => Fin.ext (by match a with | ⟨0, _⟩ => rfl | ⟨1, _⟩ => rfl | ⟨2, _⟩ => rfl)
  have e64 : idx_main_v62 (idx_main_v64 (ix3 b s t)) = ix3 b t (0 : Fin 1) := funext fun a => Fin.ext (by match a with | ⟨0, _⟩ => rfl | ⟨1, _⟩ => rfl | ⟨2, _⟩ => rfl)
  rw [val_main_v65_apply, Ideal.mulf_def, val_main_v63_apply, e63, v59_at, val_main_v64_apply, val_main_v62_apply, e64, v60_at]

/-- The attention weight: the clamped cosine of the two rows. -/
theorem v69_at (b : Fin 16) (s t : Fin 128) :
    val_main_v69 (F := Ideal) x0 x1 (ix3 b s t) = att (lo x0 b) (lo x1 b) s t := by
  rw [val_main_v69_apply, Ideal.hostDivf_def, v61_at, val_main_v68_apply, val_main_v67_apply, Ideal.cmpf_def, v65_at, val_main_v66_apply,
    val_main_cst_5_apply, val_main_call6_v1_apply, val_main_call6_v0_apply, val_main_cst_6_apply, Ideal.ofBits_def, select_gt_eq_max]
  rfl

/-- The attention weight times the second sentence's row. -/
theorem v74_at (b : Fin 16) (s t : Fin 128) (h : Fin 256) :
    val_main_v74 (F := Ideal) x0 x1 (ix4 b s t h) = att (lo x0 b) (lo x1 b) s t * lo x1 b t h := by
  have e72 : idx_main_v70 (idx_main_v72 (ix4 b s t h)) = ix3 b s t := funext fun a => Fin.ext (by match a with | ⟨0, _⟩ => rfl | ⟨1, _⟩ => rfl | ⟨2, _⟩ => rfl)
  have e73 : idx_main_v71 (idx_main_v73 (ix4 b s t h)) = ix3 b t h := funext fun a => Fin.ext (by match a with | ⟨0, _⟩ => rfl | ⟨1, _⟩ => rfl | ⟨2, _⟩ => rfl)
  rw [val_main_v74_apply, Ideal.mulf_def, val_main_v72_apply, val_main_v70_apply, e72, v69_at, val_main_v73_apply, val_main_v71_apply, e73, v2_at]

/-- The attention-weighted sum of the second sentence's rows. -/
theorem v75_at (b : Fin 16) (s : Fin 128) (h : Fin 256) :
    val_main_v75 (F := Ideal) x0 x1 (ix3 b s h) = ∑ t : Fin 128, att (lo x0 b) (lo x1 b) s t * lo x1 b t h := by
  have e : ∀ k : Fin 128, idx_main_v75 (ix3 b s h) k = ix4 b s k h := fun k => funext fun a => Fin.ext (by match a with | ⟨0, _⟩ => rfl | ⟨1, _⟩ => rfl | ⟨2, _⟩ => rfl | ⟨3, _⟩ => rfl)
  rw [val_main_v75_apply, val_main_cst_7_apply, Ideal.ofBits_def, Ideal.ofBits_zero_f32, zero_add]
  simp only [e, v74_at]

/-- The sum of a row's attention weights. -/
theorem v76_at (b : Fin 16) (s : Fin 128) :
    val_main_v76 (F := Ideal) x0 x1 (ix2 b s) = ∑ t : Fin 128, att (lo x0 b) (lo x1 b) s t := by
  have e : ∀ k : Fin 128, idx_main_v76 (ix2 b s) k = ix3 b s k := fun k => funext fun a => Fin.ext (by match a with | ⟨0, _⟩ => rfl | ⟨1, _⟩ => rfl | ⟨2, _⟩ => rfl)
  rw [val_main_v76_apply, val_main_cst_8_apply, Ideal.ofBits_def, Ideal.ofBits_zero_f32, zero_add]
  simp only [e, v69_at]

/-- The attention-weighted mean of the second sentence's rows. -/
theorem v82_at (b : Fin 16) (s : Fin 128) (h : Fin 256) :
    val_main_v82 (F := Ideal) x0 x1 (ix3 b s h) = attMean (lo x0 b) (lo x1 b) s h := by
  have e81 : idx_main_v81 (ix3 b s h) = ix3 b s (0 : Fin 1) := funext fun a => Fin.ext (by match a with | ⟨0, _⟩ => rfl | ⟨1, _⟩ => rfl | ⟨2, _⟩ => rfl)
  have e77 : idx_main_v77 (ix3 b s (0 : Fin 1)) = ix2 b s := funext fun a => Fin.ext (by match a with | ⟨0, _⟩ => rfl | ⟨1, _⟩ => rfl)
  rw [val_main_v82_apply, Ideal.hostDivf_def, v75_at, val_main_v81_apply, e81, val_main_v80_apply, val_main_v79_apply, Ideal.cmpf_def,
    val_main_v77_apply, e77, v76_at, val_main_v78_apply, val_main_cst_9_apply, val_main_call7_v1_apply, val_main_call7_v0_apply,
    val_main_cst_10_apply, Ideal.ofBits_def, select_gt_eq_max]
  rfl

/-- The elementwise maximum over the second sentence's rows of the attention-weighted row. -/
theorem v103_at (b : Fin 16) (s : Fin 128) (h : Fin 256) :
    val_main_v103 (F := Ideal) x0 x1 (ix3 b s h) = attMax (lo x0 b) (lo x1 b) s h := by
  unfold val_main_v103
  refine (reduce_max_d2 (val_main_v74 (F := Ideal) x0 x1) (val_main_cst_14 (F := Ideal)) rfl b s h).trans ?_
  simp only [v74_at]
  rfl

/-- The norm of a row of the first sentence. -/
theorem v179_at (b : Fin 16) (s : Fin 128) :
    val_main_v179 (F := Ideal) x0 (ix3 b s (0 : Fin 1)) = Ideal.sqrt (∑ h : Fin 256, hi x0 b s h * hi x0 b s h) := by
  have e2 : idx_main_call16_v2 (ix3 b s (0 : Fin 1)) = ix2 b s := funext fun a => Fin.ext (by match a with | ⟨0, _⟩ => rfl | ⟨1, _⟩ => rfl)
  have e : ∀ k : Fin 256, idx_main_call16_v1 (ix2 b s) k = ix3 b s k := fun k => funext fun a => Fin.ext (by match a with | ⟨0, _⟩ => rfl | ⟨1, _⟩ => rfl | ⟨2, _⟩ => rfl)
  rw [val_main_v179_apply, Ideal.hostUnary_sqrt_def, val_main_call16_v2_apply, e2, val_main_call16_v1_apply, val_main_call16_cst_apply,
    Ideal.ofBits_def, Ideal.ofBits_zero_f32, zero_add]
  simp only [val_main_call16_v0_apply, Ideal.mulf_def, e, v1_at]

/-- The norm of a row of the second sentence. -/
theorem v180_at (b : Fin 16) (t : Fin 128) :
    val_main_v180 (F := Ideal) x1 (ix3 b t (0 : Fin 1)) = Ideal.sqrt (∑ h : Fin 256, hi x1 b t h * hi x1 b t h) := by
  have e2 : idx_main_call17_v2 (ix3 b t (0 : Fin 1)) = ix2 b t := funext fun a => Fin.ext (by match a with | ⟨0, _⟩ => rfl | ⟨1, _⟩ => rfl)
  have e : ∀ k : Fin 256, idx_main_call17_v1 (ix2 b t) k = ix3 b t k := fun k => funext fun a => Fin.ext (by match a with | ⟨0, _⟩ => rfl | ⟨1, _⟩ => rfl | ⟨2, _⟩ => rfl)
  rw [val_main_v180_apply, Ideal.hostUnary_sqrt_def, val_main_call17_v2_apply, e2, val_main_call17_v1_apply, val_main_call17_cst_apply,
    Ideal.ofBits_def, Ideal.ofBits_zero_f32, zero_add]
  simp only [val_main_call17_v0_apply, Ideal.mulf_def, e, v3_at]

/-- The inner product of row s of the first sentence and row t of the second. -/
theorem v181_at (b : Fin 16) (s t : Fin 128) :
    val_main_v181 (F := Ideal) x0 x1 (ix3 b s t) = ∑ h : Fin 256, hi x0 b s h * hi x1 b t h := by
  have el : ∀ k : Fin 256, lidx_main_v181 (ix3 b s t) k = ix3 b s k := fun k => funext fun a => Fin.ext (by match a with | ⟨0, _⟩ => rfl | ⟨1, _⟩ => rfl | ⟨2, _⟩ => rfl)
  have er : ∀ k : Fin 256, ridx_main_v181 (ix3 b s t) k = ix3 b t k := fun k => funext fun a => Fin.ext (by match a with | ⟨0, _⟩ => rfl | ⟨1, _⟩ => rfl | ⟨2, _⟩ => rfl)
  rw [val_main_v181_apply]
  simp only [el, er, v1_at, v3_at]

/-- The product of the two rows' norms. -/
theorem v185_at (b : Fin 16) (s t : Fin 128) :
    val_main_v185 (F := Ideal) x0 x1 (ix3 b s t)
      = Ideal.sqrt (∑ h : Fin 256, hi x0 b s h * hi x0 b s h) * Ideal.sqrt (∑ h : Fin 256, hi x1 b t h * hi x1 b t h) := by
  have e63 : idx_main_v183 (ix3 b s t) = ix3 b s (0 : Fin 1) := funext fun a => Fin.ext (by match a with | ⟨0, _⟩ => rfl | ⟨1, _⟩ => rfl | ⟨2, _⟩ => rfl)
  have e64 : idx_main_v182 (idx_main_v184 (ix3 b s t)) = ix3 b t (0 : Fin 1) := funext fun a => Fin.ext (by match a with | ⟨0, _⟩ => rfl | ⟨1, _⟩ => rfl | ⟨2, _⟩ => rfl)
  rw [val_main_v185_apply, Ideal.mulf_def, val_main_v183_apply, e63, v179_at, val_main_v184_apply, val_main_v182_apply, e64, v180_at]

/-- The attention weight: the clamped cosine of the two rows. -/
theorem v189_at (b : Fin 16) (s t : Fin 128) :
    val_main_v189 (F := Ideal) x0 x1 (ix3 b s t) = att (hi x0 b) (hi x1 b) s t := by
  rw [val_main_v189_apply, Ideal.hostDivf_def, v181_at, val_main_v188_apply, val_main_v187_apply, Ideal.cmpf_def, v185_at, val_main_v186_apply,
    val_main_cst_24_apply, val_main_call18_v1_apply, val_main_call18_v0_apply, val_main_cst_25_apply, Ideal.ofBits_def, select_gt_eq_max]
  rfl

/-- The attention weight times the second sentence's row. -/
theorem v194_at (b : Fin 16) (s t : Fin 128) (h : Fin 256) :
    val_main_v194 (F := Ideal) x0 x1 (ix4 b s t h) = att (hi x0 b) (hi x1 b) s t * hi x1 b t h := by
  have e72 : idx_main_v190 (idx_main_v192 (ix4 b s t h)) = ix3 b s t := funext fun a => Fin.ext (by match a with | ⟨0, _⟩ => rfl | ⟨1, _⟩ => rfl | ⟨2, _⟩ => rfl)
  have e73 : idx_main_v191 (idx_main_v193 (ix4 b s t h)) = ix3 b t h := funext fun a => Fin.ext (by match a with | ⟨0, _⟩ => rfl | ⟨1, _⟩ => rfl | ⟨2, _⟩ => rfl)
  rw [val_main_v194_apply, Ideal.mulf_def, val_main_v192_apply, val_main_v190_apply, e72, v189_at, val_main_v193_apply, val_main_v191_apply, e73, v3_at]

/-- The attention-weighted sum of the second sentence's rows. -/
theorem v195_at (b : Fin 16) (s : Fin 128) (h : Fin 256) :
    val_main_v195 (F := Ideal) x0 x1 (ix3 b s h) = ∑ t : Fin 128, att (hi x0 b) (hi x1 b) s t * hi x1 b t h := by
  have e : ∀ k : Fin 128, idx_main_v195 (ix3 b s h) k = ix4 b s k h := fun k => funext fun a => Fin.ext (by match a with | ⟨0, _⟩ => rfl | ⟨1, _⟩ => rfl | ⟨2, _⟩ => rfl | ⟨3, _⟩ => rfl)
  rw [val_main_v195_apply, val_main_cst_26_apply, Ideal.ofBits_def, Ideal.ofBits_zero_f32, zero_add]
  simp only [e, v194_at]

/-- The sum of a row's attention weights. -/
theorem v196_at (b : Fin 16) (s : Fin 128) :
    val_main_v196 (F := Ideal) x0 x1 (ix2 b s) = ∑ t : Fin 128, att (hi x0 b) (hi x1 b) s t := by
  have e : ∀ k : Fin 128, idx_main_v196 (ix2 b s) k = ix3 b s k := fun k => funext fun a => Fin.ext (by match a with | ⟨0, _⟩ => rfl | ⟨1, _⟩ => rfl | ⟨2, _⟩ => rfl)
  rw [val_main_v196_apply, val_main_cst_27_apply, Ideal.ofBits_def, Ideal.ofBits_zero_f32, zero_add]
  simp only [e, v189_at]

/-- The attention-weighted mean of the second sentence's rows. -/
theorem v202_at (b : Fin 16) (s : Fin 128) (h : Fin 256) :
    val_main_v202 (F := Ideal) x0 x1 (ix3 b s h) = attMean (hi x0 b) (hi x1 b) s h := by
  have e81 : idx_main_v201 (ix3 b s h) = ix3 b s (0 : Fin 1) := funext fun a => Fin.ext (by match a with | ⟨0, _⟩ => rfl | ⟨1, _⟩ => rfl | ⟨2, _⟩ => rfl)
  have e77 : idx_main_v197 (ix3 b s (0 : Fin 1)) = ix2 b s := funext fun a => Fin.ext (by match a with | ⟨0, _⟩ => rfl | ⟨1, _⟩ => rfl)
  rw [val_main_v202_apply, Ideal.hostDivf_def, v195_at, val_main_v201_apply, e81, val_main_v200_apply, val_main_v199_apply, Ideal.cmpf_def,
    val_main_v197_apply, e77, v196_at, val_main_v198_apply, val_main_cst_28_apply, val_main_call19_v1_apply, val_main_call19_v0_apply,
    val_main_cst_29_apply, Ideal.ofBits_def, select_gt_eq_max]
  rfl

/-- The elementwise maximum over the second sentence's rows of the attention-weighted row. -/
theorem v223_at (b : Fin 16) (s : Fin 128) (h : Fin 256) :
    val_main_v223 (F := Ideal) x0 x1 (ix3 b s h) = attMax (hi x0 b) (hi x1 b) s h := by
  unfold val_main_v223
  refine (reduce_max_d2 (val_main_v194 (F := Ideal) x0 x1) (val_main_cst_33 (F := Ideal)) rfl b s h).trans ?_
  simp only [v194_at]
  rfl

end Cert.Bimpm

end
-- ==== Proof.RefValueAttMean.lean ====
/-
  Attentive matching, forward and backward: the reference's score of each row against the attention-weighted mean of the other sentence's rows is the clamped weighted cosine.
-/
import proofs.«101604_j57621281243632_1_alg».proof.Proof.RefValueAtt

noncomputable section

namespace Cert.Bimpm

open Idealize.ShloMosaic Idealize.ShloMosaic.ValueIdx Cert.ReferenceIdeal Cert.ReferenceIdeal.Read

variable (x0 x1 : (⟨S16x128x512, .f32⟩ : BufTy).Contents (Elt Ideal)) (x2 : (⟨S8x16x256, .f32⟩ : BufTy).Contents (Elt Ideal))

/-- The first sentence's rows times weight matrix 4, at an index. -/
theorem v87_at (b : Fin 16) (s : Fin 128) (l : Fin 16) (h : Fin 256) :
    val_main_v87 (F := Ideal) x0 x2 (ix4 b s l h) = lo x0 b s h * wts x2 4 l h := by
  have e1 : idx_main_v83 (idx_main_v85 (ix4 b s l h)) = ix3 b s h := funext fun a => Fin.ext (by match a with | ⟨0, _⟩ => rfl | ⟨1, _⟩ => rfl | ⟨2, _⟩ => rfl)
  have e2 : idx_main_v84 (idx_main_v86 (ix4 b s l h)) = ix2 l h := funext fun a => Fin.ext (by match a with | ⟨0, _⟩ => rfl | ⟨1, _⟩ => rfl)
  rw [val_main_v87_apply, Ideal.mulf_def, val_main_v85_apply, val_main_v83_apply, e1, v0_at, val_main_v86_apply,
    val_main_v84_apply, e2, v9_at]

/-- The attention-weighted mean (forward) times weight matrix 4, at an index. -/
theorem v92_at (b : Fin 16) (s : Fin 128) (l : Fin 16) (h : Fin 256) :
    val_main_v92 (F := Ideal) x0 x1 x2 (ix4 b s l h) = attMean (lo x0 b) (lo x1 b) s h * wts x2 4 l h := by
  have e1 : idx_main_v88 (idx_main_v90 (ix4 b s l h)) = ix3 b s h := funext fun a => Fin.ext (by match a with | ⟨0, _⟩ => rfl | ⟨1, _⟩ => rfl | ⟨2, _⟩ => rfl)
  have e2 : idx_main_v89 (idx_main_v91 (ix4 b s l h)) = ix2 l h := funext fun a => Fin.ext (by match a with | ⟨0, _⟩ => rfl | ⟨1, _⟩ => rfl)
  rw [val_main_v92_apply, Ideal.mulf_def, val_main_v90_apply, val_main_v88_apply, e1, v82_at, val_main_v91_apply,
    val_main_v89_apply, e2, v9_at]

/-- The weighted norm of the first sentence's row. -/
theorem v93_at (b : Fin 16) (s : Fin 128) (l : Fin 16) :
    val_main_v93 (F := Ideal) x0 x2 (ix3 b s l)
      = Ideal.sqrt ((Ideal.ofBits .f32 0x00000000#32 : EReal) + ∑ k : Fin 256, (lo x0 b s k * wts x2 4 l k) * (lo x0 b s k * wts x2 4 l k)) := by
  have e : ∀ k : Fin 256, idx_main_call8_v1 (ix3 b s l) k = ix4 b s l k := fun k => funext fun a => Fin.ext (by match a with | ⟨0, _⟩ => rfl | ⟨1, _⟩ => rfl | ⟨2, _⟩ => rfl | ⟨3, _⟩ => rfl)
  rw [val_main_v93_apply, Ideal.hostUnary_sqrt_def, val_main_call8_v1_apply, val_main_call8_cst_apply, Ideal.ofBits_def]
  simp only [val_main_call8_v0_apply, Ideal.mulf_def, e, v87_at]

/-- The weighted norm of the other row. -/
theorem v96_at (b : Fin 16) (s : Fin 128) (l : Fin 16) :
    val_main_v96 (F := Ideal) x0 x1 x2 (ix3 b s l)
      = Ideal.sqrt ((Ideal.ofBits .f32 0x00000000#32 : EReal) + ∑ k : Fin 256, (attMean (lo x0 b) (lo x1 b) s k * wts x2 4 l k) * (attMean (lo x0 b) (lo x1 b) s k * wts x2 4 l k)) := by
  have e : ∀ k : Fin 256, idx_main_call9_v1 (ix3 b s l) k = ix4 b s l k := fun k => funext fun a => Fin.ext (by match a with | ⟨0, _⟩ => rfl | ⟨1, _⟩ => rfl | ⟨2, _⟩ => rfl | ⟨3, _⟩ => rfl)
  rw [val_main_v96_apply, Ideal.hostUnary_sqrt_def, val_main_call9_v1_apply, val_main_call9_cst_apply, Ideal.ofBits_def]
  simp only [val_main_call9_v0_apply, Ideal.mulf_def, e, v92_at]

/-- Attentive matching forward: column group 4. -/
theorem v102_at (b : Fin 16) (s : Fin 128) (l : Fin 16) :
    val_main_v102 (F := Ideal) x0 x1 x2 (ix3 b s l) = result x0 x1 x2 b s 4 l := by
  have e : ∀ k : Fin 256, idx_main_v100 (ix3 b s l) k = ix4 b s l k := fun k => funext fun a => Fin.ext (by match a with | ⟨0, _⟩ => rfl | ⟨1, _⟩ => rfl | ⟨2, _⟩ => rfl | ⟨3, _⟩ => rfl)
  rw [val_main_v102_apply, Ideal.hostDivf_def, val_main_v100_apply, val_main_cst_13_apply, val_main_v101_apply, Ideal.mulf_def,
    val_main_v95_apply, Ideal.maximumf_def, v93_at, val_main_v94_apply, val_main_cst_11_apply, val_main_v98_apply,
    Ideal.maximumf_def, v96_at, val_main_v97_apply, val_main_cst_12_apply]
  simp only [Ideal.ofBits_def, val_main_v99_apply, Ideal.mulf_def, e, v87_at, v92_at]
  exact wcos_ref (wts x2 4 l) (lo x0 b s) (attMean (lo x0 b) (lo x1 b) s)

/-- The first sentence's rows times weight matrix 5, at an index. -/
theorem v207_at (b : Fin 16) (s : Fin 128) (l : Fin 16) (h : Fin 256) :
    val_main_v207 (F := Ideal) x0 x2 (ix4 b s l h) = hi x0 b s h * wts x2 5 l h := by
  have e1 : idx_main_v203 (idx_main_v205 (ix4 b s l h)) = ix3 b s h := funext fun a => Fin.ext (by match a with | ⟨0, _⟩ => rfl | ⟨1, _⟩ => rfl | ⟨2, _⟩ => rfl)
  have e2 : idx_main_v204 (idx_main_v206 (ix4 b s l h)) = ix2 l h := funext fun a => Fin.ext (by match a with | ⟨0, _⟩ => rfl | ⟨1, _⟩ => rfl)
  rw [val_main_v207_apply, Ideal.mulf_def, val_main_v205_apply, val_main_v203_apply, e1, v1_at, val_main_v206_apply,
    val_main_v204_apply, e2, v129_at]

/-- The attention-weighted mean (backward) times weight matrix 5, at an index. -/
theorem v212_at (b : Fin 16) (s : Fin 128) (l : Fin 16) (h : Fin 256) :
    val_main_v212 (F := Ideal) x0 x1 x2 (ix4 b s l h) = attMean (hi x0 b) (hi x1 b) s h * wts x2 5 l h := by
  have e1 : idx_main_v208 (idx_main_v210 (ix4 b s l h)) = ix3 b s h := funext fun a => Fin.ext (by match a with | ⟨0, _⟩ => rfl | ⟨1, _⟩ => rfl | ⟨2, _⟩ => rfl)
  have e2 : idx_main_v209 (idx_main_v211 (ix4 b s l h)) = ix2 l h := funext fun a => Fin.ext (by match a with | ⟨0, _⟩ => rfl | ⟨1, _⟩ => rfl)
  rw [val_main_v212_apply, Ideal.mulf_def, val_main_v210_apply, val_main_v208_apply, e1, v202_at, val_main_v211_apply,
    val_main_v209_apply, e2, v129_at]

/-- The weighted norm of the first sentence's row. -/
theorem v213_at (b : Fin 16) (s : Fin 128) (l : Fin 16) :
    val_main_v213 (F := Ideal) x0 x2 (ix3 b s l)
      = Ideal.sqrt ((Ideal.ofBits .f32 0x00000000#32 : EReal) + ∑ k : Fin 256, (hi x0 b s k * wts x2 5 l k) * (hi x0 b s k * wts x2 5 l k)) := by
  have e : ∀ k : Fin 256, idx_main_call20_v1 (ix3 b s l) k = ix4 b s l k := fun k => funext fun a => Fin.ext (by match a with | ⟨0, _⟩ => rfl | ⟨1, _⟩ => rfl | ⟨2, _⟩ => rfl | ⟨3, _⟩ => rfl)
  rw [val_main_v213_apply, Ideal.hostUnary_sqrt_def, val_main_call20_v1_apply, val_main_call20_cst_apply, Ideal.ofBits_def]
  simp only [val_main_call20_v0_apply, Ideal.mulf_def, e, v207_at]

/-- The weighted norm of the other row. -/
theorem v216_at (b : Fin 16) (s : Fin 128) (l : Fin 16) :
    val_main_v216 (F := Ideal) x0 x1 x2 (ix3 b s l)
      = Ideal.sqrt ((Ideal.ofBits .f32 0x00000000#32 : EReal) + ∑ k : Fin 256, (attMean (hi x0 b) (hi x1 b) s k * wts x2 5 l k) * (attMean (hi x0 b) (hi x1 b) s k * wts x2 5 l k)) := by
  have e : ∀ k : Fin 256, idx_main_call21_v1 (ix3 b s l) k = ix4 b s l k := fun k => funext fun a => Fin.ext (by match a with | ⟨0, _⟩ => rfl | ⟨1, _⟩ => rfl | ⟨2, _⟩ => rfl | ⟨3, _⟩ => rfl)
  rw [val_main_v216_apply, Ideal.hostUnary_sqrt_def, val_main_call21_v1_apply, val_main_call21_cst_apply, Ideal.ofBits_def]
  simp only [val_main_call21_v0_apply, Ideal.mulf_def, e, v212_at]

/-- Attentive matching backward: column group 5. -/
theorem v222_at (b : Fin 16) (s : Fin 128) (l : Fin 16) :
    val_main_v222 (F := Ideal) x0 x1 x2 (ix3 b s l) = result x0 x1 x2 b s 5 l := by
  have e : ∀ k : Fin 256, idx_main_v220 (ix3 b s l) k = ix4 b s l k := fun k => funext fun a => Fin.ext (by match a with | ⟨0, _⟩ => rfl | ⟨1, _⟩ => rfl | ⟨2, _⟩ => rfl | ⟨3, _⟩ => rfl)
  rw [val_main_v222_apply, Ideal.hostDivf_def, val_main_v220_apply, val_main_cst_32_apply, val_main_v221_apply, Ideal.mulf_def,
    val_main_v215_apply, Ideal.maximumf_def, v213_at, val_main_v214_apply, val_main_cst_30_apply, val_main_v218_apply,
    Ideal.maximumf_def, v216_at, val_main_v217_apply, val_main_cst_31_apply]
  simp only [Ideal.ofBits_def, val_main_v219_apply, Ideal.mulf_def, e, v207_at, v212_at]
  exact wcos_ref (wts x2 5 l) (hi x0 b s) (attMean (hi x0 b) (hi x1 b) s)

end Cert.Bimpm

end
-- ==== Proof.RefValueAttMax.lean ====
/-
  Max-attentive matching, forward and backward: the reference's score of each row against the elementwise maximum of the attention-weighted rows of the other sentence is the clamped weighted cosine.
-/
import proofs.«101604_j57621281243632_1_alg».proof.Proof.RefValueAtt

noncomputable section

namespace Cert.Bimpm

open Idealize.ShloMosaic Idealize.ShloMosaic.ValueIdx Cert.ReferenceIdeal Cert.ReferenceIdeal.Read

variable (x0 x1 : (⟨S16x128x512, .f32⟩ : BufTy).Contents (Elt Ideal)) (x2 : (⟨S8x16x256, .f32⟩ : BufTy).Contents (Elt Ideal))

/-- The first sentence's rows times weight matrix 6, at an index. -/
theorem v108_at (b : Fin 16) (s : Fin 128) (l : Fin 16) (h : Fin 256) :
    val_main_v108 (F := Ideal) x0 x2 (ix4 b s l h) = lo x0 b s h * wts x2 6 l h := by
  have e1 : idx_main_v104 (idx_main_v106 (ix4 b s l h)) = ix3 b s h := funext fun a => Fin.ext (by match a with | ⟨0, _⟩ => rfl | ⟨1, _⟩ => rfl | ⟨2, _⟩ => rfl)
  have e2 : idx_main_v105 (idx_main_v107 (ix4 b s l h)) = ix2 l h := funext fun a => Fin.ext (by match a with | ⟨0, _⟩ => rfl | ⟨1, _⟩ => rfl)
  rw [val_main_v108_apply, Ideal.mulf_def, val_main_v106_apply, val_main_v104_apply, e1, v0_at, val_main_v107_apply,
    val_main_v105_apply, e2, v11_at]

/-- The maximum of the attention-weighted rows (forward) times weight matrix 6, at an index. -/
theorem v113_at (b : Fin 16) (s : Fin 128) (l : Fin 16) (h : Fin 256) :
    val_main_v113 (F := Ideal) x0 x1 x2 (ix4 b s l h) = attMax (lo x0 b) (lo x1 b) s h * wts x2 6 l h := by
  have e1 : idx_main_v109 (idx_main_v111 (ix4 b s l h)) = ix3 b s h := funext fun a => Fin.ext (by match a with | ⟨0, _⟩ => rfl | ⟨1, _⟩ => rfl | ⟨2, _⟩ => rfl)
  have e2 : idx_main_v110 (idx_main_v112 (ix4 b s l h)) = ix2 l h := funext fun a => Fin.ext (by match a with | ⟨0, _⟩ => rfl | ⟨1, _⟩ => rfl)
  rw [val_main_v113_apply, Ideal.mulf_def, val_main_v111_apply, val_main_v109_apply, e1, v103_at, val_main_v112_apply,
    val_main_v110_apply, e2, v11_at]

/-- The weighted norm of the first sentence's row. -/
theorem v114_at (b : Fin 16) (s : Fin 128) (l : Fin 16) :
    val_main_v114 (F := Ideal) x0 x2 (ix3 b s l)
      = Ideal.sqrt ((Ideal.ofBits .f32 0x00000000#32 : EReal) + ∑ k : Fin 256, (lo x0 b s k * wts x2 6 l k) * (lo x0 b s k * wts x2 6 l k)) := by
  have e : ∀ k : Fin 256, idx_main_call10_v1 (ix3 b s l) k = ix4 b s l k := fun k => funext fun a => Fin.ext (by match a with | ⟨0, _⟩ => rfl | ⟨1, _⟩ => rfl | ⟨2, _⟩ => rfl | ⟨3, _⟩ => rfl)
  rw [val_main_v114_apply, Ideal.hostUnary_sqrt_def, val_main_call10_v1_apply, val_main_call10_cst_apply, Ideal.ofBits_def]
  simp only [val_main_call10_v0_apply, Ideal.mulf_def, e, v108_at]

/-- The weighted norm of the other row. -/
theorem v117_at (b : Fin 16) (s : Fin 128) (l : Fin 16) :
    val_main_v117 (F := Ideal) x0 x1 x2 (ix3 b s l)
      = Ideal.sqrt ((Ideal.ofBits .f32 0x00000000#32 : EReal) + ∑ k : Fin 256, (attMax (lo x0 b) (lo x1 b) s k * wts x2 6 l k) * (attMax (lo x0 b) (lo x1 b) s k * wts x2 6 l k)) := by
  have e : ∀ k : Fin 256, idx_main_call11_v1 (ix3 b s l) k = ix4 b s l k := fun k => funext fun a => Fin.ext (by match a with | ⟨0, _⟩ => rfl | ⟨1, _⟩ => rfl | ⟨2, _⟩ => rfl | ⟨3, _⟩ => rfl)
  rw [val_main_v117_apply, Ideal.hostUnary_sqrt_def, val_main_call11_v1_apply, val_main_call11_cst_apply, Ideal.ofBits_def]
  refine congrArg (fun x => Ideal.sqrt (_ + x)) (Finset.sum_congr rfl fun k _ => ?_)
  rw [val_main_call11_v0_apply, Ideal.mulf_def, e, v113_at]

/-- Max-attentive matching forward: column group 6. -/
theorem v123_at (b : Fin 16) (s : Fin 128) (l : Fin 16) :
    val_main_v123 (F := Ideal) x0 x1 x2 (ix3 b s l) = result x0 x1 x2 b s 6 l := by
  have e : ∀ k : Fin 256, idx_main_v121 (ix3 b s l) k = ix4 b s l k := fun k => funext fun a => Fin.ext (by match a with | ⟨0, _⟩ => rfl | ⟨1, _⟩ => rfl | ⟨2, _⟩ => rfl | ⟨3, _⟩ => rfl)
  rw [val_main_v123_apply, Ideal.hostDivf_def, val_main_v121_apply, val_main_cst_17_apply, val_main_v122_apply, Ideal.mulf_def,
    val_main_v116_apply, Ideal.maximumf_def, v114_at, val_main_v115_apply, val_main_cst_15_apply, val_main_v119_apply,
    Ideal.maximumf_def, v117_at, val_main_v118_apply, val_main_cst_16_apply]
  simp only [Ideal.ofBits_def, val_main_v120_apply, Ideal.mulf_def, e, v108_at, v113_at]
  exact wcos_ref (wts x2 6 l) (lo x0 b s) (attMax (lo x0 b) (lo x1 b) s)

/-- The first sentence's rows times weight matrix 7, at an index. -/
theorem v228_at (b : Fin 16) (s : Fin 128) (l : Fin 16) (h : Fin 256) :
    val_main_v228 (F := Ideal) x0 x2 (ix4 b s l h) = hi x0 b s h * wts x2 7 l h := by
  have e1 : idx_main_v224 (idx_main_v226 (ix4 b s l h)) = ix3 b s h := funext fun a => Fin.ext (by match a with | ⟨0, _⟩ => rfl | ⟨1, _⟩ => rfl | ⟨2, _⟩ => rfl)
  have e2 : idx_main_v225 (idx_main_v227 (ix4 b s l h)) = ix2 l h := funext fun a => Fin.ext (by match a with | ⟨0, _⟩ => rfl | ⟨1, _⟩ => rfl)
  rw [val_main_v228_apply, Ideal.mulf_def, val_main_v226_apply, val_main_v224_apply, e1, v1_at, val_main_v227_apply,
    val_main_v225_apply, e2, v131_at]

/-- The maximum of the attention-weighted rows (backward) times weight matrix 7, at an index. -/
theorem v233_at (b : Fin 16) (s : Fin 128) (l : Fin 16) (h : Fin 256) :
    val_main_v233 (F := Ideal) x0 x1 x2 (ix4 b s l h) = attMax (hi x0 b) (hi x1 b) s h * wts x2 7 l h := by
  have e1 : idx_main_v229 (idx_main_v231 (ix4 b s l h)) = ix3 b s h := funext fun a => Fin.ext (by match a with | ⟨0, _⟩ => rfl | ⟨1, _⟩ => rfl | ⟨2, _⟩ => rfl)
  have e2 : idx_main_v230 (idx_main_v232 (ix4 b s l h)) = ix2 l h := funext fun a => Fin.ext (by match a with | ⟨0, _⟩ => rfl | ⟨1, _⟩ => rfl)
  rw [val_main_v233_apply, Ideal.mulf_def, val_main_v231_apply, val_main_v229_apply, e1, v223_at, val_main_v232_apply,
    val_main_v230_apply, e2, v131_at]

/-- The weighted norm of the first sentence's row. -/
theorem v234_at (b : Fin 16) (s : Fin 128) (l : Fin 16) :
    val_main_v234 (F := Ideal) x0 x2 (ix3 b s l)
      = Ideal.sqrt ((Ideal.ofBits .f32 0x00000000#32 : EReal) + ∑ k : Fin 256, (hi x0 b s k * wts x2 7 l k) * (hi x0 b s k * wts x2 7 l k)) := by
  have e : ∀ k : Fin 256, idx_main_call22_v1 (ix3 b s l) k = ix4 b s l k := fun k => funext fun a => Fin.ext (by match a with | ⟨0, _⟩ => rfl | ⟨1, _⟩ => rfl | ⟨2, _⟩ => rfl | ⟨3, _⟩ => rfl)
  rw [val_main_v234_apply, Ideal.hostUnary_sqrt_def, val_main_call22_v1_apply, val_main_call22_cst_apply, Ideal.ofBits_def]
  simp only [val_main_call22_v0_apply, Ideal.mulf_def, e, v228_at]

/-- The weighted norm of the other row. -/
theorem v237_at (b : Fin 16) (s : Fin 128) (l : Fin 16) :
    val_main_v237 (F := Ideal) x0 x1 x2 (ix3 b s l)
      = Ideal.sqrt ((Ideal.ofBits .f32 0x00000000#32 : EReal) + ∑ k : Fin 256, (attMax (hi x0 b) (hi x1 b) s k * wts x2 7 l k) * (attMax (hi x0 b) (hi x1 b) s k * wts x2 7 l k)) := by
  have e : ∀ k : Fin 256, idx_main_call23_v1 (ix3 b s l) k = ix4 b s l k := fun k => funext fun a => Fin.ext (by match a with | ⟨0, _⟩ => rfl | ⟨1, _⟩ => rfl | ⟨2, _⟩ => rfl | ⟨3, _⟩ => rfl)
  rw [val_main_v237_apply, Ideal.hostUnary_sqrt_def, val_main_call23_v1_apply, val_main_call23_cst_apply, Ideal.ofBits_def]
  refine congrArg (fun x => Ideal.sqrt (_ + x)) (Finset.sum_congr rfl fun k _ => ?_)
  rw [val_main_call23_v0_apply, Ideal.mulf_def, e, v233_at]

/-- Max-attentive matching backward: column group 7. -/
theorem v243_at (b : Fin 16) (s : Fin 128) (l : Fin 16) :
    val_main_v243 (F := Ideal) x0 x1 x2 (ix3 b s l) = result x0 x1 x2 b s 7 l := by
  have e : ∀ k : Fin 256, idx_main_v241 (ix3 b s l) k = ix4 b s l k := fun k => funext fun a => Fin.ext (by match a with | ⟨0, _⟩ => rfl | ⟨1, _⟩ => rfl | ⟨2, _⟩ => rfl | ⟨3, _⟩ => rfl)
  rw [val_main_v243_apply, Ideal.hostDivf_def, val_main_v241_apply, val_main_cst_36_apply, val_main_v242_apply, Ideal.mulf_def,
    val_main_v236_apply, Ideal.maximumf_def, v234_at, val_main_v235_apply, val_main_cst_34_apply, val_main_v239_apply,
    Ideal.maximumf_def, v237_at, val_main_v238_apply, val_main_cst_35_apply]
  simp only [Ideal.ofBits_def, val_main_v240_apply, Ideal.mulf_def, e, v228_at, v233_at]
  exact wcos_ref (wts x2 7 l) (hi x0 b s) (attMax (hi x0 b) (hi x1 b) s)

end Cert.Bimpm

end
-- ==== Proof.RefValue.lean ====
/-
  The reference's result, stage by stage, is the specification's function of the three argument arrays: its last
  stage joins the eight column groups along the last axis, and column c of the joined row is column c % 16 of
  group c / 16.
-/
import proofs.«101604_j57621281243632_1_alg».proof.Proof.RefValueFull
import proofs.«101604_j57621281243632_1_alg».proof.Proof.RefValuePool
import proofs.«101604_j57621281243632_1_alg».proof.Proof.RefValueAttMean
import proofs.«101604_j57621281243632_1_alg».proof.Proof.RefValueAttMax

noncomputable section

namespace Cert.Bimpm

open Idealize.ShloMosaic Idealize.ShloMosaic.ValueIdx Cert.ReferenceIdeal Cert.ReferenceIdeal.Gen

/-- A join of [16,128,16] pieces along the last axis, read at column 16 k + l: piece k at column l. -/
private theorem cat_piece (xs : List ((s : Shape) × (s.Idx → EReal))) (h : Shape.Concatenates (xs.map (·.1)) S16x128x128 2)
    (k : Nat) (hk : k < xs.length) (P : S16x128x16.Idx → EReal) (hxk : xs[k] = ⟨S16x128x16, P⟩)
    (hpre : (((xs.take k).map (·.1)).map fun s => if h : s.rank = S16x128x128.rank then s.size ((2 : Fin S16x128x128.rank).cast h.symm) else 0).sum = 16 * k)
    (b : Fin 16) (s : Fin 128) (l : Fin 16) (c : Fin 128) (hc : c.val = 16 * k + l.val) :
    concatenate S16x128x128 2 xs h (ix3 b s c) = P (ix3 b s l) :=
  concatenate_apply_piece (2 : Fin S16x128x128.rank) xs h (ix3 b s c) k hk S16x128x16 P hxk rfl (16 * k) hpre (ix3 b s l)
    (fun b' hb' => by match b', hb' with | ⟨0, _⟩, _ => rfl | ⟨1, _⟩, _ => rfl | ⟨2, _⟩, h' => exact absurd rfl h')
    (by show 16 * k + l.val = c.val; omega)

/-- The reference's last stage (the concatenation of its eight column groups) is G. -/
theorem ref_eq (x0 x1 : (⟨S16x128x512, .f32⟩ : BufTy).Contents (Elt Ideal)) (x2 : (⟨S8x16x256, .f32⟩ : BufTy).Contents (Elt Ideal)) :
    Cert.ReferenceIdeal.Read.val_main_v244 (F := Ideal) x0 x1 x2 = G x0 x1 x2 := by
  funext i
  obtain ⟨b, s, c, rfl⟩ : ∃ (b : Fin 16) (s : Fin 128) (c : Fin 128), i = ix3 b s c := ⟨i 0, i 1, i 2, eq_ix3 i⟩
  show Read.val_main_v244 (F := Ideal) x0 x1 x2 (ix3 b s c) = result x0 x1 x2 b s (grp c) (wrow c)
  unfold Read.val_main_v244
  have hc : c.val = 16 * (grp c).val + (wrow c).val := by
    show c.val = 16 * (c.val / 16) + c.val % 16
    omega
  generalize grp c = p at hc ⊢
  generalize wrow c = l at hc ⊢
  match p, hc with
  | ⟨0, _⟩, hc =>
    exact (cat_piece _ _ 0 (by show 0 < 8; omega) (Read.val_main_v33 (F := Ideal) x0 x1 x2) rfl rfl b s l c hc).trans (v33_at x0 x1 x2 b s l)
  | ⟨1, _⟩, hc =>
    exact (cat_piece _ _ 1 (by show 1 < 8; omega) (Read.val_main_v153 (F := Ideal) x0 x1 x2) rfl rfl b s l c hc).trans (v153_at x0 x1 x2 b s l)
  | ⟨2, _⟩, hc =>
    exact (cat_piece _ _ 2 (by show 2 < 8; omega) (Read.val_main_v58 (F := Ideal) x0 x1 x2) rfl rfl b s l c hc).trans (v58_at x0 x1 x2 b s l)
  | ⟨3, _⟩, hc =>
    exact (cat_piece _ _ 3 (by show 3 < 8; omega) (Read.val_main_v178 (F := Ideal) x0 x1 x2) rfl rfl b s l c hc).trans (v178_at x0 x1 x2 b s l)
  | ⟨4, _⟩, hc =>
    exact (cat_piece _ _ 4 (by show 4 < 8; omega) (Read.val_main_v102 (F := Ideal) x0 x1 x2) rfl rfl b s l c hc).trans (v102_at x0 x1 x2 b s l)
  | ⟨5, _⟩, hc =>
    exact (cat_piece _ _ 5 (by show 5 < 8; omega) (Read.val_main_v222 (F := Ideal) x0 x1 x2) rfl rfl b s l c hc).trans (v222_at x0 x1 x2 b s l)
  | ⟨6, _⟩, hc =>
    exact (cat_piece _ _ 6 (by show 6 < 8; omega) (Read.val_main_v123 (F := Ideal) x0 x1 x2) rfl rfl b s l c hc).trans (v123_at x0 x1 x2 b s l)
  | ⟨7, _⟩, hc =>
    exact (cat_piece _ _ 7 (by show 7 < 8; omega) (Read.val_main_v243 (F := Ideal) x0 x1 x2) rfl rfl b s l c hc).trans (v243_at x0 x1 x2 b s l)

end Cert.Bimpm

end
-- ==== Proof.KernelArray.lean ====
/-
  From one batch element's block to the whole array. The grid has sixteen points; point `t` loads block `(t, 0, 0)` of
  each sentence array (all of batch element `t`), the whole weight array, and writes block `(t, 0, 0)` of the result.
  So what point `t` writes is batch element `t` of `G` of the argument arrays, the sixteen written blocks cover the
  [16, 128, 128] result, and after the run the result array is `G` of the arguments.
-/
import proofs.«101604_j57621281243632_1_alg».proof.Proof.Gen.KernelIdeal.Value
import proofs.«101604_j57621281243632_1_alg».proof.Proof.Spec
import proofs.«101604_j57621281243632_1_alg».proof.Proof.KBody
import Idealize.ShloMosaic.Lib.Pipeline.Value
import Idealize.ShloMosaic.Lib.ValueIdx

noncomputable section

namespace Cert.Bimpm

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Which blocks a grid point touches -/

/-- Point `t` of the grid works on batch element `t`. -/
def batchOf (t : Fin cfg0.N) : Fin 16 := ⟨t.val, lt_of_lt_of_eq t.isLt N_0⟩

/-- The printed index maps, decided over the sixteen points: the two sentence windows and the output window sit at block
    `(t, 0, 0)`, the weight window at block `(0, 0, 0)`. -/
theorem point_blocks : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The input blocks are the arguments read at batch element `t` -/

/-- The first sentence's block at point `t`, row `s`, column `k`, is the argument at `(t, s, k)`. -/
theorem sentence0_block (c : Dev nD) (t : Fin cfg0.N) (s : Fin 128) (k : Fin 512) :
    (iblk m c 0 t : Vec Ideal S1x128x512 .f32) (ix3 (0 : Fin 1) s k)
      = (V m c main_arg0 : S16x128x512.Idx → EReal) (ix3 (batchOf t) s k) := by
  show V m c main_arg0 (((cfg0.win 0).blk t).view.emb (ix3 (0 : Fin 1) s k)) = V m c main_arg0 (ix3 (batchOf t) s k)
  refine congrArg _ (funext fun a => Fin.ext ?_)
  obtain ⟨⟨e0, e1, e2⟩, -⟩ := point_blocks t
  match a with
  | ⟨0, _⟩ => show win0_0.index t (0 : Fin 3) * 1 + 1 * 0 = t.val; omega
  | ⟨1, _⟩ => show win0_0.index t (1 : Fin 3) * 128 + 1 * s.val = s.val; omega
  | ⟨2, _⟩ => show win0_0.index t (2 : Fin 3) * 512 + 1 * k.val = k.val; omega

/-- The second sentence's block likewise. -/
theorem sentence1_block (c : Dev nD) (t : Fin cfg0.N) (s : Fin 128) (k : Fin 512) :
    (iblk m c 1 t : Vec Ideal S1x128x512 .f32) (ix3 (0 : Fin 1) s k)
      = (V m c main_arg1 : S16x128x512.Idx → EReal) (ix3 (batchOf t) s k) := by
  show V m c main_arg1 (((cfg0.win 1).blk t).view.emb (ix3 (0 : Fin 1) s k)) = V m c main_arg1 (ix3 (batchOf t) s k)
  refine congrArg _ (funext fun a => Fin.ext ?_)
  obtain ⟨-, ⟨e0, e1, e2⟩, -⟩ := point_blocks t
  match a with
  | ⟨0, _⟩ => show win0_1.index t (0 : Fin 3) * 1 + 1 * 0 = t.val; omega
  | ⟨1, _⟩ => show win0_1.index t (1 : Fin 3) * 128 + 1 * s.val = s.val; omega
  | ⟨2, _⟩ => show win0_1.index t (2 : Fin 3) * 512 + 1 * k.val = k.val; omega

/-- The weight window's block is the whole weight array, at every point. -/
theorem weights_block (c : Dev nD) (t : Fin cfg0.N) :
    (iblk m c 2 t : Vec Ideal S8x16x256 .f32) = (V m c main_arg2 : S8x16x256.Idx → EReal) := by
  funext y
  show V m c main_arg2 (((cfg0.win 2).blk t).view.emb y) = V m c main_arg2 y
  refine congrArg _ (funext fun a => Fin.ext ?_)
  obtain ⟨-, -, ⟨e0, e1, e2⟩, -⟩ := point_blocks t
  match a with
  | ⟨0, _⟩ => show win0_2.index t (0 : Fin 3) * 8 + 1 * (y 0).val = (y 0).val; omega
  | ⟨1, _⟩ => show win0_2.index t (1 : Fin 3) * 16 + 1 * (y 1).val = (y 1).val; omega
  | ⟨2, _⟩ => show win0_2.index t (2 : Fin 3) * 256 + 1 * (y 2).val = (y 2).val; omega

/-! ## One block's result is one batch element of the whole result -/

/-- If two blocks are batch element `b` of two [16, 128, 512] arrays, the block's result is the arrays' result at `b`. -/
theorem blockResult_eq_result (x0 x1 : S16x128x512.Idx → EReal) (x2 : S8x16x256.Idx → EReal)
    (X0 X1 : S1x128x512.Idx → EReal) (b : Fin 16)
    (h0 : ∀ (s : Fin 128) (k : Fin 512), X0 (ix3 (0 : Fin 1) s k) = x0 (ix3 b s k))
    (h1 : ∀ (s : Fin 128) (k : Fin 512), X1 (ix3 (0 : Fin 1) s k) = x1 (ix3 b s k))
    (s : Fin 128) (p : Fin 8) (l : Fin 16) :
    blockResult X0 X1 x2 s p l = result x0 x1 x2 b s p l := by
  have a1 : blo X0 = lo x0 b := funext fun s => funext fun h => h0 s _
  have a2 : bhi X0 = hi x0 b := funext fun s => funext fun h => h0 s _
  have b1 : blo X1 = lo x1 b := funext fun s => funext fun h => h1 s _
  have b2 : bhi X1 = hi x1 b := funext fun s => funext fun h => h1 s _
  unfold blockResult result
  rw [a1, a2, b1, b2]

/-! ## What a point writes back -/

/-- An element of point `t`'s output block sits at batch element `t` of the result array. -/
theorem out_block_emb (t : Fin cfg0.N) (s k : Fin 128) :
    ((cfg0.win 3).blk t).view.emb (ix3 (0 : Fin 1) s k) = (ix3 (batchOf t) s k : S16x128x128.Idx) := by
  refine funext fun a => Fin.ext ?_
  obtain ⟨-, -, -, ⟨e0, e1, e2⟩⟩ := point_blocks t
  match a with
  | ⟨0, _⟩ => show win0_3.index t (0 : Fin 3) * 1 + 1 * 0 = t.val; omega
  | ⟨1, _⟩ => show win0_3.index t (1 : Fin 3) * 128 + 1 * s.val = s.val; omega
  | ⟨2, _⟩ => show win0_3.index t (2 : Fin 3) * 128 + 1 * k.val = k.val; omega

/-- WHAT POINT `t` WRITES BACK is block `t` of `G` of the argument arrays. -/
theorem written_eq (c : Dev nD) (t : Fin cfg0.N) :
    (dats m 0 c).flushed 3 t
      = ((cfg0.win 3).blk t).view.read (Elt Ideal) (G (V m c main_arg0) (V m c main_arg1) (V m c main_arg2)) := by
  rw [Value.flushed3]
  funext y
  obtain ⟨z, s, k, rfl⟩ : ∃ (z : Fin 1) (s : Fin 128) (k : Fin 128), y = ix3 z s k :=
    ⟨y 0, y 1, y 2, eq_ix3 (n0 := 1) (n1 := 128) (n2 := 128) y⟩
  obtain rfl : z = 0 := Subsingleton.elim _ _
  show out0_3 (F := Ideal) (iblk m c 0 t) (iblk m c 1 t) (iblk m c 2 t) (ix3 (0 : Fin 1) s k)
    = G (V m c main_arg0) (V m c main_arg1) (V m c main_arg2) (((cfg0.win 3).blk t).view.emb (ix3 (0 : Fin 1) s k))
  rw [out_block_emb t s k]
  refine (body_eq (iblk m c 0 t) (iblk m c 1 t) (iblk m c 2 t) s k).trans ?_
  rw [weights_block m c t]
  exact blockResult_eq_result (V m c main_arg0) (V m c main_arg1) (V m c main_arg2) (iblk m c 0 t) (iblk m c 1 t)
    (batchOf t) (sentence0_block m c t) (sentence1_block m c t) s (grp k) (wrow k)

/-! ## The written blocks cover the result array -/

/-- An index of the result array is in point `t`'s block iff each coordinate is in the block's range on its axis. -/
theorem mem_out_block (t : Fin cfg0.N) (i : S16x128x128.Idx) :
    i ∈ ((cfg0.win 3).blk t).view.set ↔ ∀ a : Fin 3, win0_3.index t a * S1x128x128.size a ≤ (i a).val
      ∧ (i a).val < win0_3.index t a * S1x128x128.size a + S1x128x128.size a := by
  show i ∈ ((View.whole main_v0).slice (win0_3.rect t)).set ↔ _
  rw [View.set_slice_whole, Rect.mem_set_unit]
  exact Iff.rfl

/-- Every index `(b, s, k)` of the result lies in the block point `b` writes. -/
theorem out_blocks_cover (i : S16x128x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hi2 : (i 2).val < 128 := (i 2).isLt
  refine ⟨⟨(i 0).val, lt_of_lt_of_eq hi0 N_0.symm⟩, flush0_3 _, ?_⟩
  rw [mem_out_block]
  obtain ⟨-, -, -, ⟨e0, e1, e2⟩⟩ := point_blocks ⟨(i 0).val, lt_of_lt_of_eq hi0 N_0.symm⟩
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [e0]; show (i 0).val * 1 ≤ (i 0).val ∧ (i 0).val < (i 0).val * 1 + 1; omega
  | ⟨1, _⟩ =>
    show win0_3.index ⟨(i 0).val, _⟩ (1 : Fin 3) * 128 ≤ (i 1).val ∧ (i 1).val < win0_3.index ⟨(i 0).val, _⟩ (1 : Fin 3) * 128 + 128
    rw [e1]; omega
  | ⟨2, _⟩ =>
    show win0_3.index ⟨(i 0).val, _⟩ (2 : Fin 3) * 128 ≤ (i 2).val ∧ (i 2).val < win0_3.index ⟨(i 0).val, _⟩ (2 : Fin 3) * 128 + 128
    rw [e2]; omega

/-! ## The array after the run, and the run -/

/-- After the sixteen points the result array is `G` of the argument arrays. -/
theorem out_array_eq (c : Dev nD) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => written_eq m c t) out_blocks_cover

/-- The kernel's run, read: the result array ends at `G` of the argument arrays, the arguments unchanged. -/
theorem kernel_run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out_array_eq m c), (h c).2⟩) (Value.run_blocks m ρ)

end Cert.Bimpm

end
-- ==== Proof.lean ====
/-
  The certificate's claims. Both programs compute `Cert.Bimpm.G` (Proof/Spec.lean) of the three argument arrays over the
  extended reals: the kernel block by block over its sixteen batch elements, the reference stage by stage on whole arrays.
-/
import proofs.«101604_j57621281243632_1_alg».proof.Defs
import proofs.«101604_j57621281243632_1_alg».proof.Proof.Gen.Kernel
import proofs.«101604_j57621281243632_1_alg».proof.Proof.Gen.Kernel.Skeleton
import proofs.«101604_j57621281243632_1_alg».proof.Proof.Gen.Kernel.Launch
import proofs.«101604_j57621281243632_1_alg».proof.Proof.Gen.Kernel.Points
import proofs.«101604_j57621281243632_1_alg».proof.Proof.Gen.Kernel.Frame
import proofs.«101604_j57621281243632_1_alg».proof.Proof.Gen.KernelIdeal
import proofs.«101604_j57621281243632_1_alg».proof.Proof.Gen.KernelIdeal.Skeleton
import proofs.«101604_j57621281243632_1_alg».proof.Proof.Gen.KernelIdeal.Launch
import proofs.«101604_j57621281243632_1_alg».proof.Proof.Gen.KernelIdeal.Points
import proofs.«101604_j57621281243632_1_alg».proof.Proof.Gen.KernelIdeal.Frame
import proofs.«101604_j57621281243632_1_alg».proof.Proof.Gen.ReferenceIdeal
import proofs.«101604_j57621281243632_1_alg».proof.Proof.Gen.Pre_finite_inputs
import proofs.«101604_j57621281243632_1_alg».proof.Proof.Gen.KernelIdeal.Value
import proofs.«101604_j57621281243632_1_alg».proof.Proof.RefRun
import proofs.«101604_j57621281243632_1_alg».proof.Proof.RefRunMain
import proofs.«101604_j57621281243632_1_alg».proof.Proof.RefRead
import proofs.«101604_j57621281243632_1_alg».proof.Proof.Spec
import proofs.«101604_j57621281243632_1_alg».proof.Proof.KBody
import proofs.«101604_j57621281243632_1_alg».proof.Proof.RefValue
import proofs.«101604_j57621281243632_1_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run's post without the result. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation: nothing to preserve. -/
theorem preserves : Cert.preserves_Kernel_KernelIdeal := trivial

/-- Over the extended reals, from memories that agree on the three arguments, the kernel's result array and the
    reference's result both end at `G` of the arguments. -/
theorem algebraic : Cert.algebraic_KernelIdeal_ReferenceIdeal := by
  intro m ρ m' ρ' _ hagree
  refine ⟨fun c => Cert.Bimpm.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Bimpm.kernel_run m ρ, ?_⟩
  refine (θ_run Cert.ReferenceIdeal.defs _ _).mono (fun _ h c => ⟨(h c).1.trans ?_, (h c).2⟩)
    (Cert.ReferenceIdeal.RefValue.run (F := Ideal) m' ρ')
  rw [Cert.Bimpm.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
